-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x256 : Shape := ⟨2, ![2048, 256]⟩
abbrev S256x32 : Shape := ⟨2, ![256, 32]⟩
abbrev S32 : Shape := ⟨1, ![32]⟩
abbrev S32x8 : Shape := ⟨2, ![32, 8]⟩
abbrev S8 : Shape := ⟨1, ![8]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S32x8 .f32) (main_arg5 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x8 .f32 := Host.absf main_arg4
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S2048x2048 .f32) (main_arg1 : FVec F S2048x256 .f32) (main_arg2 : FVec F S256x32 .f32) (main_arg3 : FVec F S32 .f32) (main_arg4 : FVec F S32x8 .f32) (main_arg5 : FVec F S8 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S2048x2048 : Shape := ⟨2, ![2048, 2048]⟩
abbrev S2048x256 : Shape := ⟨2, ![2048, 256]⟩
abbrev S256x32 : Shape := ⟨2, ![256, 32]⟩
abbrev S32 : Shape := ⟨1, ![32]⟩
abbrev S32x8 : Shape := ⟨2, ![32, 8]⟩
abbrev S8 : Shape := ⟨1, ![8]⟩
abbrev S2048x32 : Shape := ⟨2, ![2048, 32]⟩
abbrev S1x32 : Shape := ⟨2, ![1, 32]⟩
abbrev S_ : Shape := ⟨0, ![]⟩
abbrev S2048x8 : Shape := ⟨2, ![2048, 8]⟩
abbrev S1x8 : Shape := ⟨2, ![1, 8]⟩
abbrev S2048 : Shape := ⟨1, ![2048]⟩
abbrev S2048x1 : Shape := ⟨2, ![2048, 1]⟩
abbrev S8x2048 : Shape := ⟨2, ![8, 2048]⟩
abbrev S256x2048 : Shape := ⟨2, ![256, 2048]⟩
abbrev S256x8 : Shape := ⟨2, ![256, 8]⟩
abbrev S1x2048 : Shape := ⟨2, ![1, 2048]⟩
abbrev S256 : Shape := ⟨1, ![256]⟩
abbrev S256x1 : Shape := ⟨2, ![256, 1]⟩
abbrev S1x2048x8 : Shape := ⟨3, ![1, 2048, 8]⟩
abbrev S3x2048x8 : Shape := ⟨3, ![3, 2048, 8]⟩

abbrev nBuf : Space → Nat
  | .hbm => 83
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x256, .f32⟩
  | .hbm, ⟨2, _⟩ => ⟨S256x32, .f32⟩
  | .hbm, ⟨3, _⟩ => ⟨S32, .f32⟩
  | .hbm, ⟨4, _⟩ => ⟨S32x8, .f32⟩
  | .hbm, ⟨5, _⟩ => ⟨S8, .f32⟩
  | .hbm, ⟨6, _⟩ => ⟨S2048x32, .f32⟩
  | .hbm, ⟨7, _⟩ => ⟨S1x32, .f32⟩
  | .hbm, ⟨8, _⟩ => ⟨S2048x32, .f32⟩
  | .hbm, ⟨9, _⟩ => ⟨S2048x32, .f32⟩
  | .hbm, ⟨10, _⟩ => ⟨S_, .f32⟩
  | .hbm, ⟨11, _⟩ => ⟨S2048x32, .f32⟩
  | .hbm, ⟨12, _⟩ => ⟨S2048x32, .f32⟩
  | .hbm, ⟨13, _⟩ => ⟨S2048x8, .f32⟩
  | .hbm, ⟨14, _⟩ => ⟨S1x8, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048x1, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x8, .f32⟩
  | .hbm, ⟨30, _⟩ => ⟨S2048x8, .f32⟩
  | .hbm, ⟨31, _⟩ => ⟨S8x2048, .f32⟩
  | .hbm, ⟨32, _⟩ => ⟨S2048x8, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x8, .f32⟩
  | .hbm, ⟨46, _⟩ => ⟨S2048x8, .f32⟩
  | .hbm, ⟨47, _⟩ => ⟨S8x2048, .f32⟩
  | .hbm, ⟨48, _⟩ => ⟨S2048x8, .f32⟩
  | .hbm, ⟨49, _⟩ => ⟨S_, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048x1, .f32⟩
  | .hbm, ⟨55, _⟩ => ⟨S2048x8, .f32⟩
  | .hbm, ⟨56, _⟩ => ⟨S2048x8, .f32⟩
  | .hbm, ⟨57, _⟩ => ⟨S2048x8, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x8, .f32⟩
  | .hbm, ⟨62, _⟩ => ⟨S2048x8, .f32⟩
  | .hbm, ⟨63, _⟩ => ⟨S8x2048, .f32⟩
  | .hbm, ⟨64, _⟩ => ⟨S2048x8, .f32⟩
  | .hbm, ⟨65, _⟩ => ⟨S_, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S2048x1, .f32⟩
  | .hbm, ⟨71, _⟩ => ⟨S2048x8, .f32⟩
  | .hbm, ⟨72, _⟩ => ⟨S2048x8, .f32⟩
  | .hbm, ⟨73, _⟩ => ⟨S2048x8, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x8, .f32⟩
  | .hbm, ⟨78, _⟩ => ⟨S2048x8, .f32⟩
  | .hbm, ⟨79, _⟩ => ⟨S1x2048x8, .f32⟩
  | .hbm, ⟨80, _⟩ => ⟨S1x2048x8, .f32⟩
  | .hbm, ⟨81, _⟩ => ⟨S1x2048x8, .f32⟩
  | .hbm, ⟨82, _⟩ => ⟨S3x2048x8, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S256x8, .f32⟩
  | .local _ .vmem, ⟨4, _⟩ => ⟨S256x8, .f32⟩
  | .local _ .vmem, ⟨5, _⟩ => ⟨S256x8, .f32⟩
  | .local _ .vmem, ⟨6, _⟩ => ⟨S256x8, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | .local _ .vmem, ⟨10, _⟩ => ⟨S256x8, .f32⟩
  | .local _ .vmem, ⟨11, _⟩ => ⟨S256x8, .f32⟩
  | .local _ .vmem, ⟨12, _⟩ => ⟨S256x8, .f32⟩
  | .local _ .vmem, ⟨13, _⟩ => ⟨S256x8, .f32⟩
  | .local _ .vmem, ⟨14, _⟩ => ⟨S256x2048, .f32⟩
  | .local _ .vmem, ⟨15, _⟩ => ⟨S256x2048, .f32⟩
  | .local _ .vmem, ⟨16, _⟩ => ⟨S8x2048, .f32⟩
  | .local _ .vmem, ⟨17, _⟩ => ⟨S256x8, .f32⟩
  | .local _ .vmem, ⟨18, _⟩ => ⟨S256x8, .f32⟩
  | .local _ .vmem, ⟨19, _⟩ => ⟨S256x8, .f32⟩
  | .local _ .vmem, ⟨20, _⟩ => ⟨S256x8, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  reducesTo_S2048x8_S2048_d1 : S2048x8.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  transposes_S2048x8_S8x2048_1_0 : S2048x8.Transposes [1, 0] S8x2048
  inb_S256x2048_S256x2048_0_0 : ∀ a, (![0, 0] : Fin 2 → Nat) a + S256x2048.size a ≤ S256x2048.size a
  h_S256x2048 : 0 < S256x2048.numel
  inb_S8x2048_S1x2048_0_0 : ∀ a, (![0, 0] : Fin 2 → Nat) a + S1x2048.size a ≤ S8x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  inb_S256x8_S256x1_0_0 : ∀ a, (![0, 0] : Fin 2 → Nat) a + S256x1.size a ≤ S256x8.size a
  h_S256x1 : 0 < S256x1.numel
  shapeCasts_S256x1_S256x1 : S256x1.ShapeCasts S256x1
  inb_S8x2048_S1x2048_1_0 : ∀ a, (![1, 0] : Fin 2 → Nat) a + S1x2048.size a ≤ S8x2048.size a
  inb_S256x8_S256x1_0_1 : ∀ a, (![0, 1] : Fin 2 → Nat) a + S256x1.size a ≤ S256x8.size a
  inb_S8x2048_S1x2048_2_0 : ∀ a, (![2, 0] : Fin 2 → Nat) a + S1x2048.size a ≤ S8x2048.size a
  inb_S256x8_S256x1_0_2 : ∀ a, (![0, 2] : Fin 2 → Nat) a + S256x1.size a ≤ S256x8.size a
  inb_S8x2048_S1x2048_3_0 : ∀ a, (![3, 0] : Fin 2 → Nat) a + S1x2048.size a ≤ S8x2048.size a
  inb_S256x8_S256x1_0_3 : ∀ a, (![0, 3] : Fin 2 → Nat) a + S256x1.size a ≤ S256x8.size a
  inb_S8x2048_S1x2048_4_0 : ∀ a, (![4, 0] : Fin 2 → Nat) a + S1x2048.size a ≤ S8x2048.size a
  inb_S256x8_S256x1_0_4 : ∀ a, (![0, 4] : Fin 2 → Nat) a + S256x1.size a ≤ S256x8.size a
  inb_S8x2048_S1x2048_5_0 : ∀ a, (![5, 0] : Fin 2 → Nat) a + S1x2048.size a ≤ S8x2048.size a
  inb_S256x8_S256x1_0_5 : ∀ a, (![0, 5] : Fin 2 → Nat) a + S256x1.size a ≤ S256x8.size a
  inb_S8x2048_S1x2048_6_0 : ∀ a, (![6, 0] : Fin 2 → Nat) a + S1x2048.size a ≤ S8x2048.size a
  inb_S256x8_S256x1_0_6 : ∀ a, (![0, 6] : Fin 2 → Nat) a + S256x1.size a ≤ S256x8.size a
  inb_S8x2048_S1x2048_7_0 : ∀ a, (![7, 0] : Fin 2 → Nat) a + S1x2048.size a ≤ S8x2048.size a
  inb_S256x8_S256x1_0_7 : ∀ a, (![0, 7] : Fin 2 → Nat) a + S256x1.size a ≤ S256x8.size a
  bcast_S2048x8_S1x2048x8_1_2 : S2048x8.BroadcastsInDim S1x2048x8 (![1, 2] : Fin 2 → Fin S1x2048x8.rank)
  concatenates_S1x2048x8_S1x2048x8_S1x2048x8_S3x2048x8_d0 : Shape.Concatenates [S1x2048x8, S1x2048x8, S1x2048x8] S3x2048x8 0
  dot_S2048x256_S256x32_S2048x32_1_0_0_1_n_n_wf : DotDims.WF S2048x256 S256x32 S2048x32 [1] [0] [0] [1] [] []
  dot_S2048x32_S32x8_S2048x8_1_0_0_1_n_n_wf : DotDims.WF S2048x32 S32x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8.size a ≤ S2048x8.size a
  hwx0_2 : ∀ i : grid0.Coords, EltTy.bits .f32 = 32 ∨ (Rect.block (s := S2048x8) S256x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S2048x8.size a
  hwx0_3 : ∀ i : grid0.Coords, EltTy.bits .f32 = 32 ∨ (Rect.block (s := S2048x8) S256x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048.size a ≤ S8x2048.size a
  hwx1_1 : ∀ i : grid1.Coords, EltTy.bits .f32 = 32 ∨ (Rect.block (s := S8x2048) S8x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8.size a ≤ S2048x8.size a
  hwx1_2 : ∀ i : grid1.Coords, EltTy.bits .f32 = 32 ∨ (Rect.block (s := S2048x8) S256x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x8.size a ≤ S2048x8.size a
  hwx1_3 : ∀ i : grid1.Coords, EltTy.bits .f32 = 32 ∨ (Rect.block (s := S2048x8) S256x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x2048.size a ≤ S8x2048.size a
  hwx2_1 : ∀ i : grid2.Coords, EltTy.bits .f32 = 32 ∨ (Rect.block (s := S8x2048) S8x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x8.size a ≤ S2048x8.size a
  hwx2_2 : ∀ i : grid2.Coords, EltTy.bits .f32 = 32 ∨ (Rect.block (s := S2048x8) S256x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x8.size a ≤ S2048x8.size a
  hwx2_3 : ∀ i : grid2.Coords, EltTy.bits .f32 = 32 ∨ (Rect.block (s := S2048x8) S256x8.size (cc2_transform_3 i) (hinb2_3 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x8_S2048x8_1_0_0_1_n_n : DotDims S2048x32 S32x8 S2048x8 where
  lhsContracting := [1]
  rhsContracting := [0]
  lhsNonContracting := [0]
  rhsNonContracting := [1]
  lhsBatch := []
  rhsBatch := []
  wf := dot_S2048x32_S32x8_S2048x8_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S256x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S8x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S256x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S256x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S2048x256 : Shape := ⟨2, ![2048, 256]⟩
abbrev S256x32 : Shape := ⟨2, ![256, 32]⟩
abbrev S32 : Shape := ⟨1, ![32]⟩
abbrev S32x8 : Shape := ⟨2, ![32, 8]⟩
abbrev S8 : Shape := ⟨1, ![8]⟩
abbrev S2048x32 : Shape := ⟨2, ![2048, 32]⟩
abbrev S1x32 : Shape := ⟨2, ![1, 32]⟩
abbrev S_ : Shape := ⟨0, ![]⟩
abbrev S2048x8 : Shape := ⟨2, ![2048, 8]⟩
abbrev S1x8 : Shape := ⟨2, ![1, 8]⟩
abbrev S2048 : Shape := ⟨1, ![2048]⟩
abbrev S2048x1 : Shape := ⟨2, ![2048, 1]⟩
abbrev S2048x2048x1 : Shape := ⟨3, ![2048, 2048, 1]⟩
abbrev S1x2048x8 : Shape := ⟨3, ![1, 2048, 8]⟩
abbrev S2048x2048x8 : Shape := ⟨3, ![2048, 2048, 8]⟩
abbrev S3x2048x8 : Shape := ⟨3, ![3, 2048, 8]⟩

abbrev nBuf : Space → Nat
  | .hbm => 161
  | .vmem => 0
  | .smem => 0
  | _ => 0

abbrev hbmTy0_0 (i : Nat) : BufTy := match i % 128 with
  | 0 => ⟨S2048x2048, .f32⟩
  | 1 => ⟨S2048x256, .f32⟩
  | 2 => ⟨S256x32, .f32⟩
  | 3 => ⟨S32, .f32⟩
  | 4 => ⟨S32x8, .f32⟩
  | 5 => ⟨S8, .f32⟩
  | 6 => ⟨S2048x32, .f32⟩
  | 7 => ⟨S1x32, .f32⟩
  | 8 => ⟨S2048x32, .f32⟩
  | 9 => ⟨S2048x32, .f32⟩
  | 10 => ⟨S_, .f32⟩
  | 11 => ⟨S2048x32, .f32⟩
  | 12 => ⟨S2048x32, .f32⟩
  | 13 => ⟨S2048x8, .f32⟩
  | 14 => ⟨S1x8, .f32⟩
  | 15 => ⟨S2048x8, .f32⟩
  | 16 => ⟨S2048x8, .f32⟩
  | 17 => ⟨S_, .f32⟩
  | 18 => ⟨S2048, .f32⟩
  | 19 => ⟨S_, .f32⟩
  | 20 => ⟨S2048, .f32⟩
  | 21 => ⟨S2048, .f32⟩
  | 22 => ⟨S2048x1, .f32⟩
  | 23 => ⟨S2048x8, .f32⟩
  | 24 => ⟨S2048x8, .f32⟩
  | 25 => ⟨S2048x8, .f32⟩
  | 26 => ⟨S_, .f32⟩
  | 27 => ⟨S2048, .f32⟩
  | 28 => ⟨S2048x1, .f32⟩
  | 29 => ⟨S2048x8, .f32⟩
  | 30 => ⟨S2048x8, .f32⟩
  | 31 => ⟨S2048x2048x1, .f32⟩
  | 32 => ⟨S1x2048x8, .f32⟩
  | 33 => ⟨S2048x2048x8, .f32⟩
  | 34 => ⟨S2048x2048x8, .f32⟩
  | 35 => ⟨S2048x2048x8, .f32⟩
  | 36 => ⟨S_, .f32⟩
  | 37 => ⟨S_, .f32⟩
  | 38 => ⟨S_, .f32⟩
  | 39 => ⟨S2048x2048x8, .f32⟩
  | 40 => ⟨S2048x2048x8, .f32⟩
  | 41 => ⟨S_, .f32⟩
  | 42 => ⟨S2048x2048x8, .f32⟩
  | 43 => ⟨S2048x2048x8, .f32⟩
  | 44 => ⟨S2048x2048x8, .f32⟩
  | 45 => ⟨S2048x2048x8, .f32⟩
  | 46 => ⟨S_, .f32⟩
  | 47 => ⟨S2048x8, .f32⟩
  | 48 => ⟨S2048x8, .f32⟩
  | 49 => ⟨S_, .f32⟩
  | 50 => ⟨S2048x8, .f32⟩
  | 51 => ⟨S2048x8, .f32⟩
  | 52 => ⟨S_, .f32⟩
  | 53 => ⟨S2048x8, .f32⟩
  | 54 => ⟨S2048x8, .f32⟩
  | 55 => ⟨S_, .f32⟩
  | 56 => ⟨S2048x8, .f32⟩
  | 57 => ⟨S2048x8, .f32⟩
  | 58 => ⟨S2048x8, .f32⟩
  | 59 => ⟨S_, .f32⟩
  | 60 => ⟨S2048, .f32⟩
  | 61 => ⟨S_, .f32⟩
  | 62 => ⟨S2048, .f32⟩
  | 63 => ⟨S2048, .f32⟩
  | 64 => ⟨S2048x1, .f32⟩
  | 65 => ⟨S2048x8, .f32⟩
  | 66 => ⟨S2048x8, .f32⟩
  | 67 => ⟨S2048x8, .f32⟩
  | 68 => ⟨S_, .f32⟩
  | 69 => ⟨S2048, .f32⟩
  | 70 => ⟨S2048x1, .f32⟩
  | 71 => ⟨S2048x8, .f32⟩
  | 72 => ⟨S2048x8, .f32⟩
  | 73 => ⟨S2048x2048x1, .f32⟩
  | 74 => ⟨S1x2048x8, .f32⟩
  | 75 => ⟨S2048x2048x8, .f32⟩
  | 76 => ⟨S2048x2048x8, .f32⟩
  | 77 => ⟨S2048x2048x8, .f32⟩
  | 78 => ⟨S_, .f32⟩
  | 79 => ⟨S_, .f32⟩
  | 80 => ⟨S_, .f32⟩
  | 81 => ⟨S2048x2048x8, .f32⟩
  | 82 => ⟨S2048x2048x8, .f32⟩
  | 83 => ⟨S_, .f32⟩
  | 84 => ⟨S2048x2048x8, .f32⟩
  | 85 => ⟨S2048x2048x8, .f32⟩
  | 86 => ⟨S2048x2048x8, .f32⟩
  | 87 => ⟨S2048x2048x8, .f32⟩
  | 88 => ⟨S_, .f32⟩
  | 89 => ⟨S2048x8, .f32⟩
  | 90 => ⟨S2048x8, .f32⟩
  | 91 => ⟨S_, .f32⟩
  | 92 => ⟨S2048x8, .f32⟩
  | 93 => ⟨S2048x8, .f32⟩
  | 94 => ⟨S_, .f32⟩
  | 95 => ⟨S2048x8, .f32⟩
  | 96 => ⟨S2048x8, .f32⟩
  | 97 => ⟨S_, .f32⟩
  | 98 => ⟨S2048x8, .f32⟩
  | 99 => ⟨S2048x8, .f32⟩
  | 100 => ⟨S2048x8, .f32⟩
  | 101 => ⟨S_, .f32⟩
  | 102 => ⟨S2048, .f32⟩
  | 103 => ⟨S_, .f32⟩
  | 104 => ⟨S2048, .f32⟩
  | 105 => ⟨S2048, .f32⟩
  | 106 => ⟨S2048x1, .f32⟩
  | 107 => ⟨S2048x8, .f32⟩
  | 108 => ⟨S2048x8, .f32⟩
  | 109 => ⟨S2048x8, .f32⟩
  | 110 => ⟨S_, .f32⟩
  | 111 => ⟨S2048, .f32⟩
  | 112 => ⟨S2048x1, .f32⟩
  | 113 => ⟨S2048x8, .f32⟩
  | 114 => ⟨S2048x8, .f32⟩
  | 115 => ⟨S2048x2048x1, .f32⟩
  | 116 => ⟨S1x2048x8, .f32⟩
  | 117 => ⟨S2048x2048x8, .f32⟩
  | 118 => ⟨S2048x2048x8, .f32⟩
  | 119 => ⟨S2048x2048x8, .f32⟩
  | 120 => ⟨S_, .f32⟩
  | 121 => ⟨S_, .f32⟩
  | 122 => ⟨S_, .f32⟩
  | 123 => ⟨S2048x2048x8, .f32⟩
  | 124 => ⟨S2048x2048x8, .f32⟩
  | 125 => ⟨S_, .f32⟩
  | 126 => ⟨S2048x2048x8, .f32⟩
  | 127 => ⟨S2048x2048x8, .f32⟩
  | _ => ⟨S2048x2048, .f32⟩

abbrev hbmTy0_1 (i : Nat) : BufTy := match i % 128 with
  | 0 => ⟨S2048x2048x8, .f32⟩
  | 1 => ⟨S2048x2048x8, .f32⟩
  | 2 => ⟨S_, .f32⟩
  | 3 => ⟨S2048x8, .f32⟩
  | 4 => ⟨S2048x8, .f32⟩
  | 5 => ⟨S_, .f32⟩
  | 6 => ⟨S2048x8, .f32⟩
  | 7 => ⟨S2048x8, .f32⟩
  | 8 => ⟨S_, .f32⟩
  | 9 => ⟨S2048x8, .f32⟩
  | 10 => ⟨S2048x8, .f32⟩
  | 11 => ⟨S_, .f32⟩
  | 12 => ⟨S2048x8, .f32⟩
  | 13 => ⟨S2048x8, .f32⟩
  | 14 => ⟨S2048x8, .f32⟩
  | 15 => ⟨S_, .f32⟩
  | 16 => ⟨S2048, .f32⟩
  | 17 => ⟨S_, .f32⟩
  | 18 => ⟨S2048, .f32⟩
  | 19 => ⟨S2048, .f32⟩
  | 20 => ⟨S2048x1, .f32⟩
  | 21 => ⟨S2048x8, .f32⟩
  | 22 => ⟨S2048x8, .f32⟩
  | 23 => ⟨S2048x8, .f32⟩
  | 24 => ⟨S_, .f32⟩
  | 25 => ⟨S2048, .f32⟩
  | 26 => ⟨S2048x1, .f32⟩
  | 27 => ⟨S2048x8, .f32⟩
  | 28 => ⟨S2048x8, .f32⟩
  | 29 => ⟨S1x2048x8, .f32⟩
  | 30 => ⟨S1x2048x8, .f32⟩
  | 31 => ⟨S1x2048x8, .f32⟩
  | 32 => ⟨S3x2048x8, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_17 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_20 : Ref sig .tc := ⟨.hbm, 120, rfl⟩
abbrev main_cst_21 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_22 : Ref sig .tc := ⟨.hbm, 130, rfl⟩
abbrev main_v84 : Ref sig .tc := ⟨.hbm, 131, rfl⟩
abbrev main_v85 : Ref sig .tc := ⟨.hbm, 132, rfl⟩
abbrev main_cst_23 : Ref sig .tc := ⟨.hbm, 133, rfl⟩
abbrev main_v86 : Ref sig .tc := ⟨.hbm, 134, rfl⟩
abbrev main_v87 : Ref sig .tc := ⟨.hbm, 135, rfl⟩
abbrev main_cst_24 : Ref sig .tc := ⟨.hbm, 136, rfl⟩
abbrev main_v88 : Ref sig .tc := ⟨.hbm, 137, rfl⟩
abbrev main_v89 : Ref sig .tc := ⟨.hbm, 138, rfl⟩
abbrev main_cst_25 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_26 : Ref sig .tc := ⟨.hbm, 143, rfl⟩
abbrev main_v93 : Ref sig .tc := ⟨.hbm, 144, rfl⟩
abbrev main_cst_27 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_28 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  reducesTo_S2048x8_S2048_d1 : S2048x8.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  bcast_S2048x2048_S2048x2048x1_0_1 : S2048x2048.BroadcastsInDim S2048x2048x1 (![0, 1] : Fin 2 → Fin S2048x2048x1.rank)
  bcast_S2048x8_S1x2048x8_1_2 : S2048x8.BroadcastsInDim S1x2048x8 (![1, 2] : Fin 2 → Fin S1x2048x8.rank)
  bcast_S2048x2048x1_S2048x2048x8_0_1_2 : S2048x2048x1.BroadcastsInDim S2048x2048x8 (![0, 1, 2] : Fin 3 → Fin S2048x2048x8.rank)
  bcast_S1x2048x8_S2048x2048x8_0_1_2 : S1x2048x8.BroadcastsInDim S2048x2048x8 (![0, 1, 2] : Fin 3 → Fin S2048x2048x8.rank)
  bcast_S_S2048x2048x8 : S_.BroadcastsInDim S2048x2048x8 (![] : Fin 0 → Fin S2048x2048x8.rank)
  reducesTo_S2048x2048x8_S2048x8_d1 : S2048x2048x8.ReducesTo [1] S2048x8
  bcast_S_S2048x8 : S_.BroadcastsInDim S2048x8 (![] : Fin 0 → Fin S2048x8.rank)
  concatenates_S1x2048x8_S1x2048x8_S1x2048x8_S3x2048x8_d0 : Shape.Concatenates [S1x2048x8, S1x2048x8, S1x2048x8] S3x2048x8 0
  dot_S2048x256_S256x32_S2048x32_1_0_0_1_n_n_wf : DotDims.WF S2048x256 S256x32 S2048x32 [1] [0] [0] [1] [] []
  dot_S2048x32_S32x8_S2048x8_1_0_0_1_n_n_wf : DotDims.WF S2048x32 S32x8 S2048x8 [1] [0] [0] [1] [] []

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x8_S2048x8_1_0_0_1_n_n : DotDims S2048x32 S32x8 S2048x8 where
  lhsContracting := [1]
  rhsContracting := [0]
  lhsNonContracting := [0]
  rhsNonContracting := [1]
  lhsBatch := []
  rhsBatch := []
  wf := dot_S2048x32_S32x8_S2048x8_1_0_0_1_n_n_wf

class Facts : Prop extends Facts₀ where

variable [Facts]
-- ==== Proof.K_Body0.lean ====
import proofs.«124206_j79594333929560_1_alg».proof.Proof.Gen.Kernel.Launch
import proofs.«124206_j79594333929560_1_alg».proof.Proof.Gen.Kernel.Skeleton
import proofs.«124206_j79594333929560_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Propagation step 0: what one grid point of the kernel leaves in its output block

At a grid point the kernel holds a block of 256 adjacency rows (256 × 2048), the whole transposed label matrix
(8 × 2048) and the 256 × 8 block of the label matrix at the same rows. For each class c = 0 … 7 it multiplies the
adjacency block by row c of the transposed labels, clips, takes log1p of the negation, sums along the neighbours,
exponentiates, and stores a·(1 − ·) + b·(column c of the label block) into column c of the 256 × 8 output block. The
eight column stores tile the output block, so what the block holds afterwards is a function of the three input
blocks alone, whatever it held before (the kernel also loads each output column before overwriting it and discards
the value). Everything here is stated at an arbitrary valuation V of the buffers at the region's entry and at any
float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or not
    (the block index has not moved since the last fetch), for any proof data whose array is V's and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole adjacency block. -/
abbrev rA0 : Rect S256x2048 := Rect.unit (s := S256x2048) ![0, 0] S256x2048.size inb_S256x2048_S256x2048_0_0
/-- Row c of the transposed labels. -/
abbrev rr0_0 : Rect S8x2048 := Rect.unit (s := S8x2048) ![0, 0] S1x2048.size inb_S8x2048_S1x2048_0_0
abbrev rr0_1 : Rect S8x2048 := Rect.unit (s := S8x2048) ![1, 0] S1x2048.size inb_S8x2048_S1x2048_1_0
abbrev rr0_2 : Rect S8x2048 := Rect.unit (s := S8x2048) ![2, 0] S1x2048.size inb_S8x2048_S1x2048_2_0
abbrev rr0_3 : Rect S8x2048 := Rect.unit (s := S8x2048) ![3, 0] S1x2048.size inb_S8x2048_S1x2048_3_0
abbrev rr0_4 : Rect S8x2048 := Rect.unit (s := S8x2048) ![4, 0] S1x2048.size inb_S8x2048_S1x2048_4_0
abbrev rr0_5 : Rect S8x2048 := Rect.unit (s := S8x2048) ![5, 0] S1x2048.size inb_S8x2048_S1x2048_5_0
abbrev rr0_6 : Rect S8x2048 := Rect.unit (s := S8x2048) ![6, 0] S1x2048.size inb_S8x2048_S1x2048_6_0
abbrev rr0_7 : Rect S8x2048 := Rect.unit (s := S8x2048) ![7, 0] S1x2048.size inb_S8x2048_S1x2048_7_0
/-- Column c of a 256 × 8 block. -/
abbrev rc0_0 : Rect S256x8 := Rect.unit (s := S256x8) ![0, 0] S256x1.size inb_S256x8_S256x1_0_0
abbrev rc0_1 : Rect S256x8 := Rect.unit (s := S256x8) ![0, 1] S256x1.size inb_S256x8_S256x1_0_1
abbrev rc0_2 : Rect S256x8 := Rect.unit (s := S256x8) ![0, 2] S256x1.size inb_S256x8_S256x1_0_2
abbrev rc0_3 : Rect S256x8 := Rect.unit (s := S256x8) ![0, 3] S256x1.size inb_S256x8_S256x1_0_3
abbrev rc0_4 : Rect S256x8 := Rect.unit (s := S256x8) ![0, 4] S256x1.size inb_S256x8_S256x1_0_4
abbrev rc0_5 : Rect S256x8 := Rect.unit (s := S256x8) ![0, 5] S256x1.size inb_S256x8_S256x1_0_5
abbrev rc0_6 : Rect S256x8 := Rect.unit (s := S256x8) ![0, 6] S256x1.size inb_S256x8_S256x1_0_6
abbrev rc0_7 : Rect S256x8 := Rect.unit (s := S256x8) ![0, 7] S256x1.size inb_S256x8_S256x1_0_7

/-! ## What the body leaves in the output window's buffer -/

/-- Column c of the output block, from the adjacency block x0, the transposed labels x1 and the label block x2
    (the arithmetic is the skeleton's payloads, composed as the body composes them). -/
def col0_0 (x0 : Vec F S256x2048 .f32) (x1 : Vec F S8x2048 .f32) (x2 : Vec F S256x8 .f32) : FVec F S256x1 .f32 :=
  k0_pay2 (View.ld x0 rA0) (View.ld x1 rr0_0) (View.ld x2 rc0_0)
def col0_1 (x0 : Vec F S256x2048 .f32) (x1 : Vec F S8x2048 .f32) (x2 : Vec F S256x8 .f32) : FVec F S256x1 .f32 :=
  k0_pay4 (k0_pay3 (View.ld x0 rA0) (View.ld x1 rr0_1)) (View.ld x2 rc0_1)
def col0_2 (x0 : Vec F S256x2048 .f32) (x1 : Vec F S8x2048 .f32) (x2 : Vec F S256x8 .f32) : FVec F S256x1 .f32 :=
  k0_pay5 (View.ld x0 rA0) (View.ld x1 rr0_2) (View.ld x2 rc0_2)
def col0_3 (x0 : Vec F S256x2048 .f32) (x1 : Vec F S8x2048 .f32) (x2 : Vec F S256x8 .f32) : FVec F S256x1 .f32 :=
  k0_pay6 (View.ld x0 rA0) (View.ld x1 rr0_3) (View.ld x2 rc0_3)
def col0_4 (x0 : Vec F S256x2048 .f32) (x1 : Vec F S8x2048 .f32) (x2 : Vec F S256x8 .f32) : FVec F S256x1 .f32 :=
  k0_pay8 (k0_pay7 (View.ld x0 rA0) (View.ld x1 rr0_4)) (Scalar.ofBits .f32 0x3F666666#32) (View.ld x2 rc0_4)
def col0_5 (x0 : Vec F S256x2048 .f32) (x1 : Vec F S8x2048 .f32) (x2 : Vec F S256x8 .f32) : FVec F S256x1 .f32 :=
  k0_pay9 (View.ld x0 rA0) (View.ld x1 rr0_5) (View.ld x2 rc0_5)
def col0_6 (x0 : Vec F S256x2048 .f32) (x1 : Vec F S8x2048 .f32) (x2 : Vec F S256x8 .f32) : FVec F S256x1 .f32 :=
  k0_pay11 (k0_pay10 (View.ld x0 rA0) (View.ld x1 rr0_6)) (Scalar.ofBits .f32 0x00000000#32) (Scalar.ofBits .f32 0x3F7FFFEF#32) (View.ld x2 rc0_6)
def col0_7 (x0 : Vec F S256x2048 .f32) (x1 : Vec F S8x2048 .f32) (x2 : Vec F S256x8 .f32) : FVec F S256x1 .f32 :=
  k0_pay1 (k0_pay12 (View.ld x0 rA0) (View.ld x1 rr0_7)) (k0_pay13 (View.ld x2 rc0_7))

/-- The output block after the body: its eight column stores as pieces, last first. -/
def out0_3 (x0 : Vec F S256x2048 .f32) (x1 : Vec F S8x2048 .f32) (x2 : Vec F S256x8 .f32) : Vec F S256x8 .f32 :=
  View.canon [⟨rc0_7, col0_7 x0 x1 x2⟩, ⟨rc0_6, col0_6 x0 x1 x2⟩, ⟨rc0_5, col0_5 x0 x1 x2⟩, ⟨rc0_4, col0_4 x0 x1 x2⟩,
    ⟨rc0_3, col0_3 x0 x1 x2⟩, ⟨rc0_2, col0_2 x0 x1 x2⟩, ⟨rc0_1, col0_1 x0 x1 x2⟩, ⟨rc0_0, col0_0 x0 x1 x2⟩]

/-- The eight columns tile the block, so they cover it. -/
theorem cover0_3 (p0 p1 p2 p3 p4 p5 p6 p7 : Vec F S256x1 .f32) (y : S256x8.Idx) :
    ∃ pc ∈ ([⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] : List (View.Piece (Elt F) S256x8 .f32)), y ∈ pc.1.set :=
  View.cover_of_tiled [⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] S256x1.size (by rfl) y

/-! ## The body's triple -/

set_option maxHeartbeats 4000000 in
/-- The kernel body on whole staging buffers — the three inputs' at contents x0, x1, x2, the output's at anything —
    runs to its end and leaves the inputs' as they were and the output's at out0_3 of the inputs'. -/
theorem sound_kernel0 (c : Dev nD) (E : Set ℕ) (i : grid0.Coords)
    (arg1 : Memref sig .tc .vmem S256x2048 .f32) (harg1 : arg1.IsWhole) (arg2 : Memref sig .tc .vmem S8x2048 .f32) (harg2 : arg2.IsWhole)
    (arg3 : Memref sig .tc .vmem S256x8 .f32) (harg3 : arg3.IsWhole) (arg4 : Memref sig .tc .vmem S256x8 .f32) (harg4 : arg4.IsWhole)
    (x0 : Vec F S256x2048 .f32) (x1 : Vec F S8x2048 .f32) (x2 : Vec F S256x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prop_step_kernel i arg1 harg1 arg2 harg2 arg3 harg3 arg4 harg4) K := by
  simp only [cc0__prop_step_kernel_eq_skeleton]; unfold cc0__prop_step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover0_3 _ _ _ _ _ _ _ _)

/-! ## The pipeline's proof data -/

/-- The proof data of the step's pipeline on core c: the arrays as the region finds them; after the body at point t
    each input's buffer at its block and the output's at out0_3 of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Body1.lean ====
import proofs.«124206_j79594333929560_1_alg».proof.Proof.Gen.Kernel.Launch
import proofs.«124206_j79594333929560_1_alg».proof.Proof.Gen.Kernel.Skeleton
import proofs.«124206_j79594333929560_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Propagation step 1: what one grid point of the kernel leaves in its output block

At a grid point the kernel holds a block of 256 adjacency rows (256 × 2048), the whole transposed label matrix
(8 × 2048) and the 256 × 8 block of the label matrix at the same rows. For each class c = 0 … 7 it multiplies the
adjacency block by row c of the transposed labels, clips, takes log1p of the negation, sums along the neighbours,
exponentiates, and stores a·(1 − ·) + b·(column c of the label block) into column c of the 256 × 8 output block. The
eight column stores tile the output block, so what the block holds afterwards is a function of the three input
blocks alone, whatever it held before (the kernel also loads each output column before overwriting it and discards
the value). Everything here is stated at an arbitrary valuation V of the buffers at the region's entry and at any
float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or not
    (the block index has not moved since the last fetch), for any proof data whose array is V's and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole adjacency block. -/
abbrev rA1 : Rect S256x2048 := Rect.unit (s := S256x2048) ![0, 0] S256x2048.size inb_S256x2048_S256x2048_0_0
/-- Row c of the transposed labels. -/
abbrev rr1_0 : Rect S8x2048 := Rect.unit (s := S8x2048) ![0, 0] S1x2048.size inb_S8x2048_S1x2048_0_0
abbrev rr1_1 : Rect S8x2048 := Rect.unit (s := S8x2048) ![1, 0] S1x2048.size inb_S8x2048_S1x2048_1_0
abbrev rr1_2 : Rect S8x2048 := Rect.unit (s := S8x2048) ![2, 0] S1x2048.size inb_S8x2048_S1x2048_2_0
abbrev rr1_3 : Rect S8x2048 := Rect.unit (s := S8x2048) ![3, 0] S1x2048.size inb_S8x2048_S1x2048_3_0
abbrev rr1_4 : Rect S8x2048 := Rect.unit (s := S8x2048) ![4, 0] S1x2048.size inb_S8x2048_S1x2048_4_0
abbrev rr1_5 : Rect S8x2048 := Rect.unit (s := S8x2048) ![5, 0] S1x2048.size inb_S8x2048_S1x2048_5_0
abbrev rr1_6 : Rect S8x2048 := Rect.unit (s := S8x2048) ![6, 0] S1x2048.size inb_S8x2048_S1x2048_6_0
abbrev rr1_7 : Rect S8x2048 := Rect.unit (s := S8x2048) ![7, 0] S1x2048.size inb_S8x2048_S1x2048_7_0
/-- Column c of a 256 × 8 block. -/
abbrev rc1_0 : Rect S256x8 := Rect.unit (s := S256x8) ![0, 0] S256x1.size inb_S256x8_S256x1_0_0
abbrev rc1_1 : Rect S256x8 := Rect.unit (s := S256x8) ![0, 1] S256x1.size inb_S256x8_S256x1_0_1
abbrev rc1_2 : Rect S256x8 := Rect.unit (s := S256x8) ![0, 2] S256x1.size inb_S256x8_S256x1_0_2
abbrev rc1_3 : Rect S256x8 := Rect.unit (s := S256x8) ![0, 3] S256x1.size inb_S256x8_S256x1_0_3
abbrev rc1_4 : Rect S256x8 := Rect.unit (s := S256x8) ![0, 4] S256x1.size inb_S256x8_S256x1_0_4
abbrev rc1_5 : Rect S256x8 := Rect.unit (s := S256x8) ![0, 5] S256x1.size inb_S256x8_S256x1_0_5
abbrev rc1_6 : Rect S256x8 := Rect.unit (s := S256x8) ![0, 6] S256x1.size inb_S256x8_S256x1_0_6
abbrev rc1_7 : Rect S256x8 := Rect.unit (s := S256x8) ![0, 7] S256x1.size inb_S256x8_S256x1_0_7

/-! ## What the body leaves in the output window's buffer -/

/-- Column c of the output block, from the adjacency block x0, the transposed labels x1 and the label block x2
    (the arithmetic is the skeleton's payloads, composed as the body composes them). -/
def col1_0 (x0 : Vec F S256x2048 .f32) (x1 : Vec F S8x2048 .f32) (x2 : Vec F S256x8 .f32) : FVec F S256x1 .f32 :=
  k1_pay2 (View.ld x0 rA1) (View.ld x1 rr1_0) (View.ld x2 rc1_0)
def col1_1 (x0 : Vec F S256x2048 .f32) (x1 : Vec F S8x2048 .f32) (x2 : Vec F S256x8 .f32) : FVec F S256x1 .f32 :=
  k1_pay4 (k1_pay3 (View.ld x0 rA1) (View.ld x1 rr1_1)) (View.ld x2 rc1_1)
def col1_2 (x0 : Vec F S256x2048 .f32) (x1 : Vec F S8x2048 .f32) (x2 : Vec F S256x8 .f32) : FVec F S256x1 .f32 :=
  k1_pay5 (View.ld x0 rA1) (View.ld x1 rr1_2) (View.ld x2 rc1_2)
def col1_3 (x0 : Vec F S256x2048 .f32) (x1 : Vec F S8x2048 .f32) (x2 : Vec F S256x8 .f32) : FVec F S256x1 .f32 :=
  k1_pay6 (View.ld x0 rA1) (View.ld x1 rr1_3) (View.ld x2 rc1_3)
def col1_4 (x0 : Vec F S256x2048 .f32) (x1 : Vec F S8x2048 .f32) (x2 : Vec F S256x8 .f32) : FVec F S256x1 .f32 :=
  k1_pay8 (k1_pay7 (View.ld x0 rA1) (View.ld x1 rr1_4)) (Scalar.ofBits .f32 0x3F666666#32) (View.ld x2 rc1_4)
def col1_5 (x0 : Vec F S256x2048 .f32) (x1 : Vec F S8x2048 .f32) (x2 : Vec F S256x8 .f32) : FVec F S256x1 .f32 :=
  k1_pay9 (View.ld x0 rA1) (View.ld x1 rr1_5) (View.ld x2 rc1_5)
def col1_6 (x0 : Vec F S256x2048 .f32) (x1 : Vec F S8x2048 .f32) (x2 : Vec F S256x8 .f32) : FVec F S256x1 .f32 :=
  k1_pay11 (k1_pay10 (View.ld x0 rA1) (View.ld x1 rr1_6)) (Scalar.ofBits .f32 0x00000000#32) (Scalar.ofBits .f32 0x3F7FFFEF#32) (View.ld x2 rc1_6)
def col1_7 (x0 : Vec F S256x2048 .f32) (x1 : Vec F S8x2048 .f32) (x2 : Vec F S256x8 .f32) : FVec F S256x1 .f32 :=
  k1_pay1 (k1_pay12 (View.ld x0 rA1) (View.ld x1 rr1_7)) (k1_pay13 (View.ld x2 rc1_7))

/-- The output block after the body: its eight column stores as pieces, last first. -/
def out1_3 (x0 : Vec F S256x2048 .f32) (x1 : Vec F S8x2048 .f32) (x2 : Vec F S256x8 .f32) : Vec F S256x8 .f32 :=
  View.canon [⟨rc1_7, col1_7 x0 x1 x2⟩, ⟨rc1_6, col1_6 x0 x1 x2⟩, ⟨rc1_5, col1_5 x0 x1 x2⟩, ⟨rc1_4, col1_4 x0 x1 x2⟩,
    ⟨rc1_3, col1_3 x0 x1 x2⟩, ⟨rc1_2, col1_2 x0 x1 x2⟩, ⟨rc1_1, col1_1 x0 x1 x2⟩, ⟨rc1_0, col1_0 x0 x1 x2⟩]

/-- The eight columns tile the block, so they cover it. -/
theorem cover1_3 (p0 p1 p2 p3 p4 p5 p6 p7 : Vec F S256x1 .f32) (y : S256x8.Idx) :
    ∃ pc ∈ ([⟨rc1_7, p7⟩, ⟨rc1_6, p6⟩, ⟨rc1_5, p5⟩, ⟨rc1_4, p4⟩, ⟨rc1_3, p3⟩, ⟨rc1_2, p2⟩, ⟨rc1_1, p1⟩, ⟨rc1_0, p0⟩] : List (View.Piece (Elt F) S256x8 .f32)), y ∈ pc.1.set :=
  View.cover_of_tiled [⟨rc1_7, p7⟩, ⟨rc1_6, p6⟩, ⟨rc1_5, p5⟩, ⟨rc1_4, p4⟩, ⟨rc1_3, p3⟩, ⟨rc1_2, p2⟩, ⟨rc1_1, p1⟩, ⟨rc1_0, p0⟩] S256x1.size (by rfl) y

/-! ## The body's triple -/

set_option maxHeartbeats 4000000 in
/-- The kernel body on whole staging buffers — the three inputs' at contents x0, x1, x2, the output's at anything —
    runs to its end and leaves the inputs' as they were and the output's at out1_3 of the inputs'. -/
theorem sound_kernel1 (c : Dev nD) (E : Set ℕ) (i : grid1.Coords)
    (arg1 : Memref sig .tc .vmem S256x2048 .f32) (harg1 : arg1.IsWhole) (arg2 : Memref sig .tc .vmem S8x2048 .f32) (harg2 : arg2.IsWhole)
    (arg3 : Memref sig .tc .vmem S256x8 .f32) (harg3 : arg3.IsWhole) (arg4 : Memref sig .tc .vmem S256x8 .f32) (harg4 : arg4.IsWhole)
    (x0 : Vec F S256x2048 .f32) (x1 : Vec F S8x2048 .f32) (x2 : Vec F S256x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__prop_step_kernel i arg1 harg1 arg2 harg2 arg3 harg3 arg4 harg4) K := by
  simp only [cc1__prop_step_kernel_eq_skeleton]; unfold cc1__prop_step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover1_3 _ _ _ _ _ _ _ _)

/-! ## The pipeline's proof data -/

/-- The proof data of the step's pipeline on core c: the arrays as the region finds them; after the body at point t
    each input's buffer at its block and the output's at out1_3 of the three input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Body2.lean ====
import proofs.«124206_j79594333929560_1_alg».proof.Proof.Gen.Kernel.Launch
import proofs.«124206_j79594333929560_1_alg».proof.Proof.Gen.Kernel.Skeleton
import proofs.«124206_j79594333929560_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Propagation step 2: what one grid point of the kernel leaves in its output block

At a grid point the kernel holds a block of 256 adjacency rows (256 × 2048), the whole transposed label matrix
(8 × 2048) and the 256 × 8 block of the label matrix at the same rows. For each class c = 0 … 7 it multiplies the
adjacency block by row c of the transposed labels, clips, takes log1p of the negation, sums along the neighbours,
exponentiates, and stores a·(1 − ·) + b·(column c of the label block) into column c of the 256 × 8 output block. The
eight column stores tile the output block, so what the block holds afterwards is a function of the three input
blocks alone, whatever it held before (the kernel also loads each output column before overwriting it and discards
the value). Everything here is stated at an arbitrary valuation V of the buffers at the region's entry and at any
float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched there or not
    (the block index has not moved since the last fetch), for any proof data whose array is V's and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole adjacency block. -/
abbrev rA2 : Rect S256x2048 := Rect.unit (s := S256x2048) ![0, 0] S256x2048.size inb_S256x2048_S256x2048_0_0
/-- Row c of the transposed labels. -/
abbrev rr2_0 : Rect S8x2048 := Rect.unit (s := S8x2048) ![0, 0] S1x2048.size inb_S8x2048_S1x2048_0_0
abbrev rr2_1 : Rect S8x2048 := Rect.unit (s := S8x2048) ![1, 0] S1x2048.size inb_S8x2048_S1x2048_1_0
abbrev rr2_2 : Rect S8x2048 := Rect.unit (s := S8x2048) ![2, 0] S1x2048.size inb_S8x2048_S1x2048_2_0
abbrev rr2_3 : Rect S8x2048 := Rect.unit (s := S8x2048) ![3, 0] S1x2048.size inb_S8x2048_S1x2048_3_0
abbrev rr2_4 : Rect S8x2048 := Rect.unit (s := S8x2048) ![4, 0] S1x2048.size inb_S8x2048_S1x2048_4_0
abbrev rr2_5 : Rect S8x2048 := Rect.unit (s := S8x2048) ![5, 0] S1x2048.size inb_S8x2048_S1x2048_5_0
abbrev rr2_6 : Rect S8x2048 := Rect.unit (s := S8x2048) ![6, 0] S1x2048.size inb_S8x2048_S1x2048_6_0
abbrev rr2_7 : Rect S8x2048 := Rect.unit (s := S8x2048) ![7, 0] S1x2048.size inb_S8x2048_S1x2048_7_0
/-- Column c of a 256 × 8 block. -/
abbrev rc2_0 : Rect S256x8 := Rect.unit (s := S256x8) ![0, 0] S256x1.size inb_S256x8_S256x1_0_0
abbrev rc2_1 : Rect S256x8 := Rect.unit (s := S256x8) ![0, 1] S256x1.size inb_S256x8_S256x1_0_1
abbrev rc2_2 : Rect S256x8 := Rect.unit (s := S256x8) ![0, 2] S256x1.size inb_S256x8_S256x1_0_2
abbrev rc2_3 : Rect S256x8 := Rect.unit (s := S256x8) ![0, 3] S256x1.size inb_S256x8_S256x1_0_3
abbrev rc2_4 : Rect S256x8 := Rect.unit (s := S256x8) ![0, 4] S256x1.size inb_S256x8_S256x1_0_4
abbrev rc2_5 : Rect S256x8 := Rect.unit (s := S256x8) ![0, 5] S256x1.size inb_S256x8_S256x1_0_5
abbrev rc2_6 : Rect S256x8 := Rect.unit (s := S256x8) ![0, 6] S256x1.size inb_S256x8_S256x1_0_6
abbrev rc2_7 : Rect S256x8 := Rect.unit (s := S256x8) ![0, 7] S256x1.size inb_S256x8_S256x1_0_7

/-! ## What the body leaves in the output window's buffer -/

/-- Column c of the output block, from the adjacency block x0, the transposed labels x1 and the label block x2
    (the arithmetic is the skeleton's payloads, composed as the body composes them). -/
def col2_0 (x0 : Vec F S256x2048 .f32) (x1 : Vec F S8x2048 .f32) (x2 : Vec F S256x8 .f32) : FVec F S256x1 .f32 :=
  k2_pay2 (View.ld x0 rA2) (View.ld x1 rr2_0) (View.ld x2 rc2_0)
def col2_1 (x0 : Vec F S256x2048 .f32) (x1 : Vec F S8x2048 .f32) (x2 : Vec F S256x8 .f32) : FVec F S256x1 .f32 :=
  k2_pay4 (k2_pay3 (View.ld x0 rA2) (View.ld x1 rr2_1)) (View.ld x2 rc2_1)
def col2_2 (x0 : Vec F S256x2048 .f32) (x1 : Vec F S8x2048 .f32) (x2 : Vec F S256x8 .f32) : FVec F S256x1 .f32 :=
  k2_pay5 (View.ld x0 rA2) (View.ld x1 rr2_2) (View.ld x2 rc2_2)
def col2_3 (x0 : Vec F S256x2048 .f32) (x1 : Vec F S8x2048 .f32) (x2 : Vec F S256x8 .f32) : FVec F S256x1 .f32 :=
  k2_pay6 (View.ld x0 rA2) (View.ld x1 rr2_3) (View.ld x2 rc2_3)
def col2_4 (x0 : Vec F S256x2048 .f32) (x1 : Vec F S8x2048 .f32) (x2 : Vec F S256x8 .f32) : FVec F S256x1 .f32 :=
  k2_pay8 (k2_pay7 (View.ld x0 rA2) (View.ld x1 rr2_4)) (Scalar.ofBits .f32 0x3F666666#32) (View.ld x2 rc2_4)
def col2_5 (x0 : Vec F S256x2048 .f32) (x1 : Vec F S8x2048 .f32) (x2 : Vec F S256x8 .f32) : FVec F S256x1 .f32 :=
  k2_pay9 (View.ld x0 rA2) (View.ld x1 rr2_5) (View.ld x2 rc2_5)
def col2_6 (x0 : Vec F S256x2048 .f32) (x1 : Vec F S8x2048 .f32) (x2 : Vec F S256x8 .f32) : FVec F S256x1 .f32 :=
  k2_pay11 (k2_pay10 (View.ld x0 rA2) (View.ld x1 rr2_6)) (Scalar.ofBits .f32 0x00000000#32) (Scalar.ofBits .f32 0x3F7FFFEF#32) (View.ld x2 rc2_6)
def col2_7 (x0 : Vec F S256x2048 .f32) (x1 : Vec F S8x2048 .f32) (x2 : Vec F S256x8 .f32) : FVec F S256x1 .f32 :=
  k2_pay1 (k2_pay12 (View.ld x0 rA2) (View.ld x1 rr2_7)) (k2_pay13 (View.ld x2 rc2_7))

/-- The output block after the body: its eight column stores as pieces, last first. -/
def out2_3 (x0 : Vec F S256x2048 .f32) (x1 : Vec F S8x2048 .f32) (x2 : Vec F S256x8 .f32) : Vec F S256x8 .f32 :=
  View.canon [⟨rc2_7, col2_7 x0 x1 x2⟩, ⟨rc2_6, col2_6 x0 x1 x2⟩, ⟨rc2_5, col2_5 x0 x1 x2⟩, ⟨rc2_4, col2_4 x0 x1 x2⟩,
    ⟨rc2_3, col2_3 x0 x1 x2⟩, ⟨rc2_2, col2_2 x0 x1 x2⟩, ⟨rc2_1, col2_1 x0 x1 x2⟩, ⟨rc2_0, col2_0 x0 x1 x2⟩]

/-- The eight columns tile the block, so they cover it. -/
theorem cover2_3 (p0 p1 p2 p3 p4 p5 p6 p7 : Vec F S256x1 .f32) (y : S256x8.Idx) :
    ∃ pc ∈ ([⟨rc2_7, p7⟩, ⟨rc2_6, p6⟩, ⟨rc2_5, p5⟩, ⟨rc2_4, p4⟩, ⟨rc2_3, p3⟩, ⟨rc2_2, p2⟩, ⟨rc2_1, p1⟩, ⟨rc2_0, p0⟩] : List (View.Piece (Elt F) S256x8 .f32)), y ∈ pc.1.set :=
  View.cover_of_tiled [⟨rc2_7, p7⟩, ⟨rc2_6, p6⟩, ⟨rc2_5, p5⟩, ⟨rc2_4, p4⟩, ⟨rc2_3, p3⟩, ⟨rc2_2, p2⟩, ⟨rc2_1, p1⟩, ⟨rc2_0, p0⟩] S256x1.size (by rfl) y

/-! ## The body's triple -/

set_option maxHeartbeats 4000000 in
/-- The kernel body on whole staging buffers — the three inputs' at contents x0, x1, x2, the output's at anything —
    runs to its end and leaves the inputs' as they were and the output's at out2_3 of the inputs'. -/
theorem sound_kernel2 (c : Dev nD) (E : Set ℕ) (i : grid2.Coords)
    (arg1 : Memref sig .tc .vmem S256x2048 .f32) (harg1 : arg1.IsWhole) (arg2 : Memref sig .tc .vmem S8x2048 .f32) (harg2 : arg2.IsWhole)
    (arg3 : Memref sig .tc .vmem S256x8 .f32) (harg3 : arg3.IsWhole) (arg4 : Memref sig .tc .vmem S256x8 .f32) (harg4 : arg4.IsWhole)
    (x0 : Vec F S256x2048 .f32) (x1 : Vec F S8x2048 .f32) (x2 : Vec F S256x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__prop_step_kernel i arg1 harg1 arg2 harg2 arg3 harg3 arg4 harg4) K := by
  simp only [cc2__prop_step_kernel_eq_skeleton]; unfold cc2__prop_step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover2_3 _ _ _ _ _ _ _ _)

/-! ## The pipeline's proof data -/

/-- The proof data of the step's pipeline on core c: the arrays as the region finds them; after the body at point t
    each input's buffer at its block and the output's at out2_3 of the three input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Run.lean ====
import proofs.«124206_j79594333929560_1_alg».proof.Proof.K_Body0
import proofs.«124206_j79594333929560_1_alg».proof.Proof.K_Body1
import proofs.«124206_j79594333929560_1_alg».proof.Proof.K_Body2
import proofs.«124206_j79594333929560_1_alg».proof.Proof.Gen.Kernel.Regions

/-!
# The whole run: three propagation steps among stretches of host operations

The program is: host operations (the two-layer perceptron, a row softmax, a transpose), a propagation step, host
operations (a row softmax of the step's result for the output, and its transpose for the next step), a second step,
host operations again, a third step, and the last softmax and the stacking of the three softmaxes. The buffers'
contents at each boundary are a fold from the launch memory: a host stretch applies its operations, a step replaces
its output array by what its eight row blocks wrote back and changes nothing else. Every weakly fair execution ends
with every unscoped buffer at the last boundary's contents; no stretch and no step writes an argument array.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the perceptron's first layer, -/
abbrev W1 : Dev nD → Valuation τ sig (Elt F) := fun c => StableHlo.after hostOps0 (W0 m c)
/-- its rectifier, -/
abbrev W2 : Dev nD → Valuation τ sig (Elt F) := fun c => StableHlo.after hostOps0_1 (W1 m c)
/-- and its second layer, the first softmax and the transpose: the first step's entry. -/
abbrev W3 : Dev nD → Valuation τ sig (Elt F) := fun c => StableHlo.after hostOps0_2 (W2 m c)
abbrev VE3 : (c : Dev nD) → (b : Ref sig .tc) → Buf (Elt F) ((c : Thread nD τ).loc b) := fun c b => W3 m c b

/-- At region 0's exit: its arrays at what the pipeline leaves (the inputs as entered, the output's write-backs
    folded), every other buffer as entered. -/
def W4 (c : Dev nD) : Valuation τ sig (Elt F) :=
  Pipeline.withArrays spec0 c (W3 m c) fun w => (dat0 (VE3 m) c).arrAt w cfg0.N
theorem W4_arr (c : Dev nD) (w : Fin cfg0.W) :
    W4 m c (Proc.devRef .tc (Pipeline.arrRef spec0 w)) = (dat0 (VE3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev VE4 : (c : Dev nD) → (b : Ref sig .tc) → Buf (Elt F) ((c : Thread nD τ).loc b) := fun c b => W4 m c b
theorem hF0 (c : Dev nD) (w : Fin cfg0.W) : (dat0 (VE3 m) c).arrAt w cfg0.N = VE4 m c (Pipeline.arrRef spec0 w) :=
  (W4_arr m c w).symm
theorem hrest0 (c : Dev nD) : ∀ b, b ∉ Finset.univ.image (Pipeline.arrRef spec0) → VE4 m c b = VE3 m c b :=
  fun b hb => W4_of_ne m c b fun w e => hb (Finset.mem_image.mpr ⟨w, Finset.mem_univ _, e⟩)

/-- After the host operations between the first and second steps. -/
abbrev W5 : Dev nD → Valuation τ sig (Elt F) := fun c => StableHlo.after hostOps1 (W4 m c)
abbrev VE5 : (c : Dev nD) → (b : Ref sig .tc) → Buf (Elt F) ((c : Thread nD τ).loc b) := fun c b => W5 m c b

/-- At region 1's exit: its arrays at what the pipeline leaves (the inputs as entered, the output's write-backs
    folded), every other buffer as entered. -/
def W6 (c : Dev nD) : Valuation τ sig (Elt F) :=
  Pipeline.withArrays spec1 c (W5 m c) fun w => (dat1 (VE5 m) c).arrAt w cfg1.N
theorem W6_arr (c : Dev nD) (w : Fin cfg1.W) :
    W6 m c (Proc.devRef .tc (Pipeline.arrRef spec1 w)) = (dat1 (VE5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev VE6 : (c : Dev nD) → (b : Ref sig .tc) → Buf (Elt F) ((c : Thread nD τ).loc b) := fun c b => W6 m c b
theorem hF1 (c : Dev nD) (w : Fin cfg1.W) : (dat1 (VE5 m) c).arrAt w cfg1.N = VE6 m c (Pipeline.arrRef spec1 w) :=
  (W6_arr m c w).symm
theorem hrest1 (c : Dev nD) : ∀ b, b ∉ Finset.univ.image (Pipeline.arrRef spec1) → VE6 m c b = VE5 m c b :=
  fun b hb => W6_of_ne m c b fun w e => hb (Finset.mem_image.mpr ⟨w, Finset.mem_univ _, e⟩)

/-- After the host operations between the second and third steps. -/
abbrev W7 : Dev nD → Valuation τ sig (Elt F) := fun c => StableHlo.after hostOps2 (W6 m c)
abbrev VE7 : (c : Dev nD) → (b : Ref sig .tc) → Buf (Elt F) ((c : Thread nD τ).loc b) := fun c b => W7 m c b

/-- At region 2's exit: its arrays at what the pipeline leaves (the inputs as entered, the output's write-backs
    folded), every other buffer as entered. -/
def W8 (c : Dev nD) : Valuation τ sig (Elt F) :=
  Pipeline.withArrays spec2 c (W7 m c) fun w => (dat2 (VE7 m) c).arrAt w cfg2.N
theorem W8_arr (c : Dev nD) (w : Fin cfg2.W) :
    W8 m c (Proc.devRef .tc (Pipeline.arrRef spec2 w)) = (dat2 (VE7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev VE8 : (c : Dev nD) → (b : Ref sig .tc) → Buf (Elt F) ((c : Thread nD τ).loc b) := fun c b => W8 m c b
theorem hF2 (c : Dev nD) (w : Fin cfg2.W) : (dat2 (VE7 m) c).arrAt w cfg2.N = VE8 m c (Pipeline.arrRef spec2 w) :=
  (W8_arr m c w).symm
theorem hrest2 (c : Dev nD) : ∀ b, b ∉ Finset.univ.image (Pipeline.arrRef spec2) → VE8 m c b = VE7 m c b :=
  fun b hb => W8_of_ne m c b fun w e => hb (Finset.mem_image.mpr ⟨w, Finset.mem_univ _, e⟩)

/-- After the last host operations: the end. -/
abbrev W9 : Dev nD → Valuation τ sig (Elt F) := fun c => StableHlo.after hostOps3 (W8 m c)

/-! ## A step changes its output array only -/

theorem W4_keeps (c : Dev nD) (b : Ref sig .tc) (hb : Pipeline.arrRef spec0 3 ≠ b) :
    W4 m c (Proc.devRef .tc b) = W3 m c (Proc.devRef .tc b) := by
  by_cases h : ∃ w, Pipeline.arrRef spec0 w = b
  · obtain ⟨w, rfl⟩ := h
    have hw : (cfg0.win w).isOut = false := by revert hb; revert w; decide
    rw [W4_arr, (dat0 (VE3 m) c).arrAt_in w hw, A_eq0]
  · exact W4_of_ne m c b (fun w e => h ⟨w, e⟩)
theorem W6_keeps (c : Dev nD) (b : Ref sig .tc) (hb : Pipeline.arrRef spec1 3 ≠ b) :
    W6 m c (Proc.devRef .tc b) = W5 m c (Proc.devRef .tc b) := by
  by_cases h : ∃ w, Pipeline.arrRef spec1 w = b
  · obtain ⟨w, rfl⟩ := h
    have hw : (cfg1.win w).isOut = false := by revert hb; revert w; decide
    rw [W6_arr, (dat1 (VE5 m) c).arrAt_in w hw, A_eq1]
  · exact W6_of_ne m c b (fun w e => h ⟨w, e⟩)
theorem W8_keeps (c : Dev nD) (b : Ref sig .tc) (hb : Pipeline.arrRef spec2 3 ≠ b) :
    W8 m c (Proc.devRef .tc b) = W7 m c (Proc.devRef .tc b) := by
  by_cases h : ∃ w, Pipeline.arrRef spec2 w = b
  · obtain ⟨w, rfl⟩ := h
    have hw : (cfg2.win w).isOut = false := by revert hb; revert w; decide
    rw [W8_arr, (dat2 (VE7 m) c).arrAt_in w hw, A_eq2]
  · exact W8_of_ne m c b (fun w e => h ⟨w, e⟩)

/-! ## The arguments end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (r := main_arg0) (by decide)
    _ = W7 m c (Proc.devRef .tc main_arg0) := W8_keeps m c main_arg0 (by decide)
    _ = W6 m c (Proc.devRef .tc main_arg0) := StableHlo.after_of_writes_sub hostOps2 _ hostOps2_writes (r := main_arg0) (by decide)
    _ = W5 m c (Proc.devRef .tc main_arg0) := W6_keeps m c main_arg0 (by decide)
    _ = W4 m c (Proc.devRef .tc main_arg0) := StableHlo.after_of_writes_sub hostOps1 _ hostOps1_writes (r := main_arg0) (by decide)
    _ = W3 m c (Proc.devRef .tc main_arg0) := W4_keeps m c main_arg0 (by decide)
    _ = W2 m c (Proc.devRef .tc main_arg0) := StableHlo.after_of_writes_sub hostOps0_2 _ hostOps0_2_writes (r := main_arg0) (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps3 _ hostOps3_writes (r := main_arg1) (by decide)
    _ = W7 m c (Proc.devRef .tc main_arg1) := W8_keeps m c main_arg1 (by decide)
    _ = W6 m c (Proc.devRef .tc main_arg1) := StableHlo.after_of_writes_sub hostOps2 _ hostOps2_writes (r := main_arg1) (by decide)
    _ = W5 m c (Proc.devRef .tc main_arg1) := W6_keeps m c main_arg1 (by decide)
    _ = W4 m c (Proc.devRef .tc main_arg1) := StableHlo.after_of_writes_sub hostOps1 _ hostOps1_writes (r := main_arg1) (by decide)
    _ = W3 m c (Proc.devRef .tc main_arg1) := W4_keeps m c main_arg1 (by decide)
    _ = W2 m c (Proc.devRef .tc main_arg1) := StableHlo.after_of_writes_sub hostOps0_2 _ hostOps0_2_writes (r := main_arg1) (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps3 _ hostOps3_writes (r := main_arg2) (by decide)
    _ = W7 m c (Proc.devRef .tc main_arg2) := W8_keeps m c main_arg2 (by decide)
    _ = W6 m c (Proc.devRef .tc main_arg2) := StableHlo.after_of_writes_sub hostOps2 _ hostOps2_writes (r := main_arg2) (by decide)
    _ = W5 m c (Proc.devRef .tc main_arg2) := W6_keeps m c main_arg2 (by decide)
    _ = W4 m c (Proc.devRef .tc main_arg2) := StableHlo.after_of_writes_sub hostOps1 _ hostOps1_writes (r := main_arg2) (by decide)
    _ = W3 m c (Proc.devRef .tc main_arg2) := W4_keeps m c main_arg2 (by decide)
    _ = W2 m c (Proc.devRef .tc main_arg2) := StableHlo.after_of_writes_sub hostOps0_2 _ hostOps0_2_writes (r := main_arg2) (by decide)
    _ = W1 m c (Proc.devRef .tc main_arg2) := StableHlo.after_of_writes_sub hostOps0_1 _ hostOps0_1_writes (r := main_arg2) (by decide)
    _ = W0 m c (Proc.devRef .tc main_arg2) := StableHlo.after_of_writes_sub hostOps0 _ hostOps0_writes (r := main_arg2) (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps3 _ hostOps3_writes (r := main_arg3) (by decide)
    _ = W7 m c (Proc.devRef .tc main_arg3) := W8_keeps m c main_arg3 (by decide)
    _ = W6 m c (Proc.devRef .tc main_arg3) := StableHlo.after_of_writes_sub hostOps2 _ hostOps2_writes (r := main_arg3) (by decide)
    _ = W5 m c (Proc.devRef .tc main_arg3) := W6_keeps m c main_arg3 (by decide)
    _ = W4 m c (Proc.devRef .tc main_arg3) := StableHlo.after_of_writes_sub hostOps1 _ hostOps1_writes (r := main_arg3) (by decide)
    _ = W3 m c (Proc.devRef .tc main_arg3) := W4_keeps m c main_arg3 (by decide)
    _ = W2 m c (Proc.devRef .tc main_arg3) := StableHlo.after_of_writes_sub hostOps0_2 _ hostOps0_2_writes (r := main_arg3) (by decide)
    _ = W1 m c (Proc.devRef .tc main_arg3) := StableHlo.after_of_writes_sub hostOps0_1 _ hostOps0_1_writes (r := main_arg3) (by decide)
    _ = W0 m c (Proc.devRef .tc main_arg3) := StableHlo.after_of_writes_sub hostOps0 _ hostOps0_writes (r := main_arg3) (by decide)
    _ = m ((c : Thread nD τ).loc main_arg3) := rfl

theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps3 _ hostOps3_writes (r := main_arg4) (by decide)
    _ = W7 m c (Proc.devRef .tc main_arg4) := W8_keeps m c main_arg4 (by decide)
    _ = W6 m c (Proc.devRef .tc main_arg4) := StableHlo.after_of_writes_sub hostOps2 _ hostOps2_writes (r := main_arg4) (by decide)
    _ = W5 m c (Proc.devRef .tc main_arg4) := W6_keeps m c main_arg4 (by decide)
    _ = W4 m c (Proc.devRef .tc main_arg4) := StableHlo.after_of_writes_sub hostOps1 _ hostOps1_writes (r := main_arg4) (by decide)
    _ = W3 m c (Proc.devRef .tc main_arg4) := W4_keeps m c main_arg4 (by decide)
    _ = W2 m c (Proc.devRef .tc main_arg4) := StableHlo.after_of_writes_sub hostOps0_2 _ hostOps0_2_writes (r := main_arg4) (by decide)
    _ = W1 m c (Proc.devRef .tc main_arg4) := StableHlo.after_of_writes_sub hostOps0_1 _ hostOps0_1_writes (r := main_arg4) (by decide)
    _ = W0 m c (Proc.devRef .tc main_arg4) := StableHlo.after_of_writes_sub hostOps0 _ hostOps0_writes (r := main_arg4) (by decide)
    _ = m ((c : Thread nD τ).loc main_arg4) := rfl

theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps3 _ hostOps3_writes (r := main_arg5) (by decide)
    _ = W7 m c (Proc.devRef .tc main_arg5) := W8_keeps m c main_arg5 (by decide)
    _ = W6 m c (Proc.devRef .tc main_arg5) := StableHlo.after_of_writes_sub hostOps2 _ hostOps2_writes (r := main_arg5) (by decide)
    _ = W5 m c (Proc.devRef .tc main_arg5) := W6_keeps m c main_arg5 (by decide)
    _ = W4 m c (Proc.devRef .tc main_arg5) := StableHlo.after_of_writes_sub hostOps1 _ hostOps1_writes (r := main_arg5) (by decide)
    _ = W3 m c (Proc.devRef .tc main_arg5) := W4_keeps m c main_arg5 (by decide)
    _ = W2 m c (Proc.devRef .tc main_arg5) := StableHlo.after_of_writes_sub hostOps0_2 _ hostOps0_2_writes (r := main_arg5) (by decide)
    _ = W1 m c (Proc.devRef .tc main_arg5) := StableHlo.after_of_writes_sub hostOps0_1 _ hostOps0_1_writes (r := main_arg5) (by decide)
    _ = W0 m c (Proc.devRef .tc main_arg5) := StableHlo.after_of_writes_sub hostOps0 _ hostOps0_writes (r := main_arg5) (by decide)
    _ = m ((c : Thread nD τ).loc main_arg5) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (VE3 m) c
  | ⟨1, _⟩ => fun c => dat1 (VE5 m) c
  | ⟨2, _⟩ => fun c => dat2 (VE7 m) c
abbrev 𝒱H : Variants := Variants.none
abbrev LH : GSem nD τ sig → Finset Unit := fun _ => ∅
abbrev lvH : GSem nD τ sig → Unit → ℕ := fun _ _ => 0
/-- What rides beside the buffers through every segment: the core's generator register at some state and the core
    owing nothing. -/
abbrev RH (c : Dev nD) : sProp 𝕄 := iprop((∃ r, prngReg c r) ∗ ∃ W, owes (c : Thread nD τ) (0 : CellTallies nD τ sig Unit) W)
/-- A host stretch as a segment over the unscoped references from the contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TH (c : Dev nD) : sProp 𝕄 := iprop(StableHlo.held (c : Thread nD τ) (Pipeline.ucRefs τ sig) (W9 m c) ∗ ∃ r, prngReg c r)

/-! ## The steps as segments -/

set_option backward.isDefEq.respectTransparency.types false in
/-- Region 0 over the thread state: entered from every unscoped buffer at W3, left at W4. Its arrays are split
    out of the unscoped buffers and put back at the exit contents; the generator register goes into the class
    invariant and comes out; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE3 m) c).loose
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (VE3 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (VE3 m c) (VE4 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split
    out of the unscoped buffers and put back at the exit contents; the generator register goes into the class
    invariant and comes out; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE5 m) c).loose
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (VE5 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (VE5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (VE5 m c) (VE6 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split
    out of the unscoped buffers and put back at the exit contents; the generator register goes into the class
    invariant and comes out; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VE7 m) c).loose
  hwaits := Pipeline.hwaits_of_owed_zero _ _ _ _ LH lvH 2 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec2 c (VE7 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (VE7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (VE7 m c) (VE8 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m) () defs₀ 𝒱H LH lvH) :=
  [ .host (hsegH hostOps0 hostOps0_sub hostOps0_fresh (W0 m)),
    .host (hsegH hostOps0_1 hostOps0_1_sub hostOps0_1_fresh (W1 m)),
    .host (hsegH hostOps0_2 hostOps0_2_sub hostOps0_2_fresh (W2 m)),
    .region (reg0 m),
    .host (hsegH hostOps1 hostOps1_sub hostOps1_fresh (W4 m)),
    .region (reg1 m),
    .host (hsegH hostOps2 hostOps2_sub hostOps2_fresh (W6 m)),
    .region (reg2 m),
    .host (hsegH hostOps3 hostOps3_sub hostOps3_fresh (W8 m)) ]

theorem main_runH (c : Dev nD) : main (F := F) c = Pipeline.Seg.run (segsH m) := (main_chain c).trans (by chain_rfl)

set_option backward.isDefEq.respectTransparency.types false in
/-- Every weakly fair execution of the program from memory m with zero counters terminates, nothing faulting, and in
    every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m c) ∗ RH c)
          ⊢ iprop(TH m c ∗ ∃ W, owes (c : Thread nD τ) (0 : CellTallies nD τ sig Unit) W)
        iintro ⟨Hh, Hp, Ho⟩
        isplitl [Hh Hp]
        · isplitl [Hh] <;> iassumption
        iexact Ho⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_ucH main_arg0 (by decide))).trans (W9_main_arg0 m c),
     (h c _ (mem_ucH main_arg1 (by decide))).trans (W9_main_arg1 m c),
     (h c _ (mem_ucH main_arg2 (by decide))).trans (W9_main_arg2 m c),
     (h c _ (mem_ucH main_arg3 (by decide))).trans (W9_main_arg3 m c),
     (h c _ (mem_ucH main_arg4 (by decide))).trans (W9_main_arg4 m c),
     (h c _ (mem_ucH main_arg5 (by decide))).trans (W9_main_arg5 m c)⟩) (run_all m ρ)

end Cert.Kernel.Hand

end
-- ==== Proof.KI_Body0.lean ====
import proofs.«124206_j79594333929560_1_alg».proof.Proof.Gen.KernelIdeal.Launch
import proofs.«124206_j79594333929560_1_alg».proof.Proof.Gen.KernelIdeal.Skeleton
import proofs.«124206_j79594333929560_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Propagation step 0: what one grid point of the kernel leaves in its output block

At a grid point the kernel holds a block of 256 adjacency rows (256 × 2048), the whole transposed label matrix
(8 × 2048) and the 256 × 8 block of the label matrix at the same rows. For each class c = 0 … 7 it multiplies the
adjacency block by row c of the transposed labels, clips, takes log1p of the negation, sums along the neighbours,
exponentiates, and stores a·(1 − ·) + b·(column c of the label block) into column c of the 256 × 8 output block. The
eight column stores tile the output block, so what the block holds afterwards is a function of the three input
blocks alone, whatever it held before (the kernel also loads each output column before overwriting it and discards
the value). Everything here is stated at an arbitrary valuation V of the buffers at the region's entry and at any
float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or not
    (the block index has not moved since the last fetch), for any proof data whose array is V's and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole adjacency block. -/
abbrev rA0 : Rect S256x2048 := Rect.unit (s := S256x2048) ![0, 0] S256x2048.size inb_S256x2048_S256x2048_0_0
/-- Row c of the transposed labels. -/
abbrev rr0_0 : Rect S8x2048 := Rect.unit (s := S8x2048) ![0, 0] S1x2048.size inb_S8x2048_S1x2048_0_0
abbrev rr0_1 : Rect S8x2048 := Rect.unit (s := S8x2048) ![1, 0] S1x2048.size inb_S8x2048_S1x2048_1_0
abbrev rr0_2 : Rect S8x2048 := Rect.unit (s := S8x2048) ![2, 0] S1x2048.size inb_S8x2048_S1x2048_2_0
abbrev rr0_3 : Rect S8x2048 := Rect.unit (s := S8x2048) ![3, 0] S1x2048.size inb_S8x2048_S1x2048_3_0
abbrev rr0_4 : Rect S8x2048 := Rect.unit (s := S8x2048) ![4, 0] S1x2048.size inb_S8x2048_S1x2048_4_0
abbrev rr0_5 : Rect S8x2048 := Rect.unit (s := S8x2048) ![5, 0] S1x2048.size inb_S8x2048_S1x2048_5_0
abbrev rr0_6 : Rect S8x2048 := Rect.unit (s := S8x2048) ![6, 0] S1x2048.size inb_S8x2048_S1x2048_6_0
abbrev rr0_7 : Rect S8x2048 := Rect.unit (s := S8x2048) ![7, 0] S1x2048.size inb_S8x2048_S1x2048_7_0
/-- Column c of a 256 × 8 block. -/
abbrev rc0_0 : Rect S256x8 := Rect.unit (s := S256x8) ![0, 0] S256x1.size inb_S256x8_S256x1_0_0
abbrev rc0_1 : Rect S256x8 := Rect.unit (s := S256x8) ![0, 1] S256x1.size inb_S256x8_S256x1_0_1
abbrev rc0_2 : Rect S256x8 := Rect.unit (s := S256x8) ![0, 2] S256x1.size inb_S256x8_S256x1_0_2
abbrev rc0_3 : Rect S256x8 := Rect.unit (s := S256x8) ![0, 3] S256x1.size inb_S256x8_S256x1_0_3
abbrev rc0_4 : Rect S256x8 := Rect.unit (s := S256x8) ![0, 4] S256x1.size inb_S256x8_S256x1_0_4
abbrev rc0_5 : Rect S256x8 := Rect.unit (s := S256x8) ![0, 5] S256x1.size inb_S256x8_S256x1_0_5
abbrev rc0_6 : Rect S256x8 := Rect.unit (s := S256x8) ![0, 6] S256x1.size inb_S256x8_S256x1_0_6
abbrev rc0_7 : Rect S256x8 := Rect.unit (s := S256x8) ![0, 7] S256x1.size inb_S256x8_S256x1_0_7

/-! ## What the body leaves in the output window's buffer -/

/-- Column c of the output block, from the adjacency block x0, the transposed labels x1 and the label block x2
    (the arithmetic is the skeleton's payloads, composed as the body composes them). -/
def col0_0 (x0 : Vec F S256x2048 .f32) (x1 : Vec F S8x2048 .f32) (x2 : Vec F S256x8 .f32) : FVec F S256x1 .f32 :=
  k0_pay2 (View.ld x0 rA0) (View.ld x1 rr0_0) (View.ld x2 rc0_0)
def col0_1 (x0 : Vec F S256x2048 .f32) (x1 : Vec F S8x2048 .f32) (x2 : Vec F S256x8 .f32) : FVec F S256x1 .f32 :=
  k0_pay4 (k0_pay3 (View.ld x0 rA0) (View.ld x1 rr0_1)) (View.ld x2 rc0_1)
def col0_2 (x0 : Vec F S256x2048 .f32) (x1 : Vec F S8x2048 .f32) (x2 : Vec F S256x8 .f32) : FVec F S256x1 .f32 :=
  k0_pay5 (View.ld x0 rA0) (View.ld x1 rr0_2) (View.ld x2 rc0_2)
def col0_3 (x0 : Vec F S256x2048 .f32) (x1 : Vec F S8x2048 .f32) (x2 : Vec F S256x8 .f32) : FVec F S256x1 .f32 :=
  k0_pay6 (View.ld x0 rA0) (View.ld x1 rr0_3) (View.ld x2 rc0_3)
def col0_4 (x0 : Vec F S256x2048 .f32) (x1 : Vec F S8x2048 .f32) (x2 : Vec F S256x8 .f32) : FVec F S256x1 .f32 :=
  k0_pay8 (k0_pay7 (View.ld x0 rA0) (View.ld x1 rr0_4)) (Scalar.ofBits .f32 0x3F666666#32) (View.ld x2 rc0_4)
def col0_5 (x0 : Vec F S256x2048 .f32) (x1 : Vec F S8x2048 .f32) (x2 : Vec F S256x8 .f32) : FVec F S256x1 .f32 :=
  k0_pay9 (View.ld x0 rA0) (View.ld x1 rr0_5) (View.ld x2 rc0_5)
def col0_6 (x0 : Vec F S256x2048 .f32) (x1 : Vec F S8x2048 .f32) (x2 : Vec F S256x8 .f32) : FVec F S256x1 .f32 :=
  k0_pay11 (k0_pay10 (View.ld x0 rA0) (View.ld x1 rr0_6)) (Scalar.ofBits .f32 0x00000000#32) (Scalar.ofBits .f32 0x3F7FFFEF#32) (View.ld x2 rc0_6)
def col0_7 (x0 : Vec F S256x2048 .f32) (x1 : Vec F S8x2048 .f32) (x2 : Vec F S256x8 .f32) : FVec F S256x1 .f32 :=
  k0_pay1 (k0_pay12 (View.ld x0 rA0) (View.ld x1 rr0_7)) (k0_pay13 (View.ld x2 rc0_7))

/-- The output block after the body: its eight column stores as pieces, last first. -/
def out0_3 (x0 : Vec F S256x2048 .f32) (x1 : Vec F S8x2048 .f32) (x2 : Vec F S256x8 .f32) : Vec F S256x8 .f32 :=
  View.canon [⟨rc0_7, col0_7 x0 x1 x2⟩, ⟨rc0_6, col0_6 x0 x1 x2⟩, ⟨rc0_5, col0_5 x0 x1 x2⟩, ⟨rc0_4, col0_4 x0 x1 x2⟩,
    ⟨rc0_3, col0_3 x0 x1 x2⟩, ⟨rc0_2, col0_2 x0 x1 x2⟩, ⟨rc0_1, col0_1 x0 x1 x2⟩, ⟨rc0_0, col0_0 x0 x1 x2⟩]

/-- The eight columns tile the block, so they cover it. -/
theorem cover0_3 (p0 p1 p2 p3 p4 p5 p6 p7 : Vec F S256x1 .f32) (y : S256x8.Idx) :
    ∃ pc ∈ ([⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] : List (View.Piece (Elt F) S256x8 .f32)), y ∈ pc.1.set :=
  View.cover_of_tiled [⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] S256x1.size (by rfl) y

/-! ## The body's triple -/

set_option maxHeartbeats 4000000 in
/-- The kernel body on whole staging buffers — the three inputs' at contents x0, x1, x2, the output's at anything —
    runs to its end and leaves the inputs' as they were and the output's at out0_3 of the inputs'. -/
theorem sound_kernel0 (c : Dev nD) (E : Set ℕ) (i : grid0.Coords)
    (arg1 : Memref sig .tc .vmem S256x2048 .f32) (harg1 : arg1.IsWhole) (arg2 : Memref sig .tc .vmem S8x2048 .f32) (harg2 : arg2.IsWhole)
    (arg3 : Memref sig .tc .vmem S256x8 .f32) (harg3 : arg3.IsWhole) (arg4 : Memref sig .tc .vmem S256x8 .f32) (harg4 : arg4.IsWhole)
    (x0 : Vec F S256x2048 .f32) (x1 : Vec F S8x2048 .f32) (x2 : Vec F S256x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prop_step_kernel i arg1 harg1 arg2 harg2 arg3 harg3 arg4 harg4) K := by
  simp only [cc0__prop_step_kernel_eq_skeleton]; unfold cc0__prop_step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover0_3 _ _ _ _ _ _ _ _)

/-! ## The pipeline's proof data -/

/-- The proof data of the step's pipeline on core c: the arrays as the region finds them; after the body at point t
    each input's buffer at its block and the output's at out0_3 of the three input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Body1.lean ====
import proofs.«124206_j79594333929560_1_alg».proof.Proof.Gen.KernelIdeal.Launch
import proofs.«124206_j79594333929560_1_alg».proof.Proof.Gen.KernelIdeal.Skeleton
import proofs.«124206_j79594333929560_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Propagation step 1: what one grid point of the kernel leaves in its output block

At a grid point the kernel holds a block of 256 adjacency rows (256 × 2048), the whole transposed label matrix
(8 × 2048) and the 256 × 8 block of the label matrix at the same rows. For each class c = 0 … 7 it multiplies the
adjacency block by row c of the transposed labels, clips, takes log1p of the negation, sums along the neighbours,
exponentiates, and stores a·(1 − ·) + b·(column c of the label block) into column c of the 256 × 8 output block. The
eight column stores tile the output block, so what the block holds afterwards is a function of the three input
blocks alone, whatever it held before (the kernel also loads each output column before overwriting it and discards
the value). Everything here is stated at an arbitrary valuation V of the buffers at the region's entry and at any
float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether it was fetched there or not
    (the block index has not moved since the last fetch), for any proof data whose array is V's and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole adjacency block. -/
abbrev rA1 : Rect S256x2048 := Rect.unit (s := S256x2048) ![0, 0] S256x2048.size inb_S256x2048_S256x2048_0_0
/-- Row c of the transposed labels. -/
abbrev rr1_0 : Rect S8x2048 := Rect.unit (s := S8x2048) ![0, 0] S1x2048.size inb_S8x2048_S1x2048_0_0
abbrev rr1_1 : Rect S8x2048 := Rect.unit (s := S8x2048) ![1, 0] S1x2048.size inb_S8x2048_S1x2048_1_0
abbrev rr1_2 : Rect S8x2048 := Rect.unit (s := S8x2048) ![2, 0] S1x2048.size inb_S8x2048_S1x2048_2_0
abbrev rr1_3 : Rect S8x2048 := Rect.unit (s := S8x2048) ![3, 0] S1x2048.size inb_S8x2048_S1x2048_3_0
abbrev rr1_4 : Rect S8x2048 := Rect.unit (s := S8x2048) ![4, 0] S1x2048.size inb_S8x2048_S1x2048_4_0
abbrev rr1_5 : Rect S8x2048 := Rect.unit (s := S8x2048) ![5, 0] S1x2048.size inb_S8x2048_S1x2048_5_0
abbrev rr1_6 : Rect S8x2048 := Rect.unit (s := S8x2048) ![6, 0] S1x2048.size inb_S8x2048_S1x2048_6_0
abbrev rr1_7 : Rect S8x2048 := Rect.unit (s := S8x2048) ![7, 0] S1x2048.size inb_S8x2048_S1x2048_7_0
/-- Column c of a 256 × 8 block. -/
abbrev rc1_0 : Rect S256x8 := Rect.unit (s := S256x8) ![0, 0] S256x1.size inb_S256x8_S256x1_0_0
abbrev rc1_1 : Rect S256x8 := Rect.unit (s := S256x8) ![0, 1] S256x1.size inb_S256x8_S256x1_0_1
abbrev rc1_2 : Rect S256x8 := Rect.unit (s := S256x8) ![0, 2] S256x1.size inb_S256x8_S256x1_0_2
abbrev rc1_3 : Rect S256x8 := Rect.unit (s := S256x8) ![0, 3] S256x1.size inb_S256x8_S256x1_0_3
abbrev rc1_4 : Rect S256x8 := Rect.unit (s := S256x8) ![0, 4] S256x1.size inb_S256x8_S256x1_0_4
abbrev rc1_5 : Rect S256x8 := Rect.unit (s := S256x8) ![0, 5] S256x1.size inb_S256x8_S256x1_0_5
abbrev rc1_6 : Rect S256x8 := Rect.unit (s := S256x8) ![0, 6] S256x1.size inb_S256x8_S256x1_0_6
abbrev rc1_7 : Rect S256x8 := Rect.unit (s := S256x8) ![0, 7] S256x1.size inb_S256x8_S256x1_0_7

/-! ## What the body leaves in the output window's buffer -/

/-- Column c of the output block, from the adjacency block x0, the transposed labels x1 and the label block x2
    (the arithmetic is the skeleton's payloads, composed as the body composes them). -/
def col1_0 (x0 : Vec F S256x2048 .f32) (x1 : Vec F S8x2048 .f32) (x2 : Vec F S256x8 .f32) : FVec F S256x1 .f32 :=
  k1_pay2 (View.ld x0 rA1) (View.ld x1 rr1_0) (View.ld x2 rc1_0)
def col1_1 (x0 : Vec F S256x2048 .f32) (x1 : Vec F S8x2048 .f32) (x2 : Vec F S256x8 .f32) : FVec F S256x1 .f32 :=
  k1_pay4 (k1_pay3 (View.ld x0 rA1) (View.ld x1 rr1_1)) (View.ld x2 rc1_1)
def col1_2 (x0 : Vec F S256x2048 .f32) (x1 : Vec F S8x2048 .f32) (x2 : Vec F S256x8 .f32) : FVec F S256x1 .f32 :=
  k1_pay5 (View.ld x0 rA1) (View.ld x1 rr1_2) (View.ld x2 rc1_2)
def col1_3 (x0 : Vec F S256x2048 .f32) (x1 : Vec F S8x2048 .f32) (x2 : Vec F S256x8 .f32) : FVec F S256x1 .f32 :=
  k1_pay6 (View.ld x0 rA1) (View.ld x1 rr1_3) (View.ld x2 rc1_3)
def col1_4 (x0 : Vec F S256x2048 .f32) (x1 : Vec F S8x2048 .f32) (x2 : Vec F S256x8 .f32) : FVec F S256x1 .f32 :=
  k1_pay8 (k1_pay7 (View.ld x0 rA1) (View.ld x1 rr1_4)) (Scalar.ofBits .f32 0x3F666666#32) (View.ld x2 rc1_4)
def col1_5 (x0 : Vec F S256x2048 .f32) (x1 : Vec F S8x2048 .f32) (x2 : Vec F S256x8 .f32) : FVec F S256x1 .f32 :=
  k1_pay9 (View.ld x0 rA1) (View.ld x1 rr1_5) (View.ld x2 rc1_5)
def col1_6 (x0 : Vec F S256x2048 .f32) (x1 : Vec F S8x2048 .f32) (x2 : Vec F S256x8 .f32) : FVec F S256x1 .f32 :=
  k1_pay11 (k1_pay10 (View.ld x0 rA1) (View.ld x1 rr1_6)) (Scalar.ofBits .f32 0x00000000#32) (Scalar.ofBits .f32 0x3F7FFFEF#32) (View.ld x2 rc1_6)
def col1_7 (x0 : Vec F S256x2048 .f32) (x1 : Vec F S8x2048 .f32) (x2 : Vec F S256x8 .f32) : FVec F S256x1 .f32 :=
  k1_pay1 (k1_pay12 (View.ld x0 rA1) (View.ld x1 rr1_7)) (k1_pay13 (View.ld x2 rc1_7))

/-- The output block after the body: its eight column stores as pieces, last first. -/
def out1_3 (x0 : Vec F S256x2048 .f32) (x1 : Vec F S8x2048 .f32) (x2 : Vec F S256x8 .f32) : Vec F S256x8 .f32 :=
  View.canon [⟨rc1_7, col1_7 x0 x1 x2⟩, ⟨rc1_6, col1_6 x0 x1 x2⟩, ⟨rc1_5, col1_5 x0 x1 x2⟩, ⟨rc1_4, col1_4 x0 x1 x2⟩,
    ⟨rc1_3, col1_3 x0 x1 x2⟩, ⟨rc1_2, col1_2 x0 x1 x2⟩, ⟨rc1_1, col1_1 x0 x1 x2⟩, ⟨rc1_0, col1_0 x0 x1 x2⟩]

/-- The eight columns tile the block, so they cover it. -/
theorem cover1_3 (p0 p1 p2 p3 p4 p5 p6 p7 : Vec F S256x1 .f32) (y : S256x8.Idx) :
    ∃ pc ∈ ([⟨rc1_7, p7⟩, ⟨rc1_6, p6⟩, ⟨rc1_5, p5⟩, ⟨rc1_4, p4⟩, ⟨rc1_3, p3⟩, ⟨rc1_2, p2⟩, ⟨rc1_1, p1⟩, ⟨rc1_0, p0⟩] : List (View.Piece (Elt F) S256x8 .f32)), y ∈ pc.1.set :=
  View.cover_of_tiled [⟨rc1_7, p7⟩, ⟨rc1_6, p6⟩, ⟨rc1_5, p5⟩, ⟨rc1_4, p4⟩, ⟨rc1_3, p3⟩, ⟨rc1_2, p2⟩, ⟨rc1_1, p1⟩, ⟨rc1_0, p0⟩] S256x1.size (by rfl) y

/-! ## The body's triple -/

set_option maxHeartbeats 4000000 in
/-- The kernel body on whole staging buffers — the three inputs' at contents x0, x1, x2, the output's at anything —
    runs to its end and leaves the inputs' as they were and the output's at out1_3 of the inputs'. -/
theorem sound_kernel1 (c : Dev nD) (E : Set ℕ) (i : grid1.Coords)
    (arg1 : Memref sig .tc .vmem S256x2048 .f32) (harg1 : arg1.IsWhole) (arg2 : Memref sig .tc .vmem S8x2048 .f32) (harg2 : arg2.IsWhole)
    (arg3 : Memref sig .tc .vmem S256x8 .f32) (harg3 : arg3.IsWhole) (arg4 : Memref sig .tc .vmem S256x8 .f32) (harg4 : arg4.IsWhole)
    (x0 : Vec F S256x2048 .f32) (x1 : Vec F S8x2048 .f32) (x2 : Vec F S256x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__prop_step_kernel i arg1 harg1 arg2 harg2 arg3 harg3 arg4 harg4) K := by
  simp only [cc1__prop_step_kernel_eq_skeleton]; unfold cc1__prop_step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover1_3 _ _ _ _ _ _ _ _)

/-! ## The pipeline's proof data -/

/-- The proof data of the step's pipeline on core c: the arrays as the region finds them; after the body at point t
    each input's buffer at its block and the output's at out1_3 of the three input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Body2.lean ====
import proofs.«124206_j79594333929560_1_alg».proof.Proof.Gen.KernelIdeal.Launch
import proofs.«124206_j79594333929560_1_alg».proof.Proof.Gen.KernelIdeal.Skeleton
import proofs.«124206_j79594333929560_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Propagation step 2: what one grid point of the kernel leaves in its output block

At a grid point the kernel holds a block of 256 adjacency rows (256 × 2048), the whole transposed label matrix
(8 × 2048) and the 256 × 8 block of the label matrix at the same rows. For each class c = 0 … 7 it multiplies the
adjacency block by row c of the transposed labels, clips, takes log1p of the negation, sums along the neighbours,
exponentiates, and stores a·(1 − ·) + b·(column c of the label block) into column c of the 256 × 8 output block. The
eight column stores tile the output block, so what the block holds afterwards is a function of the three input
blocks alone, whatever it held before (the kernel also loads each output column before overwriting it and discards
the value). Everything here is stated at an arbitrary valuation V of the buffers at the region's entry and at any
float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether it was fetched there or not
    (the block index has not moved since the last fetch), for any proof data whose array is V's and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole adjacency block. -/
abbrev rA2 : Rect S256x2048 := Rect.unit (s := S256x2048) ![0, 0] S256x2048.size inb_S256x2048_S256x2048_0_0
/-- Row c of the transposed labels. -/
abbrev rr2_0 : Rect S8x2048 := Rect.unit (s := S8x2048) ![0, 0] S1x2048.size inb_S8x2048_S1x2048_0_0
abbrev rr2_1 : Rect S8x2048 := Rect.unit (s := S8x2048) ![1, 0] S1x2048.size inb_S8x2048_S1x2048_1_0
abbrev rr2_2 : Rect S8x2048 := Rect.unit (s := S8x2048) ![2, 0] S1x2048.size inb_S8x2048_S1x2048_2_0
abbrev rr2_3 : Rect S8x2048 := Rect.unit (s := S8x2048) ![3, 0] S1x2048.size inb_S8x2048_S1x2048_3_0
abbrev rr2_4 : Rect S8x2048 := Rect.unit (s := S8x2048) ![4, 0] S1x2048.size inb_S8x2048_S1x2048_4_0
abbrev rr2_5 : Rect S8x2048 := Rect.unit (s := S8x2048) ![5, 0] S1x2048.size inb_S8x2048_S1x2048_5_0
abbrev rr2_6 : Rect S8x2048 := Rect.unit (s := S8x2048) ![6, 0] S1x2048.size inb_S8x2048_S1x2048_6_0
abbrev rr2_7 : Rect S8x2048 := Rect.unit (s := S8x2048) ![7, 0] S1x2048.size inb_S8x2048_S1x2048_7_0
/-- Column c of a 256 × 8 block. -/
abbrev rc2_0 : Rect S256x8 := Rect.unit (s := S256x8) ![0, 0] S256x1.size inb_S256x8_S256x1_0_0
abbrev rc2_1 : Rect S256x8 := Rect.unit (s := S256x8) ![0, 1] S256x1.size inb_S256x8_S256x1_0_1
abbrev rc2_2 : Rect S256x8 := Rect.unit (s := S256x8) ![0, 2] S256x1.size inb_S256x8_S256x1_0_2
abbrev rc2_3 : Rect S256x8 := Rect.unit (s := S256x8) ![0, 3] S256x1.size inb_S256x8_S256x1_0_3
abbrev rc2_4 : Rect S256x8 := Rect.unit (s := S256x8) ![0, 4] S256x1.size inb_S256x8_S256x1_0_4
abbrev rc2_5 : Rect S256x8 := Rect.unit (s := S256x8) ![0, 5] S256x1.size inb_S256x8_S256x1_0_5
abbrev rc2_6 : Rect S256x8 := Rect.unit (s := S256x8) ![0, 6] S256x1.size inb_S256x8_S256x1_0_6
abbrev rc2_7 : Rect S256x8 := Rect.unit (s := S256x8) ![0, 7] S256x1.size inb_S256x8_S256x1_0_7

/-! ## What the body leaves in the output window's buffer -/

/-- Column c of the output block, from the adjacency block x0, the transposed labels x1 and the label block x2
    (the arithmetic is the skeleton's payloads, composed as the body composes them). -/
def col2_0 (x0 : Vec F S256x2048 .f32) (x1 : Vec F S8x2048 .f32) (x2 : Vec F S256x8 .f32) : FVec F S256x1 .f32 :=
  k2_pay2 (View.ld x0 rA2) (View.ld x1 rr2_0) (View.ld x2 rc2_0)
def col2_1 (x0 : Vec F S256x2048 .f32) (x1 : Vec F S8x2048 .f32) (x2 : Vec F S256x8 .f32) : FVec F S256x1 .f32 :=
  k2_pay4 (k2_pay3 (View.ld x0 rA2) (View.ld x1 rr2_1)) (View.ld x2 rc2_1)
def col2_2 (x0 : Vec F S256x2048 .f32) (x1 : Vec F S8x2048 .f32) (x2 : Vec F S256x8 .f32) : FVec F S256x1 .f32 :=
  k2_pay5 (View.ld x0 rA2) (View.ld x1 rr2_2) (View.ld x2 rc2_2)
def col2_3 (x0 : Vec F S256x2048 .f32) (x1 : Vec F S8x2048 .f32) (x2 : Vec F S256x8 .f32) : FVec F S256x1 .f32 :=
  k2_pay6 (View.ld x0 rA2) (View.ld x1 rr2_3) (View.ld x2 rc2_3)
def col2_4 (x0 : Vec F S256x2048 .f32) (x1 : Vec F S8x2048 .f32) (x2 : Vec F S256x8 .f32) : FVec F S256x1 .f32 :=
  k2_pay8 (k2_pay7 (View.ld x0 rA2) (View.ld x1 rr2_4)) (Scalar.ofBits .f32 0x3F666666#32) (View.ld x2 rc2_4)
def col2_5 (x0 : Vec F S256x2048 .f32) (x1 : Vec F S8x2048 .f32) (x2 : Vec F S256x8 .f32) : FVec F S256x1 .f32 :=
  k2_pay9 (View.ld x0 rA2) (View.ld x1 rr2_5) (View.ld x2 rc2_5)
def col2_6 (x0 : Vec F S256x2048 .f32) (x1 : Vec F S8x2048 .f32) (x2 : Vec F S256x8 .f32) : FVec F S256x1 .f32 :=
  k2_pay11 (k2_pay10 (View.ld x0 rA2) (View.ld x1 rr2_6)) (Scalar.ofBits .f32 0x00000000#32) (Scalar.ofBits .f32 0x3F7FFFEF#32) (View.ld x2 rc2_6)
def col2_7 (x0 : Vec F S256x2048 .f32) (x1 : Vec F S8x2048 .f32) (x2 : Vec F S256x8 .f32) : FVec F S256x1 .f32 :=
  k2_pay1 (k2_pay12 (View.ld x0 rA2) (View.ld x1 rr2_7)) (k2_pay13 (View.ld x2 rc2_7))

/-- The output block after the body: its eight column stores as pieces, last first. -/
def out2_3 (x0 : Vec F S256x2048 .f32) (x1 : Vec F S8x2048 .f32) (x2 : Vec F S256x8 .f32) : Vec F S256x8 .f32 :=
  View.canon [⟨rc2_7, col2_7 x0 x1 x2⟩, ⟨rc2_6, col2_6 x0 x1 x2⟩, ⟨rc2_5, col2_5 x0 x1 x2⟩, ⟨rc2_4, col2_4 x0 x1 x2⟩,
    ⟨rc2_3, col2_3 x0 x1 x2⟩, ⟨rc2_2, col2_2 x0 x1 x2⟩, ⟨rc2_1, col2_1 x0 x1 x2⟩, ⟨rc2_0, col2_0 x0 x1 x2⟩]

/-- The eight columns tile the block, so they cover it. -/
theorem cover2_3 (p0 p1 p2 p3 p4 p5 p6 p7 : Vec F S256x1 .f32) (y : S256x8.Idx) :
    ∃ pc ∈ ([⟨rc2_7, p7⟩, ⟨rc2_6, p6⟩, ⟨rc2_5, p5⟩, ⟨rc2_4, p4⟩, ⟨rc2_3, p3⟩, ⟨rc2_2, p2⟩, ⟨rc2_1, p1⟩, ⟨rc2_0, p0⟩] : List (View.Piece (Elt F) S256x8 .f32)), y ∈ pc.1.set :=
  View.cover_of_tiled [⟨rc2_7, p7⟩, ⟨rc2_6, p6⟩, ⟨rc2_5, p5⟩, ⟨rc2_4, p4⟩, ⟨rc2_3, p3⟩, ⟨rc2_2, p2⟩, ⟨rc2_1, p1⟩, ⟨rc2_0, p0⟩] S256x1.size (by rfl) y

/-! ## The body's triple -/

set_option maxHeartbeats 4000000 in
/-- The kernel body on whole staging buffers — the three inputs' at contents x0, x1, x2, the output's at anything —
    runs to its end and leaves the inputs' as they were and the output's at out2_3 of the inputs'. -/
theorem sound_kernel2 (c : Dev nD) (E : Set ℕ) (i : grid2.Coords)
    (arg1 : Memref sig .tc .vmem S256x2048 .f32) (harg1 : arg1.IsWhole) (arg2 : Memref sig .tc .vmem S8x2048 .f32) (harg2 : arg2.IsWhole)
    (arg3 : Memref sig .tc .vmem S256x8 .f32) (harg3 : arg3.IsWhole) (arg4 : Memref sig .tc .vmem S256x8 .f32) (harg4 : arg4.IsWhole)
    (x0 : Vec F S256x2048 .f32) (x1 : Vec F S8x2048 .f32) (x2 : Vec F S256x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__prop_step_kernel i arg1 harg1 arg2 harg2 arg3 harg3 arg4 harg4) K := by
  simp only [cc2__prop_step_kernel_eq_skeleton]; unfold cc2__prop_step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  exact View.read_writes_eq_canon _ _ _ (cover2_3 _ _ _ _ _ _ _ _)

/-! ## The pipeline's proof data -/

/-- The proof data of the step's pipeline on core c: the arrays as the region finds them; after the body at point t
    each input's buffer at its block and the output's at out2_3 of the three input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Run.lean ====
import proofs.«124206_j79594333929560_1_alg».proof.Proof.KI_Body0
import proofs.«124206_j79594333929560_1_alg».proof.Proof.KI_Body1
import proofs.«124206_j79594333929560_1_alg».proof.Proof.KI_Body2
import proofs.«124206_j79594333929560_1_alg».proof.Proof.Gen.KernelIdeal.Regions

/-!
# The whole run: three propagation steps among stretches of host operations

The program is: host operations (the two-layer perceptron, a row softmax, a transpose), a propagation step, host
operations (a row softmax of the step's result for the output, and its transpose for the next step), a second step,
host operations again, a third step, and the last softmax and the stacking of the three softmaxes. The buffers'
contents at each boundary are a fold from the launch memory: a host stretch applies its operations, a step replaces
its output array by what its eight row blocks wrote back and changes nothing else. Every weakly fair execution ends
with every unscoped buffer at the last boundary's contents; no stretch and no step writes an argument array.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the perceptron's first layer, -/
abbrev W1 : Dev nD → Valuation τ sig (Elt F) := fun c => StableHlo.after hostOps0 (W0 m c)
/-- its rectifier, -/
abbrev W2 : Dev nD → Valuation τ sig (Elt F) := fun c => StableHlo.after hostOps0_1 (W1 m c)
/-- and its second layer, the first softmax and the transpose: the first step's entry. -/
abbrev W3 : Dev nD → Valuation τ sig (Elt F) := fun c => StableHlo.after hostOps0_2 (W2 m c)
abbrev VE3 : (c : Dev nD) → (b : Ref sig .tc) → Buf (Elt F) ((c : Thread nD τ).loc b) := fun c b => W3 m c b

/-- At region 0's exit: its arrays at what the pipeline leaves (the inputs as entered, the output's write-backs
    folded), every other buffer as entered. -/
def W4 (c : Dev nD) : Valuation τ sig (Elt F) :=
  Pipeline.withArrays spec0 c (W3 m c) fun w => (dat0 (VE3 m) c).arrAt w cfg0.N
theorem W4_arr (c : Dev nD) (w : Fin cfg0.W) :
    W4 m c (Proc.devRef .tc (Pipeline.arrRef spec0 w)) = (dat0 (VE3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev VE4 : (c : Dev nD) → (b : Ref sig .tc) → Buf (Elt F) ((c : Thread nD τ).loc b) := fun c b => W4 m c b
theorem hF0 (c : Dev nD) (w : Fin cfg0.W) : (dat0 (VE3 m) c).arrAt w cfg0.N = VE4 m c (Pipeline.arrRef spec0 w) :=
  (W4_arr m c w).symm
theorem hrest0 (c : Dev nD) : ∀ b, b ∉ Finset.univ.image (Pipeline.arrRef spec0) → VE4 m c b = VE3 m c b :=
  fun b hb => W4_of_ne m c b fun w e => hb (Finset.mem_image.mpr ⟨w, Finset.mem_univ _, e⟩)

/-- After the host operations between the first and second steps. -/
abbrev W5 : Dev nD → Valuation τ sig (Elt F) := fun c => StableHlo.after hostOps1 (W4 m c)
abbrev VE5 : (c : Dev nD) → (b : Ref sig .tc) → Buf (Elt F) ((c : Thread nD τ).loc b) := fun c b => W5 m c b

/-- At region 1's exit: its arrays at what the pipeline leaves (the inputs as entered, the output's write-backs
    folded), every other buffer as entered. -/
def W6 (c : Dev nD) : Valuation τ sig (Elt F) :=
  Pipeline.withArrays spec1 c (W5 m c) fun w => (dat1 (VE5 m) c).arrAt w cfg1.N
theorem W6_arr (c : Dev nD) (w : Fin cfg1.W) :
    W6 m c (Proc.devRef .tc (Pipeline.arrRef spec1 w)) = (dat1 (VE5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev VE6 : (c : Dev nD) → (b : Ref sig .tc) → Buf (Elt F) ((c : Thread nD τ).loc b) := fun c b => W6 m c b
theorem hF1 (c : Dev nD) (w : Fin cfg1.W) : (dat1 (VE5 m) c).arrAt w cfg1.N = VE6 m c (Pipeline.arrRef spec1 w) :=
  (W6_arr m c w).symm
theorem hrest1 (c : Dev nD) : ∀ b, b ∉ Finset.univ.image (Pipeline.arrRef spec1) → VE6 m c b = VE5 m c b :=
  fun b hb => W6_of_ne m c b fun w e => hb (Finset.mem_image.mpr ⟨w, Finset.mem_univ _, e⟩)

/-- After the host operations between the second and third steps. -/
abbrev W7 : Dev nD → Valuation τ sig (Elt F) := fun c => StableHlo.after hostOps2 (W6 m c)
abbrev VE7 : (c : Dev nD) → (b : Ref sig .tc) → Buf (Elt F) ((c : Thread nD τ).loc b) := fun c b => W7 m c b

/-- At region 2's exit: its arrays at what the pipeline leaves (the inputs as entered, the output's write-backs
    folded), every other buffer as entered. -/
def W8 (c : Dev nD) : Valuation τ sig (Elt F) :=
  Pipeline.withArrays spec2 c (W7 m c) fun w => (dat2 (VE7 m) c).arrAt w cfg2.N
theorem W8_arr (c : Dev nD) (w : Fin cfg2.W) :
    W8 m c (Proc.devRef .tc (Pipeline.arrRef spec2 w)) = (dat2 (VE7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev VE8 : (c : Dev nD) → (b : Ref sig .tc) → Buf (Elt F) ((c : Thread nD τ).loc b) := fun c b => W8 m c b
theorem hF2 (c : Dev nD) (w : Fin cfg2.W) : (dat2 (VE7 m) c).arrAt w cfg2.N = VE8 m c (Pipeline.arrRef spec2 w) :=
  (W8_arr m c w).symm
theorem hrest2 (c : Dev nD) : ∀ b, b ∉ Finset.univ.image (Pipeline.arrRef spec2) → VE8 m c b = VE7 m c b :=
  fun b hb => W8_of_ne m c b fun w e => hb (Finset.mem_image.mpr ⟨w, Finset.mem_univ _, e⟩)

/-- After the last host operations: the end. -/
abbrev W9 : Dev nD → Valuation τ sig (Elt F) := fun c => StableHlo.after hostOps3 (W8 m c)

/-! ## A step changes its output array only -/

theorem W4_keeps (c : Dev nD) (b : Ref sig .tc) (hb : Pipeline.arrRef spec0 3 ≠ b) :
    W4 m c (Proc.devRef .tc b) = W3 m c (Proc.devRef .tc b) := by
  by_cases h : ∃ w, Pipeline.arrRef spec0 w = b
  · obtain ⟨w, rfl⟩ := h
    have hw : (cfg0.win w).isOut = false := by revert hb; revert w; decide
    rw [W4_arr, (dat0 (VE3 m) c).arrAt_in w hw, A_eq0]
  · exact W4_of_ne m c b (fun w e => h ⟨w, e⟩)
theorem W6_keeps (c : Dev nD) (b : Ref sig .tc) (hb : Pipeline.arrRef spec1 3 ≠ b) :
    W6 m c (Proc.devRef .tc b) = W5 m c (Proc.devRef .tc b) := by
  by_cases h : ∃ w, Pipeline.arrRef spec1 w = b
  · obtain ⟨w, rfl⟩ := h
    have hw : (cfg1.win w).isOut = false := by revert hb; revert w; decide
    rw [W6_arr, (dat1 (VE5 m) c).arrAt_in w hw, A_eq1]
  · exact W6_of_ne m c b (fun w e => h ⟨w, e⟩)
theorem W8_keeps (c : Dev nD) (b : Ref sig .tc) (hb : Pipeline.arrRef spec2 3 ≠ b) :
    W8 m c (Proc.devRef .tc b) = W7 m c (Proc.devRef .tc b) := by
  by_cases h : ∃ w, Pipeline.arrRef spec2 w = b
  · obtain ⟨w, rfl⟩ := h
    have hw : (cfg2.win w).isOut = false := by revert hb; revert w; decide
    rw [W8_arr, (dat2 (VE7 m) c).arrAt_in w hw, A_eq2]
  · exact W8_of_ne m c b (fun w e => h ⟨w, e⟩)

/-! ## The arguments end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps3 _ hostOps3_writes (r := main_arg0) (by decide)
    _ = W7 m c (Proc.devRef .tc main_arg0) := W8_keeps m c main_arg0 (by decide)
    _ = W6 m c (Proc.devRef .tc main_arg0) := StableHlo.after_of_writes_sub hostOps2 _ hostOps2_writes (r := main_arg0) (by decide)
    _ = W5 m c (Proc.devRef .tc main_arg0) := W6_keeps m c main_arg0 (by decide)
    _ = W4 m c (Proc.devRef .tc main_arg0) := StableHlo.after_of_writes_sub hostOps1 _ hostOps1_writes (r := main_arg0) (by decide)
    _ = W3 m c (Proc.devRef .tc main_arg0) := W4_keeps m c main_arg0 (by decide)
    _ = W2 m c (Proc.devRef .tc main_arg0) := StableHlo.after_of_writes_sub hostOps0_2 _ hostOps0_2_writes (r := main_arg0) (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps3 _ hostOps3_writes (r := main_arg1) (by decide)
    _ = W7 m c (Proc.devRef .tc main_arg1) := W8_keeps m c main_arg1 (by decide)
    _ = W6 m c (Proc.devRef .tc main_arg1) := StableHlo.after_of_writes_sub hostOps2 _ hostOps2_writes (r := main_arg1) (by decide)
    _ = W5 m c (Proc.devRef .tc main_arg1) := W6_keeps m c main_arg1 (by decide)
    _ = W4 m c (Proc.devRef .tc main_arg1) := StableHlo.after_of_writes_sub hostOps1 _ hostOps1_writes (r := main_arg1) (by decide)
    _ = W3 m c (Proc.devRef .tc main_arg1) := W4_keeps m c main_arg1 (by decide)
    _ = W2 m c (Proc.devRef .tc main_arg1) := StableHlo.after_of_writes_sub hostOps0_2 _ hostOps0_2_writes (r := main_arg1) (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps3 _ hostOps3_writes (r := main_arg2) (by decide)
    _ = W7 m c (Proc.devRef .tc main_arg2) := W8_keeps m c main_arg2 (by decide)
    _ = W6 m c (Proc.devRef .tc main_arg2) := StableHlo.after_of_writes_sub hostOps2 _ hostOps2_writes (r := main_arg2) (by decide)
    _ = W5 m c (Proc.devRef .tc main_arg2) := W6_keeps m c main_arg2 (by decide)
    _ = W4 m c (Proc.devRef .tc main_arg2) := StableHlo.after_of_writes_sub hostOps1 _ hostOps1_writes (r := main_arg2) (by decide)
    _ = W3 m c (Proc.devRef .tc main_arg2) := W4_keeps m c main_arg2 (by decide)
    _ = W2 m c (Proc.devRef .tc main_arg2) := StableHlo.after_of_writes_sub hostOps0_2 _ hostOps0_2_writes (r := main_arg2) (by decide)
    _ = W1 m c (Proc.devRef .tc main_arg2) := StableHlo.after_of_writes_sub hostOps0_1 _ hostOps0_1_writes (r := main_arg2) (by decide)
    _ = W0 m c (Proc.devRef .tc main_arg2) := StableHlo.after_of_writes_sub hostOps0 _ hostOps0_writes (r := main_arg2) (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps3 _ hostOps3_writes (r := main_arg3) (by decide)
    _ = W7 m c (Proc.devRef .tc main_arg3) := W8_keeps m c main_arg3 (by decide)
    _ = W6 m c (Proc.devRef .tc main_arg3) := StableHlo.after_of_writes_sub hostOps2 _ hostOps2_writes (r := main_arg3) (by decide)
    _ = W5 m c (Proc.devRef .tc main_arg3) := W6_keeps m c main_arg3 (by decide)
    _ = W4 m c (Proc.devRef .tc main_arg3) := StableHlo.after_of_writes_sub hostOps1 _ hostOps1_writes (r := main_arg3) (by decide)
    _ = W3 m c (Proc.devRef .tc main_arg3) := W4_keeps m c main_arg3 (by decide)
    _ = W2 m c (Proc.devRef .tc main_arg3) := StableHlo.after_of_writes_sub hostOps0_2 _ hostOps0_2_writes (r := main_arg3) (by decide)
    _ = W1 m c (Proc.devRef .tc main_arg3) := StableHlo.after_of_writes_sub hostOps0_1 _ hostOps0_1_writes (r := main_arg3) (by decide)
    _ = W0 m c (Proc.devRef .tc main_arg3) := StableHlo.after_of_writes_sub hostOps0 _ hostOps0_writes (r := main_arg3) (by decide)
    _ = m ((c : Thread nD τ).loc main_arg3) := rfl

theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps3 _ hostOps3_writes (r := main_arg4) (by decide)
    _ = W7 m c (Proc.devRef .tc main_arg4) := W8_keeps m c main_arg4 (by decide)
    _ = W6 m c (Proc.devRef .tc main_arg4) := StableHlo.after_of_writes_sub hostOps2 _ hostOps2_writes (r := main_arg4) (by decide)
    _ = W5 m c (Proc.devRef .tc main_arg4) := W6_keeps m c main_arg4 (by decide)
    _ = W4 m c (Proc.devRef .tc main_arg4) := StableHlo.after_of_writes_sub hostOps1 _ hostOps1_writes (r := main_arg4) (by decide)
    _ = W3 m c (Proc.devRef .tc main_arg4) := W4_keeps m c main_arg4 (by decide)
    _ = W2 m c (Proc.devRef .tc main_arg4) := StableHlo.after_of_writes_sub hostOps0_2 _ hostOps0_2_writes (r := main_arg4) (by decide)
    _ = W1 m c (Proc.devRef .tc main_arg4) := StableHlo.after_of_writes_sub hostOps0_1 _ hostOps0_1_writes (r := main_arg4) (by decide)
    _ = W0 m c (Proc.devRef .tc main_arg4) := StableHlo.after_of_writes_sub hostOps0 _ hostOps0_writes (r := main_arg4) (by decide)
    _ = m ((c : Thread nD τ).loc main_arg4) := rfl

theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps3 _ hostOps3_writes (r := main_arg5) (by decide)
    _ = W7 m c (Proc.devRef .tc main_arg5) := W8_keeps m c main_arg5 (by decide)
    _ = W6 m c (Proc.devRef .tc main_arg5) := StableHlo.after_of_writes_sub hostOps2 _ hostOps2_writes (r := main_arg5) (by decide)
    _ = W5 m c (Proc.devRef .tc main_arg5) := W6_keeps m c main_arg5 (by decide)
    _ = W4 m c (Proc.devRef .tc main_arg5) := StableHlo.after_of_writes_sub hostOps1 _ hostOps1_writes (r := main_arg5) (by decide)
    _ = W3 m c (Proc.devRef .tc main_arg5) := W4_keeps m c main_arg5 (by decide)
    _ = W2 m c (Proc.devRef .tc main_arg5) := StableHlo.after_of_writes_sub hostOps0_2 _ hostOps0_2_writes (r := main_arg5) (by decide)
    _ = W1 m c (Proc.devRef .tc main_arg5) := StableHlo.after_of_writes_sub hostOps0_1 _ hostOps0_1_writes (r := main_arg5) (by decide)
    _ = W0 m c (Proc.devRef .tc main_arg5) := StableHlo.after_of_writes_sub hostOps0 _ hostOps0_writes (r := main_arg5) (by decide)
    _ = m ((c : Thread nD τ).loc main_arg5) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (VE3 m) c
  | ⟨1, _⟩ => fun c => dat1 (VE5 m) c
  | ⟨2, _⟩ => fun c => dat2 (VE7 m) c
abbrev 𝒱H : Variants := Variants.none
abbrev LH : GSem nD τ sig → Finset Unit := fun _ => ∅
abbrev lvH : GSem nD τ sig → Unit → ℕ := fun _ _ => 0
/-- What rides beside the buffers through every segment: the core's generator register at some state and the core
    owing nothing. -/
abbrev RH (c : Dev nD) : sProp 𝕄 := iprop((∃ r, prngReg c r) ∗ ∃ W, owes (c : Thread nD τ) (0 : CellTallies nD τ sig Unit) W)
/-- A host stretch as a segment over the unscoped references from the contents W. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TH (c : Dev nD) : sProp 𝕄 := iprop(StableHlo.held (c : Thread nD τ) (Pipeline.ucRefs τ sig) (W9 m c) ∗ ∃ r, prngReg c r)

/-! ## The steps as segments -/

set_option backward.isDefEq.respectTransparency.types false in
/-- Region 0 over the thread state: entered from every unscoped buffer at W3, left at W4. Its arrays are split
    out of the unscoped buffers and put back at the exit contents; the generator register goes into the class
    invariant and comes out; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE3 m) c).loose
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (VE3 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (VE3 m c) (VE4 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split
    out of the unscoped buffers and put back at the exit contents; the generator register goes into the class
    invariant and comes out; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE5 m) c).loose
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (VE5 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (VE5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (VE5 m c) (VE6 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split
    out of the unscoped buffers and put back at the exit contents; the generator register goes into the class
    invariant and comes out; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VE7 m) c).loose
  hwaits := Pipeline.hwaits_of_owed_zero _ _ _ _ LH lvH 2 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec2 c (VE7 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (VE7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (VE7 m c) (VE8 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m) () defs₀ 𝒱H LH lvH) :=
  [ .host (hsegH hostOps0 hostOps0_sub hostOps0_fresh (W0 m)),
    .host (hsegH hostOps0_1 hostOps0_1_sub hostOps0_1_fresh (W1 m)),
    .host (hsegH hostOps0_2 hostOps0_2_sub hostOps0_2_fresh (W2 m)),
    .region (reg0 m),
    .host (hsegH hostOps1 hostOps1_sub hostOps1_fresh (W4 m)),
    .region (reg1 m),
    .host (hsegH hostOps2 hostOps2_sub hostOps2_fresh (W6 m)),
    .region (reg2 m),
    .host (hsegH hostOps3 hostOps3_sub hostOps3_fresh (W8 m)) ]

theorem main_runH (c : Dev nD) : main (F := F) c = Pipeline.Seg.run (segsH m) := (main_chain c).trans (by chain_rfl)

set_option backward.isDefEq.respectTransparency.types false in
/-- Every weakly fair execution of the program from memory m with zero counters terminates, nothing faulting, and in
    every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m c) ∗ RH c)
          ⊢ iprop(TH m c ∗ ∃ W, owes (c : Thread nD τ) (0 : CellTallies nD τ sig Unit) W)
        iintro ⟨Hh, Hp, Ho⟩
        isplitl [Hh Hp]
        · isplitl [Hh] <;> iassumption
        iexact Ho⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_ucH main_arg0 (by decide))).trans (W9_main_arg0 m c),
     (h c _ (mem_ucH main_arg1 (by decide))).trans (W9_main_arg1 m c),
     (h c _ (mem_ucH main_arg2 (by decide))).trans (W9_main_arg2 m c),
     (h c _ (mem_ucH main_arg3 (by decide))).trans (W9_main_arg3 m c),
     (h c _ (mem_ucH main_arg4 (by decide))).trans (W9_main_arg4 m c),
     (h c _ (mem_ucH main_arg5 (by decide))).trans (W9_main_arg5 m c)⟩) (run_all m ρ)

end Cert.KernelIdeal.Hand

end
-- ==== Proof.KI_Host.lean ====
import proofs.«124206_j79594333929560_1_alg».proof.Proof.Gen.KernelIdeal.Launch
import proofs.«124206_j79594333929560_1_alg».proof.Proof.Gen.KernelIdeal.Regions
import Idealize.ShloMosaic.Lib.StableHlo.Run

/-!
# The host operations between the propagation steps, as functions of the arrays they read

The perceptron's two layers, the row softmax (maximum of a row joined with −∞, subtract, exponential, row sum from 0,
quotient), the transpose that hands a label matrix to the next step, and the stacking of three matrices into one
[3, 2048, 8] array — each stretch of host operations read from ANY contents W of the buffers, at any float instance,
as one named function of the few arrays it reads. Nothing here is opened: the two programs apply the same operations,
so their results are compared as these functions of equal arguments.
-/

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- A row's entries less the row's maximum (joined once more with −∞), exponentiated. -/
def smExp (X : FVec F S2048x8 .f32) : FVec F S2048x8 .f32 :=
  Host.exp (subf X (broadcastInDim S2048x8 ![0, 1] bcast_S2048x1_S2048x8_0_1 (broadcastInDim S2048x1 ![0] bcast_S2048_S2048x1_0
    (maximumf (broadcastInDim S2048 ![] bcast_S_S2048 (constant (F := F) S_ .f32 0xFF800000#32))
      (Host.reduce FloatOps.maximumf X (constant (F := F) S_ .f32 0xFF800000#32) reducesTo_S2048x8_S2048_d1 h_S_)))))

/-- The row softmax as the host computes it. -/
def smK (X : FVec F S2048x8 .f32) : FVec F S2048x8 .f32 :=
  Host.divf (smExp X) (broadcastInDim S2048x8 ![0, 1] bcast_S2048x1_S2048x8_0_1 (broadcastInDim S2048x1 ![0] bcast_S2048_S2048x1_0
    (Host.reduceAdd (smExp X) (constant (F := F) S_ .f32 0x00000000#32) reducesTo_S2048x8_S2048_d1 h_S_)))

/-- The label matrix transposed, as the step's second operand. -/
def tpK (X : FVec F S2048x8 .f32) : FVec F S8x2048 .f32 :=
  transpose S8x2048 [1, 0] X transposes_S2048x8_S8x2048_1_0

/-- The perceptron's first layer: x · W1 + b1. -/
def lin1K (a1 : FVec F S2048x256 .f32) (a2 : FVec F S256x32 .f32) (a3 : FVec F S32 .f32) : FVec F S2048x32 .f32 :=
  addf (Host.dotGeneral dot_S2048x256_S256x32_S2048x32_1_0_0_1_n_n none a1 a2)
    (broadcastInDim S2048x32 ![0, 1] bcast_S1x32_S2048x32_0_1 (broadcastInDim S1x32 ![1] bcast_S32_S1x32_1 a3))

/-- The rectifier. -/
def reluK (Y : FVec F S2048x32 .f32) : FVec F S2048x32 .f32 :=
  maximumf Y (broadcastInDim S2048x32 ![] bcast_S_S2048x32 (constant (F := F) S_ .f32 0x00000000#32))

/-- The second layer: h · W2 + b2. -/
def lin2K (h : FVec F S2048x32 .f32) (a4 : FVec F S32x8 .f32) (a5 : FVec F S8 .f32) : FVec F S2048x8 .f32 :=
  addf (Host.dotGeneral dot_S2048x32_S32x8_S2048x8_1_0_0_1_n_n none h a4)
    (broadcastInDim S2048x8 ![0, 1] bcast_S1x8_S2048x8_0_1 (broadcastInDim S1x8 ![1] bcast_S8_S1x8_1 a5))

/-- The first label matrix: the softmax of the perceptron's output. -/
def P0K (a1 : FVec F S2048x256 .f32) (a2 : FVec F S256x32 .f32) (a3 : FVec F S32 .f32) (a4 : FVec F S32x8 .f32) (a5 : FVec F S8 .f32) :
    FVec F S2048x8 .f32 :=
  smK (lin2K (reluK (lin1K a1 a2 a3)) a4 a5)

/-- Three matrices stacked along a new leading axis. -/
def stackK (Y1 Y2 Y3 : FVec F S2048x8 .f32) : FVec F S3x2048x8 .f32 :=
  concatenate S3x2048x8 0 [⟨S1x2048x8, broadcastInDim S1x2048x8 ![1, 2] bcast_S2048x8_S1x2048x8_1_2 Y1⟩,
    ⟨S1x2048x8, broadcastInDim S1x2048x8 ![1, 2] bcast_S2048x8_S1x2048x8_1_2 Y2⟩,
    ⟨S1x2048x8, broadcastInDim S1x2048x8 ![1, 2] bcast_S2048x8_S1x2048x8_1_2 Y3⟩] concatenates_S1x2048x8_S1x2048x8_S1x2048x8_S3x2048x8_d0

variable (W : Valuation τ sig (Elt F))

/-! ## Before the first step -/

theorem h0_v3 : StableHlo.after hostOps0 W (Proc.devRef .tc main_v3)
    = lin1K (W (Proc.devRef .tc main_arg1)) (W (Proc.devRef .tc main_arg2)) (W (Proc.devRef .tc main_arg3)) := by
  dsimp only [hostOps0]; after_results_simp; rfl

theorem h01_v4 : StableHlo.after hostOps0_1 W (Proc.devRef .tc main_v4) = reluK (W (Proc.devRef .tc main_v3)) := by
  dsimp only [hostOps0_1]; after_results_simp; rfl

theorem h02_v19 : StableHlo.after hostOps0_2 W (Proc.devRef .tc main_v19)
    = smK (lin2K (W (Proc.devRef .tc main_v4)) (W (Proc.devRef .tc main_arg4)) (W (Proc.devRef .tc main_arg5))) := by
  dsimp only [hostOps0_2]; after_results_simp; rfl

theorem h02_v20 : StableHlo.after hostOps0_2 W (Proc.devRef .tc main_v20)
    = tpK (smK (lin2K (W (Proc.devRef .tc main_v4)) (W (Proc.devRef .tc main_arg4)) (W (Proc.devRef .tc main_arg5)))) := by
  dsimp only [hostOps0_2]; after_results_simp; rfl

/-! ## Between the steps -/

theorem h1_v32 : StableHlo.after hostOps1 W (Proc.devRef .tc main_v32) = smK (W (Proc.devRef .tc main_v21)) := by
  dsimp only [hostOps1]; after_results_simp; rfl
theorem h1_v33 : StableHlo.after hostOps1 W (Proc.devRef .tc main_v33) = tpK (W (Proc.devRef .tc main_v21)) := by
  dsimp only [hostOps1]; after_results_simp; rfl
theorem h2_v45 : StableHlo.after hostOps2 W (Proc.devRef .tc main_v45) = smK (W (Proc.devRef .tc main_v34)) := by
  dsimp only [hostOps2]; after_results_simp; rfl
theorem h2_v46 : StableHlo.after hostOps2 W (Proc.devRef .tc main_v46) = tpK (W (Proc.devRef .tc main_v34)) := by
  dsimp only [hostOps2]; after_results_simp; rfl

/-! ## After the last step -/

set_option maxRecDepth 65536 in
theorem h3_v62 : StableHlo.after hostOps3 W (Proc.devRef .tc main_v62)
    = stackK (W (Proc.devRef .tc main_v32)) (W (Proc.devRef .tc main_v45)) (smK (W (Proc.devRef .tc main_v47))) := by
  dsimp only [hostOps3]; after_results_simp; rfl

end Cert.KernelIdeal.HostValue

end
-- ==== Proof.Spec.lean ====
import Idealize.ShloMosaic.PureOps.Ideal
import Idealize.ShloMosaic.Lib.ValueIdx

/-!
# The soft-logic propagation step, entry by entry

For an adjacency matrix `adj` of N × N extended reals and a label matrix `P` of N × C extended reals (N = 2048 nodes,
C = 8 classes) one propagation step is, at node `r` and class `c`,

  a · (1 − exp (∑ₖ log1p (−clip (adj r k · P k c)))) + b · P r c,

the noisy-OR over all neighbours `k` of the soft-AND of the edge weight and the neighbour's label, blended with the
node's own label. `clip` is max with 0 followed by min with the largest f32 below 1 − 10⁻⁶; `a`, `b`, 1 and the clip
bounds are the f32 words both programs print, never evaluated here. The sum is a `Finset.sum` over `Fin 2048`: on the
extended reals addition is commutative and associative, so every order of summation is this one.
-/

noncomputable section

namespace PropStep

open Idealize.ShloMosaic Idealize.ShloMosaic.ValueIdx

/-- The adjacency matrix's shape. -/
abbrev SNN : Shape := ⟨2, ![2048, 2048]⟩
/-- The label matrix's shape. -/
abbrev SNC : Shape := ⟨2, ![2048, 8]⟩

/-- The lower clip bound, the f32 word of 0. -/
abbrev lo : EReal := Ideal.ofBits .f32 0x00000000#32
/-- The upper clip bound, the f32 word nearest 1 − 10⁻⁶. -/
abbrev hi : EReal := Ideal.ofBits .f32 0x3F7FFFEF#32
/-- The f32 word of 1. -/
abbrev one : EReal := Ideal.ofBits .f32 0x3F800000#32
/-- The weight of the aggregated term, the f32 word nearest 0.9. -/
abbrev wa : EReal := Ideal.ofBits .f32 0x3F666666#32
/-- The weight of the node's own label, the f32 word nearest 0.1. -/
abbrev wb : EReal := Ideal.ofBits .f32 0x3DCCCCCD#32

/-- One neighbour's contribution to the log of the noisy-OR's complement: log1p of minus the clipped soft-AND. -/
def term (a p : EReal) : EReal := Ideal.log1p (-(min hi (max lo (a * p))))

/-- The step at node `r`, class `c`. -/
def stepAt (adj : SNN.Idx → EReal) (P : SNC.Idx → EReal) (r : Fin 2048) (c : Fin 8) : EReal :=
  wa * (one - Ideal.exp (∑ k : Fin 2048, term (adj (ix2 r k)) (P (ix2 k c)))) + wb * P (ix2 r c)

/-- The step as an array. -/
def step (adj : SNN.Idx → EReal) (P : SNC.Idx → EReal) : SNC.Idx → EReal :=
  fun j => stepAt adj P (j 0) (j 1)

theorem step_apply (adj : SNN.Idx → EReal) (P : SNC.Idx → EReal) (r : Fin 2048) (c : Fin 8) :
    step adj P (ix2 r c) = stepAt adj P r c := rfl

end PropStep

end
-- ==== Proof.KI_Pay0.lean ====
import proofs.«124206_j79594333929560_1_alg».proof.Proof.KI_Body0
import proofs.«124206_j79594333929560_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Propagation step 0: the output block of one grid point, entry by entry, on the extended reals

At a grid point the body holds a 256 × 2048 block x0 of adjacency rows, the whole 8 × 2048 transposed label matrix x1
and the 256 × 8 block x2 of the label matrix at the same rows. Read on the extended reals, where every operation is
exact, the block it leaves is at row r and class c

  a · (1 − exp (∑ₖ log1p (−clip (x0 r k · x1 c k)))) + b · x2 r c,

the sum over all 2048 neighbours k. The eight column stores compute this one expression — they differ only in which
row of x1 and which column of x2 they load —, so it is read once, over an arbitrary row and column load, and each store
is an instance; the eight columns tile the block.

The steps that are not entry-by-entry: the row of labels broadcast over the 256 adjacency rows reads its one row; zero
minus t is −t (the zero word is the real 0); the add-reduction along the neighbour axis from the zero word is the sum
over the 2048 neighbours; the reduced vector recast as a 256 × 1 column reads the vector at the row.
-/

set_option maxRecDepth 16384

noncomputable section

namespace Cert.KernelIdeal.HandValue

open Cert.KernelIdeal Cert.KernelIdeal.Gen Cert.KernelIdeal.Hand
open Idealize.ShloMosaic Idealize.ShloMosaic.ValueIdx

namespace Pay0

/-! ## Layout and reduction steps read at an index -/

/-- A length-a vector recast as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The exponential of a vector, at an index, is the extended reals' exponential of the entry. -/
theorem exp_apply {s : Shape} {φ : FTy} (v : FVec Ideal s φ) (i : s.Idx) : exp v i = Ideal.exp (v i) := rfl

/-- The row sum: the add-reduction of a 256 × 2048 block along its second axis, from the zero word, is at row r the
    sum of the row's 2048 entries. -/
theorem rowsum_apply (v : FVec Ideal S256x2048 .f32) (hφ : FKind.Formats .f32) (hacc : (0x00000000#32 : BitVec 32) = 0x00000000#32) (r : Fin 256) :
    multiReduction (F := Ideal) .add [1] S256 v 0x00000000#32 reduces_S256x2048_S256 hφ hacc (ix1 r) = ∑ k : Fin 2048, v (ix2 r k) :=
  (Ideal.multiReduction_add_single v 0x00000000#32 reduces_S256x2048_S256 hφ hacc (ix1 r)).trans
    (Finset.sum_congr rfl fun k _ => congrArg v (funext fun a => by match a with | ⟨0, _⟩ => rfl | ⟨1, _⟩ => rfl))

/-! ## One column's payload at a row -/

/-- One neighbour's term: the adjacency entry times the label row's entry (the row broadcast over the block's rows),
    clipped between the two bounds, subtracted from zero, through log1p. -/
theorem term_apply (a : FVec Ideal S256x2048 .f32) (p : FVec Ideal S1x2048 .f32) (r : Fin 256) (k : Fin 2048) :
    log1p (subf (broadcast S256x2048 (Scalar.ofBits .f32 0x00000000#32))
      (minimumf (broadcast S256x2048 (Scalar.ofBits .f32 0x3F7FFFEF#32))
        (maximumf (broadcast S256x2048 (Scalar.ofBits .f32 0x00000000#32))
          (mulf a (broadcastTo S256x2048 p broadcasts_S1x2048_S256x2048))))) (ix2 r k)
      = PropStep.term (a (ix2 r k)) (p (ix2 (0 : Fin 1) k)) := by
  show Ideal.log1p (Ideal.ofBits .f32 0x00000000#32 - min PropStep.hi (max PropStep.lo
      (a (ix2 r k) * broadcastTo S256x2048 p broadcasts_S1x2048_S256x2048 (ix2 r k)))) = _
  rw [broadcastTo_1b_ab_apply, Ideal.ofBits_zero_f32, zero_sub]
  rfl

/-- The payload of a column store at row r, over any adjacency block a, label row p and label column q:
    a · (1 − exp of the sum of the row's 2048 terms) + b · the label. -/
theorem pay_apply (a : Vec Ideal S256x2048 .f32) (p : Vec Ideal S1x2048 .f32) (q : Vec Ideal S256x1 .f32) (r : Fin 256) :
    k0_pay2 a p q (ix2 r (0 : Fin 1))
      = PropStep.wa * (PropStep.one - Ideal.exp (∑ k : Fin 2048, PropStep.term (a (ix2 r k)) (p (ix2 (0 : Fin 1) k))))
        + PropStep.wb * q (ix2 r (0 : Fin 1)) := by
  unfold k0_pay2
  simp only [addf_apply, mulf_apply, subf_apply, broadcast_apply, exp_apply, shapeCast_self]
  rw [shapeCast_a_a1_apply, rowsum_apply]
  refine congrArg₂ (· + ·) (congrArg (PropStep.wa * ·) (congrArg (PropStep.one - ·) (congrArg Ideal.exp
    (Finset.sum_congr rfl fun k _ => ?_)))) rfl
  exact term_apply a p r k

/-! ## The three loads of a column's payload, at an index -/

theorem zero_offsets : (![0, 0] : Fin 2 → Nat) = fun _ => 0 := funext fun a => by fin_cases a <;> rfl

/-- Row c of the transposed labels, loaded as a 1 × 2048 block, reads at (0, k) the matrix at (c, k). -/
theorem ld_row_apply (x1 : Vec Ideal S8x2048 .f32) (c : Fin 8) (inb : ∀ a, (![c.val, 0] : Fin 2 → Nat) a + S1x2048.size a ≤ S8x2048.size a)
    (k : Fin 2048) : View.ld x1 (Rect.unit (s := S8x2048) ![c.val, 0] S1x2048.size inb) (ix2 (0 : Fin 1) k) = x1 (ix2 c k) := by
  show x1 _ = x1 _
  refine congrArg x1 (funext fun a => Fin.ext ?_)
  match a with
  | ⟨0, _⟩ => show c.val + 1 * 0 = c.val; omega
  | ⟨1, _⟩ => show 0 + 1 * k.val = k.val; omega

/-- Column c of a 256 × 8 block, loaded as a 256 × 1 block, reads at (r, 0) the block at (r, c). -/
theorem ld_col_apply (x2 : Vec Ideal S256x8 .f32) (c : Fin 8) (inb : ∀ a, (![0, c.val] : Fin 2 → Nat) a + S256x1.size a ≤ S256x8.size a)
    (r : Fin 256) : View.ld x2 (Rect.unit (s := S256x8) ![0, c.val] S256x1.size inb) (ix2 r (0 : Fin 1)) = x2 (ix2 r c) := by
  show x2 _ = x2 _
  refine congrArg x2 (funext fun a => Fin.ext ?_)
  match a with
  | ⟨0, _⟩ => show 0 + 1 * r.val = r.val; omega
  | ⟨1, _⟩ => show c.val + 1 * 0 = c.val; omega

/-- A column's payload on its three loads — the whole adjacency block, row c of the transposed labels, column c of the
    label block — is the step at (r, c) of the three blocks. -/
theorem colpay_apply (x0 : Vec Ideal S256x2048 .f32) (x1 : Vec Ideal S8x2048 .f32) (x2 : Vec Ideal S256x8 .f32) (c : Fin 8)
    (inbR : ∀ a, (![c.val, 0] : Fin 2 → Nat) a + S1x2048.size a ≤ S8x2048.size a)
    (inbC : ∀ a, (![0, c.val] : Fin 2 → Nat) a + S256x1.size a ≤ S256x8.size a) (r : Fin 256) :
    k0_pay2 (View.ld x0 rA0) (View.ld x1 (Rect.unit (s := S8x2048) ![c.val, 0] S1x2048.size inbR))
        (View.ld x2 (Rect.unit (s := S256x8) ![0, c.val] S256x1.size inbC)) (ix2 r (0 : Fin 1))
      = PropStep.wa * (PropStep.one - Ideal.exp (∑ k : Fin 2048, PropStep.term (x0 (ix2 r k)) (x1 (ix2 c k))))
        + PropStep.wb * x2 (ix2 r c) := by
  refine (pay_apply _ _ _ r).trans ?_
  rw [View.ld_unit_zero zero_offsets, ld_col_apply x2 c inbC r]
  refine congrArg (fun s => PropStep.wa * (PropStep.one - Ideal.exp s) + PropStep.wb * x2 (ix2 r c))
    (Finset.sum_congr rfl fun k _ => ?_)
  rw [ld_row_apply x1 c inbR k]

/-! ## The eight columns: one payload, cut in different places

Column 0's payload is one term from the loads to the stored value. The others are the same sequence of operations with
a cut after the sum, after 1 − exp, after the product, or after a · (1 − exp); composed, each is that one term. -/

variable (x0 : Vec Ideal S256x2048 .f32) (x1 : Vec Ideal S8x2048 .f32) (x2 : Vec Ideal S256x8 .f32)

theorem col0_1_eq : col0_1 x0 x1 x2 = k0_pay2 (View.ld x0 rA0) (View.ld x1 rr0_1) (View.ld x2 rc0_1) := rfl
theorem col0_2_eq : col0_2 x0 x1 x2 = k0_pay2 (View.ld x0 rA0) (View.ld x1 rr0_2) (View.ld x2 rc0_2) := rfl
theorem col0_3_eq : col0_3 x0 x1 x2 = k0_pay2 (View.ld x0 rA0) (View.ld x1 rr0_3) (View.ld x2 rc0_3) := rfl
theorem col0_4_eq : col0_4 x0 x1 x2 = k0_pay2 (View.ld x0 rA0) (View.ld x1 rr0_4) (View.ld x2 rc0_4) := rfl
theorem col0_5_eq : col0_5 x0 x1 x2 = k0_pay2 (View.ld x0 rA0) (View.ld x1 rr0_5) (View.ld x2 rc0_5) := rfl
theorem col0_6_eq : col0_6 x0 x1 x2 = k0_pay2 (View.ld x0 rA0) (View.ld x1 rr0_6) (View.ld x2 rc0_6) := rfl
theorem col0_7_eq : col0_7 x0 x1 x2 = k0_pay2 (View.ld x0 rA0) (View.ld x1 rr0_7) (View.ld x2 rc0_7) := rfl

/-! ## Each column of the output block at a row -/

theorem col0_0_apply (r : Fin 256) : col0_0 x0 x1 x2 (ix2 r (0 : Fin 1))
    = PropStep.wa * (PropStep.one - Ideal.exp (∑ k : Fin 2048, PropStep.term (x0 (ix2 r k)) (x1 (ix2 (0 : Fin 8) k))))
      + PropStep.wb * x2 (ix2 r (0 : Fin 8)) :=
  colpay_apply x0 x1 x2 (0 : Fin 8) inb_S8x2048_S1x2048_0_0 inb_S256x8_S256x1_0_0 r
theorem col0_1_apply (r : Fin 256) : col0_1 x0 x1 x2 (ix2 r (0 : Fin 1))
    = PropStep.wa * (PropStep.one - Ideal.exp (∑ k : Fin 2048, PropStep.term (x0 (ix2 r k)) (x1 (ix2 (1 : Fin 8) k))))
      + PropStep.wb * x2 (ix2 r (1 : Fin 8)) :=
  (congrFun (col0_1_eq x0 x1 x2) (ix2 r (0 : Fin 1))).trans
    (colpay_apply x0 x1 x2 (1 : Fin 8) inb_S8x2048_S1x2048_1_0 inb_S256x8_S256x1_0_1 r)
theorem col0_2_apply (r : Fin 256) : col0_2 x0 x1 x2 (ix2 r (0 : Fin 1))
    = PropStep.wa * (PropStep.one - Ideal.exp (∑ k : Fin 2048, PropStep.term (x0 (ix2 r k)) (x1 (ix2 (2 : Fin 8) k))))
      + PropStep.wb * x2 (ix2 r (2 : Fin 8)) :=
  (congrFun (col0_2_eq x0 x1 x2) (ix2 r (0 : Fin 1))).trans
    (colpay_apply x0 x1 x2 (2 : Fin 8) inb_S8x2048_S1x2048_2_0 inb_S256x8_S256x1_0_2 r)
theorem col0_3_apply (r : Fin 256) : col0_3 x0 x1 x2 (ix2 r (0 : Fin 1))
    = PropStep.wa * (PropStep.one - Ideal.exp (∑ k : Fin 2048, PropStep.term (x0 (ix2 r k)) (x1 (ix2 (3 : Fin 8) k))))
      + PropStep.wb * x2 (ix2 r (3 : Fin 8)) :=
  (congrFun (col0_3_eq x0 x1 x2) (ix2 r (0 : Fin 1))).trans
    (colpay_apply x0 x1 x2 (3 : Fin 8) inb_S8x2048_S1x2048_3_0 inb_S256x8_S256x1_0_3 r)
theorem col0_4_apply (r : Fin 256) : col0_4 x0 x1 x2 (ix2 r (0 : Fin 1))
    = PropStep.wa * (PropStep.one - Ideal.exp (∑ k : Fin 2048, PropStep.term (x0 (ix2 r k)) (x1 (ix2 (4 : Fin 8) k))))
      + PropStep.wb * x2 (ix2 r (4 : Fin 8)) :=
  (congrFun (col0_4_eq x0 x1 x2) (ix2 r (0 : Fin 1))).trans
    (colpay_apply x0 x1 x2 (4 : Fin 8) inb_S8x2048_S1x2048_4_0 inb_S256x8_S256x1_0_4 r)
theorem col0_5_apply (r : Fin 256) : col0_5 x0 x1 x2 (ix2 r (0 : Fin 1))
    = PropStep.wa * (PropStep.one - Ideal.exp (∑ k : Fin 2048, PropStep.term (x0 (ix2 r k)) (x1 (ix2 (5 : Fin 8) k))))
      + PropStep.wb * x2 (ix2 r (5 : Fin 8)) :=
  (congrFun (col0_5_eq x0 x1 x2) (ix2 r (0 : Fin 1))).trans
    (colpay_apply x0 x1 x2 (5 : Fin 8) inb_S8x2048_S1x2048_5_0 inb_S256x8_S256x1_0_5 r)
theorem col0_6_apply (r : Fin 256) : col0_6 x0 x1 x2 (ix2 r (0 : Fin 1))
    = PropStep.wa * (PropStep.one - Ideal.exp (∑ k : Fin 2048, PropStep.term (x0 (ix2 r k)) (x1 (ix2 (6 : Fin 8) k))))
      + PropStep.wb * x2 (ix2 r (6 : Fin 8)) :=
  (congrFun (col0_6_eq x0 x1 x2) (ix2 r (0 : Fin 1))).trans
    (colpay_apply x0 x1 x2 (6 : Fin 8) inb_S8x2048_S1x2048_6_0 inb_S256x8_S256x1_0_6 r)
theorem col0_7_apply (r : Fin 256) : col0_7 x0 x1 x2 (ix2 r (0 : Fin 1))
    = PropStep.wa * (PropStep.one - Ideal.exp (∑ k : Fin 2048, PropStep.term (x0 (ix2 r k)) (x1 (ix2 (7 : Fin 8) k))))
      + PropStep.wb * x2 (ix2 r (7 : Fin 8)) :=
  (congrFun (col0_7_eq x0 x1 x2) (ix2 r (0 : Fin 1))).trans
    (colpay_apply x0 x1 x2 (7 : Fin 8) inb_S8x2048_S1x2048_7_0 inb_S256x8_S256x1_0_7 r)

/-! ## A column store's piece against the block's function -/

/-- A column store's piece agrees with the step on its column: the piece's rectangle places (r, 0) at (r, c). -/
theorem piece_ok (c : Fin 8) (inbC : ∀ a, (![0, c.val] : Fin 2 → Nat) a + S256x1.size a ≤ S256x8.size a)
    (col : FVec Ideal S256x1 .f32)
    (hcol : ∀ r : Fin 256, col (ix2 r (0 : Fin 1))
      = PropStep.wa * (PropStep.one - Ideal.exp (∑ k : Fin 2048, PropStep.term (x0 (ix2 r k)) (x1 (ix2 c k)))) + PropStep.wb * x2 (ix2 r c))
    (x : (Rect.unit (s := S256x8) ![0, c.val] S256x1.size inbC).shape.Idx) :
    col x = (fun j : S256x8.Idx => PropStep.wa * (PropStep.one - Ideal.exp (∑ k : Fin 2048, PropStep.term (x0 (ix2 (j 0) k)) (x1 (ix2 (j 1) k))))
        + PropStep.wb * x2 (ix2 (j 0) (j 1))) ((Rect.unit (s := S256x8) ![0, c.val] S256x1.size inbC).emb x) := by
  obtain ⟨r, u, rfl⟩ : ∃ (r : Fin 256) (u : Fin 1), x = ix2 r u := ⟨x 0, x 1, eq_ix2 x⟩
  obtain rfl : u = 0 := Subsingleton.elim _ _
  have e : (Rect.unit (s := S256x8) ![0, c.val] S256x1.size inbC).emb (ix2 r (0 : Fin 1)) = ix2 r c :=
    funext fun a => Fin.ext (by
      match a with
      | ⟨0, _⟩ => show 0 + 1 * r.val = r.val; omega
      | ⟨1, _⟩ => show c.val + 1 * 0 = c.val; omega)
  rw [e]
  exact hcol r

end Pay0

/-! ## The output block at an index -/

/-- THE OUTPUT BLOCK AT (r, c): the eight column stores tile the block, and each is the step on its column. -/
theorem out0_3_apply (x0 : Vec Ideal S256x2048 .f32) (x1 : Vec Ideal S8x2048 .f32) (x2 : Vec Ideal S256x8 .f32) (r : Fin 256) (c : Fin 8) :
    out0_3 x0 x1 x2 (ix2 r c) = PropStep.wa * (PropStep.one - Ideal.exp (∑ k : Fin 2048, PropStep.term (x0 (ix2 r k)) (x1 (ix2 c k)))) + PropStep.wb * x2 (ix2 r c) := by
  unfold out0_3
  refine (View.canon_apply_of_pieces (fun j : S256x8.Idx => PropStep.wa * (PropStep.one - Ideal.exp (∑ k : Fin 2048, PropStep.term (x0 (ix2 (j 0) k)) (x1 (ix2 (j 1) k))))
        + PropStep.wb * x2 (ix2 (j 0) (j 1))) _ ?_ (ix2 r c) (cover0_3 _ _ _ _ _ _ _ _ (ix2 r c))).trans rfl
  intro p hp
  simp only [List.mem_cons, List.not_mem_nil, or_false] at hp
  rcases hp with rfl | rfl | rfl | rfl | rfl | rfl | rfl | rfl
  · exact Pay0.piece_ok x0 x1 x2 (7 : Fin 8) inb_S256x8_S256x1_0_7 _ (Pay0.col0_7_apply x0 x1 x2)
  · exact Pay0.piece_ok x0 x1 x2 (6 : Fin 8) inb_S256x8_S256x1_0_6 _ (Pay0.col0_6_apply x0 x1 x2)
  · exact Pay0.piece_ok x0 x1 x2 (5 : Fin 8) inb_S256x8_S256x1_0_5 _ (Pay0.col0_5_apply x0 x1 x2)
  · exact Pay0.piece_ok x0 x1 x2 (4 : Fin 8) inb_S256x8_S256x1_0_4 _ (Pay0.col0_4_apply x0 x1 x2)
  · exact Pay0.piece_ok x0 x1 x2 (3 : Fin 8) inb_S256x8_S256x1_0_3 _ (Pay0.col0_3_apply x0 x1 x2)
  · exact Pay0.piece_ok x0 x1 x2 (2 : Fin 8) inb_S256x8_S256x1_0_2 _ (Pay0.col0_2_apply x0 x1 x2)
  · exact Pay0.piece_ok x0 x1 x2 (1 : Fin 8) inb_S256x8_S256x1_0_1 _ (Pay0.col0_1_apply x0 x1 x2)
  · exact Pay0.piece_ok x0 x1 x2 (0 : Fin 8) inb_S256x8_S256x1_0_0 _ (Pay0.col0_0_apply x0 x1 x2)

end Cert.KernelIdeal.HandValue

end
-- ==== Proof.KI_Value0.lean ====
import proofs.«124206_j79594333929560_1_alg».proof.Proof.KI_Body0
import proofs.«124206_j79594333929560_1_alg».proof.Proof.KI_Pay0
import proofs.«124206_j79594333929560_1_alg».proof.Proof.Spec
import Idealize.ShloMosaic.Lib.Pipeline.Value
import Idealize.ShloMosaic.Lib.ValueIdx

/-!
# Propagation step 0: the output array after the eight grid points

Grid point t holds adjacency rows 256·t … 256·t + 255, the whole transposed label matrix, and label rows
256·t … 256·t + 255, and writes back output rows 256·t … 256·t + 255. Entry (r, c) of its output block is the
specification's step at node 256·t + r, class c — the adjacency block's row r is the array's row 256·t + r, the
transposed matrix at (c, k) is the label matrix at (k, c), the label block at (r, c) is the array at (256·t + r, c).
The eight blocks tile the 2048 rows (row i lies in block i / 256), so the output array ends holding the step of the
adjacency matrix and the label matrix, whole.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- One entry of the output block, given where the three input blocks sit in their arrays. -/
theorem block_value0 (x0 : Vec Ideal S256x2048 .f32) (x1 : Vec Ideal S8x2048 .f32) (x2 : Vec Ideal S256x8 .f32)
    (A : PropStep.SNN.Idx → EReal) (P : PropStep.SNC.Idx → EReal) (r : Fin 256) (cc : Fin 8) (R : Fin 2048)
    (h0 : ∀ k : Fin 2048, x0 (ix2 r k) = A (ix2 R k)) (h1 : ∀ k : Fin 2048, x1 (ix2 cc k) = P (ix2 k cc))
    (h2 : x2 (ix2 r cc) = P (ix2 R cc)) :
    out0_3 x0 x1 x2 (ix2 r cc) = PropStep.step A P (ix2 R cc) := by
  rw [out0_3_apply, PropStep.step_apply]
  unfold PropStep.stepAt
  rw [h2]
  simp only [h0, h1]

/-- The printed index maps, decided once over the grid: the adjacency and label blocks move with the output block
    along the rows, the transposed matrix stays. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 7 :=
  (by decide +kernel : ∀ t : Fin grid0.N, _)

/-- Every row block is some point's. -/
theorem idx_onto0 : ∀ q : Fin 8, ∃ t : Fin cfg0.N, win0_3.index t = ![q.val, 0] :=
  (by decide +kernel : ∀ q : Fin 8, ∃ t : Fin grid0.N, win0_3.index t = ![q.val, 0])

variable (V : (c : Dev nD) → (b : Ref sig .tc) → Buf (Elt Ideal) ((c : Thread nD τ).loc b)) (c : Dev nD)

/-- What point t writes back is block t of the step of the two arrays. -/
theorem flushed0_eq (hT : ∀ (k : Fin 2048) (cc : Fin 8), V c main_v20 (ix2 cc k) = V c main_v19 (ix2 k cc)) (t : Fin cfg0.N) :
    (dat0 V c).flushed 3 t = ((cfg0.win 3).blk t).view.read (Elt Ideal) (PropStep.step (V c main_arg0) (V c main_v19)) := by
  show (cfg0.win 3).cut (grid0.coords t) ((dat0 V c).after 3 t) = _
  rw [after0_3]
  obtain ⟨e0, e1, e2, e3, e4, e5, e6, e7⟩ := idx_facts0 t
  funext j
  have hj0 : (j 0).val < 256 := (j 0).isLt
  have hj1 : (j 1).val < 8 := (j 1).isLt
  have ej : j = ix2 (j 0) (j 1) := funext fun a => match a with | ⟨0, _⟩ => rfl | ⟨1, _⟩ => rfl
  show out0_3 (iblk0 V c 0 t) (iblk0 V c 1 t) (iblk0 V c 2 t) j
    = PropStep.step (V c main_arg0) (V c main_v19) (((cfg0.win 3).blk t).view.emb j)
  rw [ej]
  refine (block_value0 (iblk0 V c 0 t) (iblk0 V c 1 t) (iblk0 V c 2 t) (V c main_arg0) (V c main_v19) (j 0) (j 1)
    ⟨win0_3.index t (0 : Fin 2) * 256 + (j 0).val, by omega⟩ (fun k => ?_) (fun k => ?_) ?_).trans ?_
  · show V c main_arg0 (((cfg0.win 0).blk t).view.emb (ix2 (j 0) k)) = V c main_arg0 (ix2 _ k)
    refine congrArg (V c main_arg0) ?_
    funext a; apply Fin.ext
    match a with
    | ⟨0, _⟩ => show win0_0.index t (0 : Fin 2) * 256 + 1 * (j 0).val = win0_3.index t (0 : Fin 2) * 256 + (j 0).val; omega
    | ⟨1, _⟩ => show win0_0.index t (1 : Fin 2) * 2048 + 1 * k.val = k.val; omega
  · show V c main_v20 (((cfg0.win 1).blk t).view.emb (ix2 (j 1) k)) = V c main_v19 (ix2 k (j 1))
    refine Eq.trans (congrArg (V c main_v20) ?_) (hT k (j 1))
    funext a; apply Fin.ext
    match a with
    | ⟨0, _⟩ => show win0_1.index t (0 : Fin 2) * 8 + 1 * (j 1).val = (j 1).val; omega
    | ⟨1, _⟩ => show win0_1.index t (1 : Fin 2) * 2048 + 1 * k.val = k.val; omega
  · show V c main_v19 (((cfg0.win 2).blk t).view.emb (ix2 (j 0) (j 1))) = V c main_v19 (ix2 _ (j 1))
    refine congrArg (V c main_v19) ?_
    funext a; apply Fin.ext
    match a with
    | ⟨0, _⟩ => show win0_2.index t (0 : Fin 2) * 256 + 1 * (j 0).val = win0_3.index t (0 : Fin 2) * 256 + (j 0).val; omega
    | ⟨1, _⟩ => show win0_2.index t (1 : Fin 2) * 8 + 1 * (j 1).val = (j 1).val; omega
  · refine congrArg (PropStep.step (V c main_arg0) (V c main_v19)) ?_
    funext a; apply Fin.ext
    match a with
    | ⟨0, _⟩ => show win0_3.index t (0 : Fin 2) * 256 + (j 0).val = win0_3.index t (0 : Fin 2) * 256 + 1 * (j 0).val; omega
    | ⟨1, _⟩ => show (j 1).val = win0_3.index t (1 : Fin 2) * 8 + 1 * (j 1).val; omega

/-- An index of the output array is in point t's block iff each coordinate is in the block's range on its axis. -/
theorem mem_blk0 (t : Fin cfg0.N) (i : S2048x8.Idx) :
    i ∈ ((cfg0.win 3).blk t).view.set ↔ ∀ a : Fin 2, win0_3.index t a * S256x8.size a ≤ (i a).val ∧ (i a).val < win0_3.index t a * S256x8.size a + S256x8.size a := by
  show i ∈ ((View.whole main_v21).slice (win0_3.rect t)).set ↔ _
  rw [View.set_slice_whole, Rect.mem_set_unit]
  exact Iff.rfl

/-- Every index of the output array lies in some point's block: row i in block i / 256. -/
theorem cover0 (i : S2048x8.Idx) : ∃ t : Fin cfg0.N, (cfg0.win 3).flush t = true ∧ i ∈ ((cfg0.win 3).blk t).view.set := by
  have hi0 : (i 0).val < 2048 := (i 0).isLt
  have hi1 : (i 1).val < 8 := (i 1).isLt
  obtain ⟨t, ht⟩ := idx_onto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 8 ≤ (i 1).val ∧ (i 1).val < win0_3.index t (1 : Fin 2) * 8 + 8; omega

/-- The step's output array after the region: the specification's step of the adjacency matrix and the label matrix,
    given that the region's second operand is the label matrix transposed. -/
theorem region0_value (hT : ∀ (k : Fin 2048) (cc : Fin 8), V c main_v20 (ix2 cc k) = V c main_v19 (ix2 k cc)) :
    (dat0 V c).arrAt 3 cfg0.N = PropStep.step (V c main_arg0) (V c main_v19) :=
  (dat0 V c).arrAt_eq_of_cover 3 (PropStep.step (V c main_arg0) (V c main_v19)) (fun t _ => flushed0_eq V c hT t) cover0

end Cert.KernelIdeal.HandValue

end
-- ==== Proof.KI_Pay1.lean ====
import proofs.«124206_j79594333929560_1_alg».proof.Proof.KI_Body1
import proofs.«124206_j79594333929560_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Propagation step 1: the output block of one grid point, entry by entry, on the extended reals

At a grid point the body holds a 256 × 2048 block x0 of adjacency rows, the whole 8 × 2048 transposed label matrix x1
and the 256 × 8 block x2 of the label matrix at the same rows. Read on the extended reals, where every operation is
exact, the block it leaves is at row r and class c

  a · (1 − exp (∑ₖ log1p (−clip (x0 r k · x1 c k)))) + b · x2 r c,

the sum over all 2048 neighbours k. The eight column stores compute this one expression — they differ only in which
row of x1 and which column of x2 they load —, so it is read once, over an arbitrary row and column load, and each store
is an instance; the eight columns tile the block.

The steps that are not entry-by-entry: the row of labels broadcast over the 256 adjacency rows reads its one row; zero
minus t is −t (the zero word is the real 0); the add-reduction along the neighbour axis from the zero word is the sum
over the 2048 neighbours; the reduced vector recast as a 256 × 1 column reads the vector at the row.
-/

set_option maxRecDepth 16384

noncomputable section

namespace Cert.KernelIdeal.HandValue

open Cert.KernelIdeal Cert.KernelIdeal.Gen Cert.KernelIdeal.Hand
open Idealize.ShloMosaic Idealize.ShloMosaic.ValueIdx

namespace Pay1

/-! ## Layout and reduction steps read at an index -/

/-- A length-a vector recast as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The exponential of a vector, at an index, is the extended reals' exponential of the entry. -/
theorem exp_apply {s : Shape} {φ : FTy} (v : FVec Ideal s φ) (i : s.Idx) : exp v i = Ideal.exp (v i) := rfl

/-- The row sum: the add-reduction of a 256 × 2048 block along its second axis, from the zero word, is at row r the
    sum of the row's 2048 entries. -/
theorem rowsum_apply (v : FVec Ideal S256x2048 .f32) (hφ : FKind.Formats .f32) (hacc : (0x00000000#32 : BitVec 32) = 0x00000000#32) (r : Fin 256) :
    multiReduction (F := Ideal) .add [1] S256 v 0x00000000#32 reduces_S256x2048_S256 hφ hacc (ix1 r) = ∑ k : Fin 2048, v (ix2 r k) :=
  (Ideal.multiReduction_add_single v 0x00000000#32 reduces_S256x2048_S256 hφ hacc (ix1 r)).trans
    (Finset.sum_congr rfl fun k _ => congrArg v (funext fun a => by match a with | ⟨0, _⟩ => rfl | ⟨1, _⟩ => rfl))

/-! ## One column's payload at a row -/

/-- One neighbour's term: the adjacency entry times the label row's entry (the row broadcast over the block's rows),
    clipped between the two bounds, subtracted from zero, through log1p. -/
theorem term_apply (a : FVec Ideal S256x2048 .f32) (p : FVec Ideal S1x2048 .f32) (r : Fin 256) (k : Fin 2048) :
    log1p (subf (broadcast S256x2048 (Scalar.ofBits .f32 0x00000000#32))
      (minimumf (broadcast S256x2048 (Scalar.ofBits .f32 0x3F7FFFEF#32))
        (maximumf (broadcast S256x2048 (Scalar.ofBits .f32 0x00000000#32))
          (mulf a (broadcastTo S256x2048 p broadcasts_S1x2048_S256x2048))))) (ix2 r k)
      = PropStep.term (a (ix2 r k)) (p (ix2 (0 : Fin 1) k)) := by
  show Ideal.log1p (Ideal.ofBits .f32 0x00000000#32 - min PropStep.hi (max PropStep.lo
      (a (ix2 r k) * broadcastTo S256x2048 p broadcasts_S1x2048_S256x2048 (ix2 r k)))) = _
  rw [broadcastTo_1b_ab_apply, Ideal.ofBits_zero_f32, zero_sub]
  rfl

/-- The payload of a column store at row r, over any adjacency block a, label row p and label column q:
    a · (1 − exp of the sum of the row's 2048 terms) + b · the label. -/
theorem pay_apply (a : Vec Ideal S256x2048 .f32) (p : Vec Ideal S1x2048 .f32) (q : Vec Ideal S256x1 .f32) (r : Fin 256) :
    k1_pay2 a p q (ix2 r (0 : Fin 1))
      = PropStep.wa * (PropStep.one - Ideal.exp (∑ k : Fin 2048, PropStep.term (a (ix2 r k)) (p (ix2 (0 : Fin 1) k))))
        + PropStep.wb * q (ix2 r (0 : Fin 1)) := by
  unfold k1_pay2
  simp only [addf_apply, mulf_apply, subf_apply, broadcast_apply, exp_apply, shapeCast_self]
  rw [shapeCast_a_a1_apply, rowsum_apply]
  refine congrArg₂ (· + ·) (congrArg (PropStep.wa * ·) (congrArg (PropStep.one - ·) (congrArg Ideal.exp
    (Finset.sum_congr rfl fun k _ => ?_)))) rfl
  exact term_apply a p r k

/-! ## The three loads of a column's payload, at an index -/

theorem zero_offsets : (![0, 0] : Fin 2 → Nat) = fun _ => 0 := funext fun a => by fin_cases a <;> rfl

/-- Row c of the transposed labels, loaded as a 1 × 2048 block, reads at (0, k) the matrix at (c, k). -/
theorem ld_row_apply (x1 : Vec Ideal S8x2048 .f32) (c : Fin 8) (inb : ∀ a, (![c.val, 0] : Fin 2 → Nat) a + S1x2048.size a ≤ S8x2048.size a)
    (k : Fin 2048) : View.ld x1 (Rect.unit (s := S8x2048) ![c.val, 0] S1x2048.size inb) (ix2 (0 : Fin 1) k) = x1 (ix2 c k) := by
  show x1 _ = x1 _
  refine congrArg x1 (funext fun a => Fin.ext ?_)
  match a with
  | ⟨0, _⟩ => show c.val + 1 * 0 = c.val; omega
  | ⟨1, _⟩ => show 0 + 1 * k.val = k.val; omega

/-- Column c of a 256 × 8 block, loaded as a 256 × 1 block, reads at (r, 0) the block at (r, c). -/
theorem ld_col_apply (x2 : Vec Ideal S256x8 .f32) (c : Fin 8) (inb : ∀ a, (![0, c.val] : Fin 2 → Nat) a + S256x1.size a ≤ S256x8.size a)
    (r : Fin 256) : View.ld x2 (Rect.unit (s := S256x8) ![0, c.val] S256x1.size inb) (ix2 r (0 : Fin 1)) = x2 (ix2 r c) := by
  show x2 _ = x2 _
  refine congrArg x2 (funext fun a => Fin.ext ?_)
  match a with
  | ⟨0, _⟩ => show 0 + 1 * r.val = r.val; omega
  | ⟨1, _⟩ => show c.val + 1 * 0 = c.val; omega

/-- A column's payload on its three loads — the whole adjacency block, row c of the transposed labels, column c of the
    label block — is the step at (r, c) of the three blocks. -/
theorem colpay_apply (x0 : Vec Ideal S256x2048 .f32) (x1 : Vec Ideal S8x2048 .f32) (x2 : Vec Ideal S256x8 .f32) (c : Fin 8)
    (inbR : ∀ a, (![c.val, 0] : Fin 2 → Nat) a + S1x2048.size a ≤ S8x2048.size a)
    (inbC : ∀ a, (![0, c.val] : Fin 2 → Nat) a + S256x1.size a ≤ S256x8.size a) (r : Fin 256) :
    k1_pay2 (View.ld x0 rA1) (View.ld x1 (Rect.unit (s := S8x2048) ![c.val, 0] S1x2048.size inbR))
        (View.ld x2 (Rect.unit (s := S256x8) ![0, c.val] S256x1.size inbC)) (ix2 r (0 : Fin 1))
      = PropStep.wa * (PropStep.one - Ideal.exp (∑ k : Fin 2048, PropStep.term (x0 (ix2 r k)) (x1 (ix2 c k))))
        + PropStep.wb * x2 (ix2 r c) := by
  refine (pay_apply _ _ _ r).trans ?_
  rw [View.ld_unit_zero zero_offsets, ld_col_apply x2 c inbC r]
  refine congrArg (fun s => PropStep.wa * (PropStep.one - Ideal.exp s) + PropStep.wb * x2 (ix2 r c))
    (Finset.sum_congr rfl fun k _ => ?_)
  rw [ld_row_apply x1 c inbR k]

/-! ## The eight columns: one payload, cut in different places

Column 0's payload is one term from the loads to the stored value. The others are the same sequence of operations with
a cut after the sum, after 1 − exp, after the product, or after a · (1 − exp); composed, each is that one term. -/

variable (x0 : Vec Ideal S256x2048 .f32) (x1 : Vec Ideal S8x2048 .f32) (x2 : Vec Ideal S256x8 .f32)

theorem col1_1_eq : col1_1 x0 x1 x2 = k1_pay2 (View.ld x0 rA1) (View.ld x1 rr1_1) (View.ld x2 rc1_1) := rfl
theorem col1_2_eq : col1_2 x0 x1 x2 = k1_pay2 (View.ld x0 rA1) (View.ld x1 rr1_2) (View.ld x2 rc1_2) := rfl
theorem col1_3_eq : col1_3 x0 x1 x2 = k1_pay2 (View.ld x0 rA1) (View.ld x1 rr1_3) (View.ld x2 rc1_3) := rfl
theorem col1_4_eq : col1_4 x0 x1 x2 = k1_pay2 (View.ld x0 rA1) (View.ld x1 rr1_4) (View.ld x2 rc1_4) := rfl
theorem col1_5_eq : col1_5 x0 x1 x2 = k1_pay2 (View.ld x0 rA1) (View.ld x1 rr1_5) (View.ld x2 rc1_5) := rfl
theorem col1_6_eq : col1_6 x0 x1 x2 = k1_pay2 (View.ld x0 rA1) (View.ld x1 rr1_6) (View.ld x2 rc1_6) := rfl
theorem col1_7_eq : col1_7 x0 x1 x2 = k1_pay2 (View.ld x0 rA1) (View.ld x1 rr1_7) (View.ld x2 rc1_7) := rfl

/-! ## Each column of the output block at a row -/

theorem col1_0_apply (r : Fin 256) : col1_0 x0 x1 x2 (ix2 r (0 : Fin 1))
    = PropStep.wa * (PropStep.one - Ideal.exp (∑ k : Fin 2048, PropStep.term (x0 (ix2 r k)) (x1 (ix2 (0 : Fin 8) k))))
      + PropStep.wb * x2 (ix2 r (0 : Fin 8)) :=
  colpay_apply x0 x1 x2 (0 : Fin 8) inb_S8x2048_S1x2048_0_0 inb_S256x8_S256x1_0_0 r
theorem col1_1_apply (r : Fin 256) : col1_1 x0 x1 x2 (ix2 r (0 : Fin 1))
    = PropStep.wa * (PropStep.one - Ideal.exp (∑ k : Fin 2048, PropStep.term (x0 (ix2 r k)) (x1 (ix2 (1 : Fin 8) k))))
      + PropStep.wb * x2 (ix2 r (1 : Fin 8)) :=
  (congrFun (col1_1_eq x0 x1 x2) (ix2 r (0 : Fin 1))).trans
    (colpay_apply x0 x1 x2 (1 : Fin 8) inb_S8x2048_S1x2048_1_0 inb_S256x8_S256x1_0_1 r)
theorem col1_2_apply (r : Fin 256) : col1_2 x0 x1 x2 (ix2 r (0 : Fin 1))
    = PropStep.wa * (PropStep.one - Ideal.exp (∑ k : Fin 2048, PropStep.term (x0 (ix2 r k)) (x1 (ix2 (2 : Fin 8) k))))
      + PropStep.wb * x2 (ix2 r (2 : Fin 8)) :=
  (congrFun (col1_2_eq x0 x1 x2) (ix2 r (0 : Fin 1))).trans
    (colpay_apply x0 x1 x2 (2 : Fin 8) inb_S8x2048_S1x2048_2_0 inb_S256x8_S256x1_0_2 r)
theorem col1_3_apply (r : Fin 256) : col1_3 x0 x1 x2 (ix2 r (0 : Fin 1))
    = PropStep.wa * (PropStep.one - Ideal.exp (∑ k : Fin 2048, PropStep.term (x0 (ix2 r k)) (x1 (ix2 (3 : Fin 8) k))))
      + PropStep.wb * x2 (ix2 r (3 : Fin 8)) :=
  (congrFun (col1_3_eq x0 x1 x2) (ix2 r (0 : Fin 1))).trans
    (colpay_apply x0 x1 x2 (3 : Fin 8) inb_S8x2048_S1x2048_3_0 inb_S256x8_S256x1_0_3 r)
theorem col1_4_apply (r : Fin 256) : col1_4 x0 x1 x2 (ix2 r (0 : Fin 1))
    = PropStep.wa * (PropStep.one - Ideal.exp (∑ k : Fin 2048, PropStep.term (x0 (ix2 r k)) (x1 (ix2 (4 : Fin 8) k))))
      + PropStep.wb * x2 (ix2 r (4 : Fin 8)) :=
  (congrFun (col1_4_eq x0 x1 x2) (ix2 r (0 : Fin 1))).trans
    (colpay_apply x0 x1 x2 (4 : Fin 8) inb_S8x2048_S1x2048_4_0 inb_S256x8_S256x1_0_4 r)
theorem col1_5_apply (r : Fin 256) : col1_5 x0 x1 x2 (ix2 r (0 : Fin 1))
    = PropStep.wa * (PropStep.one - Ideal.exp (∑ k : Fin 2048, PropStep.term (x0 (ix2 r k)) (x1 (ix2 (5 : Fin 8) k))))
      + PropStep.wb * x2 (ix2 r (5 : Fin 8)) :=
  (congrFun (col1_5_eq x0 x1 x2) (ix2 r (0 : Fin 1))).trans
    (colpay_apply x0 x1 x2 (5 : Fin 8) inb_S8x2048_S1x2048_5_0 inb_S256x8_S256x1_0_5 r)
theorem col1_6_apply (r : Fin 256) : col1_6 x0 x1 x2 (ix2 r (0 : Fin 1))
    = PropStep.wa * (PropStep.one - Ideal.exp (∑ k : Fin 2048, PropStep.term (x0 (ix2 r k)) (x1 (ix2 (6 : Fin 8) k))))
      + PropStep.wb * x2 (ix2 r (6 : Fin 8)) :=
  (congrFun (col1_6_eq x0 x1 x2) (ix2 r (0 : Fin 1))).trans
    (colpay_apply x0 x1 x2 (6 : Fin 8) inb_S8x2048_S1x2048_6_0 inb_S256x8_S256x1_0_6 r)
theorem col1_7_apply (r : Fin 256) : col1_7 x0 x1 x2 (ix2 r (0 : Fin 1))
    = PropStep.wa * (PropStep.one - Ideal.exp (∑ k : Fin 2048, PropStep.term (x0 (ix2 r k)) (x1 (ix2 (7 : Fin 8) k))))
      + PropStep.wb * x2 (ix2 r (7 : Fin 8)) :=
  (congrFun (col1_7_eq x0 x1 x2) (ix2 r (0 : Fin 1))).trans
    (colpay_apply x0 x1 x2 (7 : Fin 8) inb_S8x2048_S1x2048_7_0 inb_S256x8_S256x1_0_7 r)

/-! ## A column store's piece against the block's function -/

/-- A column store's piece agrees with the step on its column: the piece's rectangle places (r, 0) at (r, c). -/
theorem piece_ok (c : Fin 8) (inbC : ∀ a, (![0, c.val] : Fin 2 → Nat) a + S256x1.size a ≤ S256x8.size a)
    (col : FVec Ideal S256x1 .f32)
    (hcol : ∀ r : Fin 256, col (ix2 r (0 : Fin 1))
      = PropStep.wa * (PropStep.one - Ideal.exp (∑ k : Fin 2048, PropStep.term (x0 (ix2 r k)) (x1 (ix2 c k)))) + PropStep.wb * x2 (ix2 r c))
    (x : (Rect.unit (s := S256x8) ![0, c.val] S256x1.size inbC).shape.Idx) :
    col x = (fun j : S256x8.Idx => PropStep.wa * (PropStep.one - Ideal.exp (∑ k : Fin 2048, PropStep.term (x0 (ix2 (j 0) k)) (x1 (ix2 (j 1) k))))
        + PropStep.wb * x2 (ix2 (j 0) (j 1))) ((Rect.unit (s := S256x8) ![0, c.val] S256x1.size inbC).emb x) := by
  obtain ⟨r, u, rfl⟩ : ∃ (r : Fin 256) (u : Fin 1), x = ix2 r u := ⟨x 0, x 1, eq_ix2 x⟩
  obtain rfl : u = 0 := Subsingleton.elim _ _
  have e : (Rect.unit (s := S256x8) ![0, c.val] S256x1.size inbC).emb (ix2 r (0 : Fin 1)) = ix2 r c :=
    funext fun a => Fin.ext (by
      match a with
      | ⟨0, _⟩ => show 0 + 1 * r.val = r.val; omega
      | ⟨1, _⟩ => show c.val + 1 * 0 = c.val; omega)
  rw [e]
  exact hcol r

end Pay1

/-! ## The output block at an index -/

/-- THE OUTPUT BLOCK AT (r, c): the eight column stores tile the block, and each is the step on its column. -/
theorem out1_3_apply (x0 : Vec Ideal S256x2048 .f32) (x1 : Vec Ideal S8x2048 .f32) (x2 : Vec Ideal S256x8 .f32) (r : Fin 256) (c : Fin 8) :
    out1_3 x0 x1 x2 (ix2 r c) = PropStep.wa * (PropStep.one - Ideal.exp (∑ k : Fin 2048, PropStep.term (x0 (ix2 r k)) (x1 (ix2 c k)))) + PropStep.wb * x2 (ix2 r c) := by
  unfold out1_3
  refine (View.canon_apply_of_pieces (fun j : S256x8.Idx => PropStep.wa * (PropStep.one - Ideal.exp (∑ k : Fin 2048, PropStep.term (x0 (ix2 (j 0) k)) (x1 (ix2 (j 1) k))))
        + PropStep.wb * x2 (ix2 (j 0) (j 1))) _ ?_ (ix2 r c) (cover1_3 _ _ _ _ _ _ _ _ (ix2 r c))).trans rfl
  intro p hp
  simp only [List.mem_cons, List.not_mem_nil, or_false] at hp
  rcases hp with rfl | rfl | rfl | rfl | rfl | rfl | rfl | rfl
  · exact Pay1.piece_ok x0 x1 x2 (7 : Fin 8) inb_S256x8_S256x1_0_7 _ (Pay1.col1_7_apply x0 x1 x2)
  · exact Pay1.piece_ok x0 x1 x2 (6 : Fin 8) inb_S256x8_S256x1_0_6 _ (Pay1.col1_6_apply x0 x1 x2)
  · exact Pay1.piece_ok x0 x1 x2 (5 : Fin 8) inb_S256x8_S256x1_0_5 _ (Pay1.col1_5_apply x0 x1 x2)
  · exact Pay1.piece_ok x0 x1 x2 (4 : Fin 8) inb_S256x8_S256x1_0_4 _ (Pay1.col1_4_apply x0 x1 x2)
  · exact Pay1.piece_ok x0 x1 x2 (3 : Fin 8) inb_S256x8_S256x1_0_3 _ (Pay1.col1_3_apply x0 x1 x2)
  · exact Pay1.piece_ok x0 x1 x2 (2 : Fin 8) inb_S256x8_S256x1_0_2 _ (Pay1.col1_2_apply x0 x1 x2)
  · exact Pay1.piece_ok x0 x1 x2 (1 : Fin 8) inb_S256x8_S256x1_0_1 _ (Pay1.col1_1_apply x0 x1 x2)
  · exact Pay1.piece_ok x0 x1 x2 (0 : Fin 8) inb_S256x8_S256x1_0_0 _ (Pay1.col1_0_apply x0 x1 x2)

end Cert.KernelIdeal.HandValue

end
-- ==== Proof.KI_Value1.lean ====
import proofs.«124206_j79594333929560_1_alg».proof.Proof.KI_Body1
import proofs.«124206_j79594333929560_1_alg».proof.Proof.KI_Pay1
import proofs.«124206_j79594333929560_1_alg».proof.Proof.Spec
import Idealize.ShloMosaic.Lib.Pipeline.Value
import Idealize.ShloMosaic.Lib.ValueIdx

/-!
# Propagation step 1: the output array after the eight grid points

Grid point t holds adjacency rows 256·t … 256·t + 255, the whole transposed label matrix, and label rows
256·t … 256·t + 255, and writes back output rows 256·t … 256·t + 255. Entry (r, c) of its output block is the
specification's step at node 256·t + r, class c — the adjacency block's row r is the array's row 256·t + r, the
transposed matrix at (c, k) is the label matrix at (k, c), the label block at (r, c) is the array at (256·t + r, c).
The eight blocks tile the 2048 rows (row i lies in block i / 256), so the output array ends holding the step of the
adjacency matrix and the label matrix, whole.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- One entry of the output block, given where the three input blocks sit in their arrays. -/
theorem block_value1 (x0 : Vec Ideal S256x2048 .f32) (x1 : Vec Ideal S8x2048 .f32) (x2 : Vec Ideal S256x8 .f32)
    (A : PropStep.SNN.Idx → EReal) (P : PropStep.SNC.Idx → EReal) (r : Fin 256) (cc : Fin 8) (R : Fin 2048)
    (h0 : ∀ k : Fin 2048, x0 (ix2 r k) = A (ix2 R k)) (h1 : ∀ k : Fin 2048, x1 (ix2 cc k) = P (ix2 k cc))
    (h2 : x2 (ix2 r cc) = P (ix2 R cc)) :
    out1_3 x0 x1 x2 (ix2 r cc) = PropStep.step A P (ix2 R cc) := by
  rw [out1_3_apply, PropStep.step_apply]
  unfold PropStep.stepAt
  rw [h2]
  simp only [h0, h1]

/-- The printed index maps, decided once over the grid: the adjacency and label blocks move with the output block
    along the rows, the transposed matrix stays. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 7 :=
  (by decide +kernel : ∀ t : Fin grid1.N, _)

/-- Every row block is some point's. -/
theorem idx_onto1 : ∀ q : Fin 8, ∃ t : Fin cfg1.N, win1_3.index t = ![q.val, 0] :=
  (by decide +kernel : ∀ q : Fin 8, ∃ t : Fin grid1.N, win1_3.index t = ![q.val, 0])

variable (V : (c : Dev nD) → (b : Ref sig .tc) → Buf (Elt Ideal) ((c : Thread nD τ).loc b)) (c : Dev nD)

/-- What point t writes back is block t of the step of the two arrays. -/
theorem flushed1_eq (hT : ∀ (k : Fin 2048) (cc : Fin 8), V c main_v33 (ix2 cc k) = V c main_v21 (ix2 k cc)) (t : Fin cfg1.N) :
    (dat1 V c).flushed 3 t = ((cfg1.win 3).blk t).view.read (Elt Ideal) (PropStep.step (V c main_arg0) (V c main_v21)) := by
  show (cfg1.win 3).cut (grid1.coords t) ((dat1 V c).after 3 t) = _
  rw [after1_3]
  obtain ⟨e0, e1, e2, e3, e4, e5, e6, e7⟩ := idx_facts1 t
  funext j
  have hj0 : (j 0).val < 256 := (j 0).isLt
  have hj1 : (j 1).val < 8 := (j 1).isLt
  have ej : j = ix2 (j 0) (j 1) := funext fun a => match a with | ⟨0, _⟩ => rfl | ⟨1, _⟩ => rfl
  show out1_3 (iblk1 V c 0 t) (iblk1 V c 1 t) (iblk1 V c 2 t) j
    = PropStep.step (V c main_arg0) (V c main_v21) (((cfg1.win 3).blk t).view.emb j)
  rw [ej]
  refine (block_value1 (iblk1 V c 0 t) (iblk1 V c 1 t) (iblk1 V c 2 t) (V c main_arg0) (V c main_v21) (j 0) (j 1)
    ⟨win1_3.index t (0 : Fin 2) * 256 + (j 0).val, by omega⟩ (fun k => ?_) (fun k => ?_) ?_).trans ?_
  · show V c main_arg0 (((cfg1.win 0).blk t).view.emb (ix2 (j 0) k)) = V c main_arg0 (ix2 _ k)
    refine congrArg (V c main_arg0) ?_
    funext a; apply Fin.ext
    match a with
    | ⟨0, _⟩ => show win1_0.index t (0 : Fin 2) * 256 + 1 * (j 0).val = win1_3.index t (0 : Fin 2) * 256 + (j 0).val; omega
    | ⟨1, _⟩ => show win1_0.index t (1 : Fin 2) * 2048 + 1 * k.val = k.val; omega
  · show V c main_v33 (((cfg1.win 1).blk t).view.emb (ix2 (j 1) k)) = V c main_v21 (ix2 k (j 1))
    refine Eq.trans (congrArg (V c main_v33) ?_) (hT k (j 1))
    funext a; apply Fin.ext
    match a with
    | ⟨0, _⟩ => show win1_1.index t (0 : Fin 2) * 8 + 1 * (j 1).val = (j 1).val; omega
    | ⟨1, _⟩ => show win1_1.index t (1 : Fin 2) * 2048 + 1 * k.val = k.val; omega
  · show V c main_v21 (((cfg1.win 2).blk t).view.emb (ix2 (j 0) (j 1))) = V c main_v21 (ix2 _ (j 1))
    refine congrArg (V c main_v21) ?_
    funext a; apply Fin.ext
    match a with
    | ⟨0, _⟩ => show win1_2.index t (0 : Fin 2) * 256 + 1 * (j 0).val = win1_3.index t (0 : Fin 2) * 256 + (j 0).val; omega
    | ⟨1, _⟩ => show win1_2.index t (1 : Fin 2) * 8 + 1 * (j 1).val = (j 1).val; omega
  · refine congrArg (PropStep.step (V c main_arg0) (V c main_v21)) ?_
    funext a; apply Fin.ext
    match a with
    | ⟨0, _⟩ => show win1_3.index t (0 : Fin 2) * 256 + (j 0).val = win1_3.index t (0 : Fin 2) * 256 + 1 * (j 0).val; omega
    | ⟨1, _⟩ => show (j 1).val = win1_3.index t (1 : Fin 2) * 8 + 1 * (j 1).val; omega

/-- An index of the output array is in point t's block iff each coordinate is in the block's range on its axis. -/
theorem mem_blk1 (t : Fin cfg1.N) (i : S2048x8.Idx) :
    i ∈ ((cfg1.win 3).blk t).view.set ↔ ∀ a : Fin 2, win1_3.index t a * S256x8.size a ≤ (i a).val ∧ (i a).val < win1_3.index t a * S256x8.size a + S256x8.size a := by
  show i ∈ ((View.whole main_v34).slice (win1_3.rect t)).set ↔ _
  rw [View.set_slice_whole, Rect.mem_set_unit]
  exact Iff.rfl

/-- Every index of the output array lies in some point's block: row i in block i / 256. -/
theorem cover1 (i : S2048x8.Idx) : ∃ t : Fin cfg1.N, (cfg1.win 3).flush t = true ∧ i ∈ ((cfg1.win 3).blk t).view.set := by
  have hi0 : (i 0).val < 2048 := (i 0).isLt
  have hi1 : (i 1).val < 8 := (i 1).isLt
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 8 ≤ (i 1).val ∧ (i 1).val < win1_3.index t (1 : Fin 2) * 8 + 8; omega

/-- The step's output array after the region: the specification's step of the adjacency matrix and the label matrix,
    given that the region's second operand is the label matrix transposed. -/
theorem region1_value (hT : ∀ (k : Fin 2048) (cc : Fin 8), V c main_v33 (ix2 cc k) = V c main_v21 (ix2 k cc)) :
    (dat1 V c).arrAt 3 cfg1.N = PropStep.step (V c main_arg0) (V c main_v21) :=
  (dat1 V c).arrAt_eq_of_cover 3 (PropStep.step (V c main_arg0) (V c main_v21)) (fun t _ => flushed1_eq V c hT t) cover1

end Cert.KernelIdeal.HandValue

end
-- ==== Proof.KI_Pay2.lean ====
import proofs.«124206_j79594333929560_1_alg».proof.Proof.KI_Body2
import proofs.«124206_j79594333929560_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Propagation step 2: the output block of one grid point, entry by entry, on the extended reals

At a grid point the body holds a 256 × 2048 block x0 of adjacency rows, the whole 8 × 2048 transposed label matrix x1
and the 256 × 8 block x2 of the label matrix at the same rows. Read on the extended reals, where every operation is
exact, the block it leaves is at row r and class c

  a · (1 − exp (∑ₖ log1p (−clip (x0 r k · x1 c k)))) + b · x2 r c,

the sum over all 2048 neighbours k. The eight column stores compute this one expression — they differ only in which
row of x1 and which column of x2 they load —, so it is read once, over an arbitrary row and column load, and each store
is an instance; the eight columns tile the block.

The steps that are not entry-by-entry: the row of labels broadcast over the 256 adjacency rows reads its one row; zero
minus t is −t (the zero word is the real 0); the add-reduction along the neighbour axis from the zero word is the sum
over the 2048 neighbours; the reduced vector recast as a 256 × 1 column reads the vector at the row.
-/

set_option maxRecDepth 16384

noncomputable section

namespace Cert.KernelIdeal.HandValue

open Cert.KernelIdeal Cert.KernelIdeal.Gen Cert.KernelIdeal.Hand
open Idealize.ShloMosaic Idealize.ShloMosaic.ValueIdx

namespace Pay2

/-! ## Layout and reduction steps read at an index -/

/-- A length-a vector recast as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The exponential of a vector, at an index, is the extended reals' exponential of the entry. -/
theorem exp_apply {s : Shape} {φ : FTy} (v : FVec Ideal s φ) (i : s.Idx) : exp v i = Ideal.exp (v i) := rfl

/-- The row sum: the add-reduction of a 256 × 2048 block along its second axis, from the zero word, is at row r the
    sum of the row's 2048 entries. -/
theorem rowsum_apply (v : FVec Ideal S256x2048 .f32) (hφ : FKind.Formats .f32) (hacc : (0x00000000#32 : BitVec 32) = 0x00000000#32) (r : Fin 256) :
    multiReduction (F := Ideal) .add [1] S256 v 0x00000000#32 reduces_S256x2048_S256 hφ hacc (ix1 r) = ∑ k : Fin 2048, v (ix2 r k) :=
  (Ideal.multiReduction_add_single v 0x00000000#32 reduces_S256x2048_S256 hφ hacc (ix1 r)).trans
    (Finset.sum_congr rfl fun k _ => congrArg v (funext fun a => by match a with | ⟨0, _⟩ => rfl | ⟨1, _⟩ => rfl))

/-! ## One column's payload at a row -/

/-- One neighbour's term: the adjacency entry times the label row's entry (the row broadcast over the block's rows),
    clipped between the two bounds, subtracted from zero, through log1p. -/
theorem term_apply (a : FVec Ideal S256x2048 .f32) (p : FVec Ideal S1x2048 .f32) (r : Fin 256) (k : Fin 2048) :
    log1p (subf (broadcast S256x2048 (Scalar.ofBits .f32 0x00000000#32))
      (minimumf (broadcast S256x2048 (Scalar.ofBits .f32 0x3F7FFFEF#32))
        (maximumf (broadcast S256x2048 (Scalar.ofBits .f32 0x00000000#32))
          (mulf a (broadcastTo S256x2048 p broadcasts_S1x2048_S256x2048))))) (ix2 r k)
      = PropStep.term (a (ix2 r k)) (p (ix2 (0 : Fin 1) k)) := by
  show Ideal.log1p (Ideal.ofBits .f32 0x00000000#32 - min PropStep.hi (max PropStep.lo
      (a (ix2 r k) * broadcastTo S256x2048 p broadcasts_S1x2048_S256x2048 (ix2 r k)))) = _
  rw [broadcastTo_1b_ab_apply, Ideal.ofBits_zero_f32, zero_sub]
  rfl

/-- The payload of a column store at row r, over any adjacency block a, label row p and label column q:
    a · (1 − exp of the sum of the row's 2048 terms) + b · the label. -/
theorem pay_apply (a : Vec Ideal S256x2048 .f32) (p : Vec Ideal S1x2048 .f32) (q : Vec Ideal S256x1 .f32) (r : Fin 256) :
    k2_pay2 a p q (ix2 r (0 : Fin 1))
      = PropStep.wa * (PropStep.one - Ideal.exp (∑ k : Fin 2048, PropStep.term (a (ix2 r k)) (p (ix2 (0 : Fin 1) k))))
        + PropStep.wb * q (ix2 r (0 : Fin 1)) := by
  unfold k2_pay2
  simp only [addf_apply, mulf_apply, subf_apply, broadcast_apply, exp_apply, shapeCast_self]
  rw [shapeCast_a_a1_apply, rowsum_apply]
  refine congrArg₂ (· + ·) (congrArg (PropStep.wa * ·) (congrArg (PropStep.one - ·) (congrArg Ideal.exp
    (Finset.sum_congr rfl fun k _ => ?_)))) rfl
  exact term_apply a p r k

/-! ## The three loads of a column's payload, at an index -/

theorem zero_offsets : (![0, 0] : Fin 2 → Nat) = fun _ => 0 := funext fun a => by fin_cases a <;> rfl

/-- Row c of the transposed labels, loaded as a 1 × 2048 block, reads at (0, k) the matrix at (c, k). -/
theorem ld_row_apply (x1 : Vec Ideal S8x2048 .f32) (c : Fin 8) (inb : ∀ a, (![c.val, 0] : Fin 2 → Nat) a + S1x2048.size a ≤ S8x2048.size a)
    (k : Fin 2048) : View.ld x1 (Rect.unit (s := S8x2048) ![c.val, 0] S1x2048.size inb) (ix2 (0 : Fin 1) k) = x1 (ix2 c k) := by
  show x1 _ = x1 _
  refine congrArg x1 (funext fun a => Fin.ext ?_)
  match a with
  | ⟨0, _⟩ => show c.val + 1 * 0 = c.val; omega
  | ⟨1, _⟩ => show 0 + 1 * k.val = k.val; omega

/-- Column c of a 256 × 8 block, loaded as a 256 × 1 block, reads at (r, 0) the block at (r, c). -/
theorem ld_col_apply (x2 : Vec Ideal S256x8 .f32) (c : Fin 8) (inb : ∀ a, (![0, c.val] : Fin 2 → Nat) a + S256x1.size a ≤ S256x8.size a)
    (r : Fin 256) : View.ld x2 (Rect.unit (s := S256x8) ![0, c.val] S256x1.size inb) (ix2 r (0 : Fin 1)) = x2 (ix2 r c) := by
  show x2 _ = x2 _
  refine congrArg x2 (funext fun a => Fin.ext ?_)
  match a with
  | ⟨0, _⟩ => show 0 + 1 * r.val = r.val; omega
  | ⟨1, _⟩ => show c.val + 1 * 0 = c.val; omega

/-- A column's payload on its three loads — the whole adjacency block, row c of the transposed labels, column c of the
    label block — is the step at (r, c) of the three blocks. -/
theorem colpay_apply (x0 : Vec Ideal S256x2048 .f32) (x1 : Vec Ideal S8x2048 .f32) (x2 : Vec Ideal S256x8 .f32) (c : Fin 8)
    (inbR : ∀ a, (![c.val, 0] : Fin 2 → Nat) a + S1x2048.size a ≤ S8x2048.size a)
    (inbC : ∀ a, (![0, c.val] : Fin 2 → Nat) a + S256x1.size a ≤ S256x8.size a) (r : Fin 256) :
    k2_pay2 (View.ld x0 rA2) (View.ld x1 (Rect.unit (s := S8x2048) ![c.val, 0] S1x2048.size inbR))
        (View.ld x2 (Rect.unit (s := S256x8) ![0, c.val] S256x1.size inbC)) (ix2 r (0 : Fin 1))
      = PropStep.wa * (PropStep.one - Ideal.exp (∑ k : Fin 2048, PropStep.term (x0 (ix2 r k)) (x1 (ix2 c k))))
        + PropStep.wb * x2 (ix2 r c) := by
  refine (pay_apply _ _ _ r).trans ?_
  rw [View.ld_unit_zero zero_offsets, ld_col_apply x2 c inbC r]
  refine congrArg (fun s => PropStep.wa * (PropStep.one - Ideal.exp s) + PropStep.wb * x2 (ix2 r c))
    (Finset.sum_congr rfl fun k _ => ?_)
  rw [ld_row_apply x1 c inbR k]

/-! ## The eight columns: one payload, cut in different places

Column 0's payload is one term from the loads to the stored value. The others are the same sequence of operations with
a cut after the sum, after 1 − exp, after the product, or after a · (1 − exp); composed, each is that one term. -/

variable (x0 : Vec Ideal S256x2048 .f32) (x1 : Vec Ideal S8x2048 .f32) (x2 : Vec Ideal S256x8 .f32)

theorem col2_1_eq : col2_1 x0 x1 x2 = k2_pay2 (View.ld x0 rA2) (View.ld x1 rr2_1) (View.ld x2 rc2_1) := rfl
theorem col2_2_eq : col2_2 x0 x1 x2 = k2_pay2 (View.ld x0 rA2) (View.ld x1 rr2_2) (View.ld x2 rc2_2) := rfl
theorem col2_3_eq : col2_3 x0 x1 x2 = k2_pay2 (View.ld x0 rA2) (View.ld x1 rr2_3) (View.ld x2 rc2_3) := rfl
theorem col2_4_eq : col2_4 x0 x1 x2 = k2_pay2 (View.ld x0 rA2) (View.ld x1 rr2_4) (View.ld x2 rc2_4) := rfl
theorem col2_5_eq : col2_5 x0 x1 x2 = k2_pay2 (View.ld x0 rA2) (View.ld x1 rr2_5) (View.ld x2 rc2_5) := rfl
theorem col2_6_eq : col2_6 x0 x1 x2 = k2_pay2 (View.ld x0 rA2) (View.ld x1 rr2_6) (View.ld x2 rc2_6) := rfl
theorem col2_7_eq : col2_7 x0 x1 x2 = k2_pay2 (View.ld x0 rA2) (View.ld x1 rr2_7) (View.ld x2 rc2_7) := rfl

/-! ## Each column of the output block at a row -/

theorem col2_0_apply (r : Fin 256) : col2_0 x0 x1 x2 (ix2 r (0 : Fin 1))
    = PropStep.wa * (PropStep.one - Ideal.exp (∑ k : Fin 2048, PropStep.term (x0 (ix2 r k)) (x1 (ix2 (0 : Fin 8) k))))
      + PropStep.wb * x2 (ix2 r (0 : Fin 8)) :=
  colpay_apply x0 x1 x2 (0 : Fin 8) inb_S8x2048_S1x2048_0_0 inb_S256x8_S256x1_0_0 r
theorem col2_1_apply (r : Fin 256) : col2_1 x0 x1 x2 (ix2 r (0 : Fin 1))
    = PropStep.wa * (PropStep.one - Ideal.exp (∑ k : Fin 2048, PropStep.term (x0 (ix2 r k)) (x1 (ix2 (1 : Fin 8) k))))
      + PropStep.wb * x2 (ix2 r (1 : Fin 8)) :=
  (congrFun (col2_1_eq x0 x1 x2) (ix2 r (0 : Fin 1))).trans
    (colpay_apply x0 x1 x2 (1 : Fin 8) inb_S8x2048_S1x2048_1_0 inb_S256x8_S256x1_0_1 r)
theorem col2_2_apply (r : Fin 256) : col2_2 x0 x1 x2 (ix2 r (0 : Fin 1))
    = PropStep.wa * (PropStep.one - Ideal.exp (∑ k : Fin 2048, PropStep.term (x0 (ix2 r k)) (x1 (ix2 (2 : Fin 8) k))))
      + PropStep.wb * x2 (ix2 r (2 : Fin 8)) :=
  (congrFun (col2_2_eq x0 x1 x2) (ix2 r (0 : Fin 1))).trans
    (colpay_apply x0 x1 x2 (2 : Fin 8) inb_S8x2048_S1x2048_2_0 inb_S256x8_S256x1_0_2 r)
theorem col2_3_apply (r : Fin 256) : col2_3 x0 x1 x2 (ix2 r (0 : Fin 1))
    = PropStep.wa * (PropStep.one - Ideal.exp (∑ k : Fin 2048, PropStep.term (x0 (ix2 r k)) (x1 (ix2 (3 : Fin 8) k))))
      + PropStep.wb * x2 (ix2 r (3 : Fin 8)) :=
  (congrFun (col2_3_eq x0 x1 x2) (ix2 r (0 : Fin 1))).trans
    (colpay_apply x0 x1 x2 (3 : Fin 8) inb_S8x2048_S1x2048_3_0 inb_S256x8_S256x1_0_3 r)
theorem col2_4_apply (r : Fin 256) : col2_4 x0 x1 x2 (ix2 r (0 : Fin 1))
    = PropStep.wa * (PropStep.one - Ideal.exp (∑ k : Fin 2048, PropStep.term (x0 (ix2 r k)) (x1 (ix2 (4 : Fin 8) k))))
      + PropStep.wb * x2 (ix2 r (4 : Fin 8)) :=
  (congrFun (col2_4_eq x0 x1 x2) (ix2 r (0 : Fin 1))).trans
    (colpay_apply x0 x1 x2 (4 : Fin 8) inb_S8x2048_S1x2048_4_0 inb_S256x8_S256x1_0_4 r)
theorem col2_5_apply (r : Fin 256) : col2_5 x0 x1 x2 (ix2 r (0 : Fin 1))
    = PropStep.wa * (PropStep.one - Ideal.exp (∑ k : Fin 2048, PropStep.term (x0 (ix2 r k)) (x1 (ix2 (5 : Fin 8) k))))
      + PropStep.wb * x2 (ix2 r (5 : Fin 8)) :=
  (congrFun (col2_5_eq x0 x1 x2) (ix2 r (0 : Fin 1))).trans
    (colpay_apply x0 x1 x2 (5 : Fin 8) inb_S8x2048_S1x2048_5_0 inb_S256x8_S256x1_0_5 r)
theorem col2_6_apply (r : Fin 256) : col2_6 x0 x1 x2 (ix2 r (0 : Fin 1))
    = PropStep.wa * (PropStep.one - Ideal.exp (∑ k : Fin 2048, PropStep.term (x0 (ix2 r k)) (x1 (ix2 (6 : Fin 8) k))))
      + PropStep.wb * x2 (ix2 r (6 : Fin 8)) :=
  (congrFun (col2_6_eq x0 x1 x2) (ix2 r (0 : Fin 1))).trans
    (colpay_apply x0 x1 x2 (6 : Fin 8) inb_S8x2048_S1x2048_6_0 inb_S256x8_S256x1_0_6 r)
theorem col2_7_apply (r : Fin 256) : col2_7 x0 x1 x2 (ix2 r (0 : Fin 1))
    = PropStep.wa * (PropStep.one - Ideal.exp (∑ k : Fin 2048, PropStep.term (x0 (ix2 r k)) (x1 (ix2 (7 : Fin 8) k))))
      + PropStep.wb * x2 (ix2 r (7 : Fin 8)) :=
  (congrFun (col2_7_eq x0 x1 x2) (ix2 r (0 : Fin 1))).trans
    (colpay_apply x0 x1 x2 (7 : Fin 8) inb_S8x2048_S1x2048_7_0 inb_S256x8_S256x1_0_7 r)

/-! ## A column store's piece against the block's function -/

/-- A column store's piece agrees with the step on its column: the piece's rectangle places (r, 0) at (r, c). -/
theorem piece_ok (c : Fin 8) (inbC : ∀ a, (![0, c.val] : Fin 2 → Nat) a + S256x1.size a ≤ S256x8.size a)
    (col : FVec Ideal S256x1 .f32)
    (hcol : ∀ r : Fin 256, col (ix2 r (0 : Fin 1))
      = PropStep.wa * (PropStep.one - Ideal.exp (∑ k : Fin 2048, PropStep.term (x0 (ix2 r k)) (x1 (ix2 c k)))) + PropStep.wb * x2 (ix2 r c))
    (x : (Rect.unit (s := S256x8) ![0, c.val] S256x1.size inbC).shape.Idx) :
    col x = (fun j : S256x8.Idx => PropStep.wa * (PropStep.one - Ideal.exp (∑ k : Fin 2048, PropStep.term (x0 (ix2 (j 0) k)) (x1 (ix2 (j 1) k))))
        + PropStep.wb * x2 (ix2 (j 0) (j 1))) ((Rect.unit (s := S256x8) ![0, c.val] S256x1.size inbC).emb x) := by
  obtain ⟨r, u, rfl⟩ : ∃ (r : Fin 256) (u : Fin 1), x = ix2 r u := ⟨x 0, x 1, eq_ix2 x⟩
  obtain rfl : u = 0 := Subsingleton.elim _ _
  have e : (Rect.unit (s := S256x8) ![0, c.val] S256x1.size inbC).emb (ix2 r (0 : Fin 1)) = ix2 r c :=
    funext fun a => Fin.ext (by
      match a with
      | ⟨0, _⟩ => show 0 + 1 * r.val = r.val; omega
      | ⟨1, _⟩ => show c.val + 1 * 0 = c.val; omega)
  rw [e]
  exact hcol r

end Pay2

/-! ## The output block at an index -/

/-- THE OUTPUT BLOCK AT (r, c): the eight column stores tile the block, and each is the step on its column. -/
theorem out2_3_apply (x0 : Vec Ideal S256x2048 .f32) (x1 : Vec Ideal S8x2048 .f32) (x2 : Vec Ideal S256x8 .f32) (r : Fin 256) (c : Fin 8) :
    out2_3 x0 x1 x2 (ix2 r c) = PropStep.wa * (PropStep.one - Ideal.exp (∑ k : Fin 2048, PropStep.term (x0 (ix2 r k)) (x1 (ix2 c k)))) + PropStep.wb * x2 (ix2 r c) := by
  unfold out2_3
  refine (View.canon_apply_of_pieces (fun j : S256x8.Idx => PropStep.wa * (PropStep.one - Ideal.exp (∑ k : Fin 2048, PropStep.term (x0 (ix2 (j 0) k)) (x1 (ix2 (j 1) k))))
        + PropStep.wb * x2 (ix2 (j 0) (j 1))) _ ?_ (ix2 r c) (cover2_3 _ _ _ _ _ _ _ _ (ix2 r c))).trans rfl
  intro p hp
  simp only [List.mem_cons, List.not_mem_nil, or_false] at hp
  rcases hp with rfl | rfl | rfl | rfl | rfl | rfl | rfl | rfl
  · exact Pay2.piece_ok x0 x1 x2 (7 : Fin 8) inb_S256x8_S256x1_0_7 _ (Pay2.col2_7_apply x0 x1 x2)
  · exact Pay2.piece_ok x0 x1 x2 (6 : Fin 8) inb_S256x8_S256x1_0_6 _ (Pay2.col2_6_apply x0 x1 x2)
  · exact Pay2.piece_ok x0 x1 x2 (5 : Fin 8) inb_S256x8_S256x1_0_5 _ (Pay2.col2_5_apply x0 x1 x2)
  · exact Pay2.piece_ok x0 x1 x2 (4 : Fin 8) inb_S256x8_S256x1_0_4 _ (Pay2.col2_4_apply x0 x1 x2)
  · exact Pay2.piece_ok x0 x1 x2 (3 : Fin 8) inb_S256x8_S256x1_0_3 _ (Pay2.col2_3_apply x0 x1 x2)
  · exact Pay2.piece_ok x0 x1 x2 (2 : Fin 8) inb_S256x8_S256x1_0_2 _ (Pay2.col2_2_apply x0 x1 x2)
  · exact Pay2.piece_ok x0 x1 x2 (1 : Fin 8) inb_S256x8_S256x1_0_1 _ (Pay2.col2_1_apply x0 x1 x2)
  · exact Pay2.piece_ok x0 x1 x2 (0 : Fin 8) inb_S256x8_S256x1_0_0 _ (Pay2.col2_0_apply x0 x1 x2)

end Cert.KernelIdeal.HandValue

end
-- ==== Proof.KI_Value2.lean ====
import proofs.«124206_j79594333929560_1_alg».proof.Proof.KI_Body2
import proofs.«124206_j79594333929560_1_alg».proof.Proof.KI_Pay2
import proofs.«124206_j79594333929560_1_alg».proof.Proof.Spec
import Idealize.ShloMosaic.Lib.Pipeline.Value
import Idealize.ShloMosaic.Lib.ValueIdx

/-!
# Propagation step 2: the output array after the eight grid points

Grid point t holds adjacency rows 256·t … 256·t + 255, the whole transposed label matrix, and label rows
256·t … 256·t + 255, and writes back output rows 256·t … 256·t + 255. Entry (r, c) of its output block is the
specification's step at node 256·t + r, class c — the adjacency block's row r is the array's row 256·t + r, the
transposed matrix at (c, k) is the label matrix at (k, c), the label block at (r, c) is the array at (256·t + r, c).
The eight blocks tile the 2048 rows (row i lies in block i / 256), so the output array ends holding the step of the
adjacency matrix and the label matrix, whole.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- One entry of the output block, given where the three input blocks sit in their arrays. -/
theorem block_value2 (x0 : Vec Ideal S256x2048 .f32) (x1 : Vec Ideal S8x2048 .f32) (x2 : Vec Ideal S256x8 .f32)
    (A : PropStep.SNN.Idx → EReal) (P : PropStep.SNC.Idx → EReal) (r : Fin 256) (cc : Fin 8) (R : Fin 2048)
    (h0 : ∀ k : Fin 2048, x0 (ix2 r k) = A (ix2 R k)) (h1 : ∀ k : Fin 2048, x1 (ix2 cc k) = P (ix2 k cc))
    (h2 : x2 (ix2 r cc) = P (ix2 R cc)) :
    out2_3 x0 x1 x2 (ix2 r cc) = PropStep.step A P (ix2 R cc) := by
  rw [out2_3_apply, PropStep.step_apply]
  unfold PropStep.stepAt
  rw [h2]
  simp only [h0, h1]

/-- The printed index maps, decided once over the grid: the adjacency and label blocks move with the output block
    along the rows, the transposed matrix stays. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 7 :=
  (by decide +kernel : ∀ t : Fin grid2.N, _)

/-- Every row block is some point's. -/
theorem idx_onto2 : ∀ q : Fin 8, ∃ t : Fin cfg2.N, win2_3.index t = ![q.val, 0] :=
  (by decide +kernel : ∀ q : Fin 8, ∃ t : Fin grid2.N, win2_3.index t = ![q.val, 0])

variable (V : (c : Dev nD) → (b : Ref sig .tc) → Buf (Elt Ideal) ((c : Thread nD τ).loc b)) (c : Dev nD)

/-- What point t writes back is block t of the step of the two arrays. -/
theorem flushed2_eq (hT : ∀ (k : Fin 2048) (cc : Fin 8), V c main_v46 (ix2 cc k) = V c main_v34 (ix2 k cc)) (t : Fin cfg2.N) :
    (dat2 V c).flushed 3 t = ((cfg2.win 3).blk t).view.read (Elt Ideal) (PropStep.step (V c main_arg0) (V c main_v34)) := by
  show (cfg2.win 3).cut (grid2.coords t) ((dat2 V c).after 3 t) = _
  rw [after2_3]
  obtain ⟨e0, e1, e2, e3, e4, e5, e6, e7⟩ := idx_facts2 t
  funext j
  have hj0 : (j 0).val < 256 := (j 0).isLt
  have hj1 : (j 1).val < 8 := (j 1).isLt
  have ej : j = ix2 (j 0) (j 1) := funext fun a => match a with | ⟨0, _⟩ => rfl | ⟨1, _⟩ => rfl
  show out2_3 (iblk2 V c 0 t) (iblk2 V c 1 t) (iblk2 V c 2 t) j
    = PropStep.step (V c main_arg0) (V c main_v34) (((cfg2.win 3).blk t).view.emb j)
  rw [ej]
  refine (block_value2 (iblk2 V c 0 t) (iblk2 V c 1 t) (iblk2 V c 2 t) (V c main_arg0) (V c main_v34) (j 0) (j 1)
    ⟨win2_3.index t (0 : Fin 2) * 256 + (j 0).val, by omega⟩ (fun k => ?_) (fun k => ?_) ?_).trans ?_
  · show V c main_arg0 (((cfg2.win 0).blk t).view.emb (ix2 (j 0) k)) = V c main_arg0 (ix2 _ k)
    refine congrArg (V c main_arg0) ?_
    funext a; apply Fin.ext
    match a with
    | ⟨0, _⟩ => show win2_0.index t (0 : Fin 2) * 256 + 1 * (j 0).val = win2_3.index t (0 : Fin 2) * 256 + (j 0).val; omega
    | ⟨1, _⟩ => show win2_0.index t (1 : Fin 2) * 2048 + 1 * k.val = k.val; omega
  · show V c main_v46 (((cfg2.win 1).blk t).view.emb (ix2 (j 1) k)) = V c main_v34 (ix2 k (j 1))
    refine Eq.trans (congrArg (V c main_v46) ?_) (hT k (j 1))
    funext a; apply Fin.ext
    match a with
    | ⟨0, _⟩ => show win2_1.index t (0 : Fin 2) * 8 + 1 * (j 1).val = (j 1).val; omega
    | ⟨1, _⟩ => show win2_1.index t (1 : Fin 2) * 2048 + 1 * k.val = k.val; omega
  · show V c main_v34 (((cfg2.win 2).blk t).view.emb (ix2 (j 0) (j 1))) = V c main_v34 (ix2 _ (j 1))
    refine congrArg (V c main_v34) ?_
    funext a; apply Fin.ext
    match a with
    | ⟨0, _⟩ => show win2_2.index t (0 : Fin 2) * 256 + 1 * (j 0).val = win2_3.index t (0 : Fin 2) * 256 + (j 0).val; omega
    | ⟨1, _⟩ => show win2_2.index t (1 : Fin 2) * 8 + 1 * (j 1).val = (j 1).val; omega
  · refine congrArg (PropStep.step (V c main_arg0) (V c main_v34)) ?_
    funext a; apply Fin.ext
    match a with
    | ⟨0, _⟩ => show win2_3.index t (0 : Fin 2) * 256 + (j 0).val = win2_3.index t (0 : Fin 2) * 256 + 1 * (j 0).val; omega
    | ⟨1, _⟩ => show (j 1).val = win2_3.index t (1 : Fin 2) * 8 + 1 * (j 1).val; omega

/-- An index of the output array is in point t's block iff each coordinate is in the block's range on its axis. -/
theorem mem_blk2 (t : Fin cfg2.N) (i : S2048x8.Idx) :
    i ∈ ((cfg2.win 3).blk t).view.set ↔ ∀ a : Fin 2, win2_3.index t a * S256x8.size a ≤ (i a).val ∧ (i a).val < win2_3.index t a * S256x8.size a + S256x8.size a := by
  show i ∈ ((View.whole main_v47).slice (win2_3.rect t)).set ↔ _
  rw [View.set_slice_whole, Rect.mem_set_unit]
  exact Iff.rfl

/-- Every index of the output array lies in some point's block: row i in block i / 256. -/
theorem cover2 (i : S2048x8.Idx) : ∃ t : Fin cfg2.N, (cfg2.win 3).flush t = true ∧ i ∈ ((cfg2.win 3).blk t).view.set := by
  have hi0 : (i 0).val < 2048 := (i 0).isLt
  have hi1 : (i 1).val < 8 := (i 1).isLt
  obtain ⟨t, ht⟩ := idx_onto2 ⟨(i 0).val / 256, by omega⟩
  have q0 : win2_3.index t (0 : Fin 2) = (i 0).val / 256 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 8 ≤ (i 1).val ∧ (i 1).val < win2_3.index t (1 : Fin 2) * 8 + 8; omega

/-- The step's output array after the region: the specification's step of the adjacency matrix and the label matrix,
    given that the region's second operand is the label matrix transposed. -/
theorem region2_value (hT : ∀ (k : Fin 2048) (cc : Fin 8), V c main_v46 (ix2 cc k) = V c main_v34 (ix2 k cc)) :
    (dat2 V c).arrAt 3 cfg2.N = PropStep.step (V c main_arg0) (V c main_v34) :=
  (dat2 V c).arrAt_eq_of_cover 3 (PropStep.step (V c main_arg0) (V c main_v34)) (fun t _ => flushed2_eq V c hT t) cover2

end Cert.KernelIdeal.HandValue

end
-- ==== Proof.KI_Final.lean ====
import proofs.«124206_j79594333929560_1_alg».proof.Proof.KI_Run
import proofs.«124206_j79594333929560_1_alg».proof.Proof.KI_Host
import proofs.«124206_j79594333929560_1_alg».proof.Proof.KI_Value0
import proofs.«124206_j79594333929560_1_alg».proof.Proof.KI_Value1
import proofs.«124206_j79594333929560_1_alg».proof.Proof.KI_Value2
import proofs.«124206_j79594333929560_1_alg».proof.Proof.Spec
import Idealize.ShloMosaic.Lib.ValueLayout

/-!
# What the kernel's program returns, on the extended reals

Following the buffers through the run: the first label matrix P0 is the softmax of the perceptron's output; each
propagation step receives the adjacency matrix, the current label matrix and its transpose, and leaves in its output
array the step of the specification; the host keeps the softmax of each step's result and hands the result itself
to the next step; at the end the three softmaxes are stacked. So the result is the stack of softmax (step P0),
softmax (step (step P0)) and softmax (step (step (step P0))).
-/

noncomputable section

namespace Cert.KernelIdeal.Final

open Cert.KernelIdeal Cert.KernelIdeal.Gen Cert.KernelIdeal.Hand Cert.KernelIdeal.HostValue Cert.KernelIdeal.HandValue
open Idealize.ShloMosaic Idealize.ShloMosaic.TcCoe Idealize.SL.Sem Idealize.ShloMosaic.ValueIdx

variable (m : (ℓ : Loc nD τ sig) → Buf (Elt Ideal) ℓ) (c : Dev nD)

/-- The first label matrix, from the launch memory. -/
def P0 : FVec Ideal S2048x8 .f32 :=
  P0K (F := Ideal) (m ((c : Thread nD τ).loc main_arg1)) (m ((c : Thread nD τ).loc main_arg2)) (m ((c : Thread nD τ).loc main_arg3))
    (m ((c : Thread nD τ).loc main_arg4)) (m ((c : Thread nD τ).loc main_arg5))
/-- The label matrix after one, two and three steps. -/
def S1 : FVec Ideal S2048x8 .f32 := PropStep.step (m ((c : Thread nD τ).loc main_arg0)) (P0 m c)
def S2 : FVec Ideal S2048x8 .f32 := PropStep.step (m ((c : Thread nD τ).loc main_arg0)) (S1 m c)
def S3 : FVec Ideal S2048x8 .f32 := PropStep.step (m ((c : Thread nD τ).loc main_arg0)) (S2 m c)

/-- A buffer no host stretch before the first step writes holds its launch contents at the first step's entry. -/
theorem W3_of (b : Ref sig .tc) (h0 : b ∉ hostOps0_W) (h1 : b ∉ hostOps0_1_W) (h2 : b ∉ hostOps0_2_W) :
    W3 m c (Proc.devRef .tc b) = m ((c : Thread nD τ).loc b) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl

theorem W3_v19 : W3 m c (Proc.devRef .tc main_v19) = P0 m c := by
  refine (h02_v19 (F := Ideal) (W2 m c)).trans ?_
  have e4 : W2 m c (Proc.devRef .tc main_v4) = reluK (F := Ideal) (lin1K (F := Ideal) (m ((c : Thread nD τ).loc main_arg1))
      (m ((c : Thread nD τ).loc main_arg2)) (m ((c : Thread nD τ).loc main_arg3))) :=
    (h01_v4 (F := Ideal) (W1 m c)).trans (congrArg reluK (h0_v3 (F := Ideal) (W0 m c)))
  have e_arg4 : W2 m c (Proc.devRef .tc main_arg4) = m ((c : Thread nD τ).loc main_arg4) :=
    (StableHlo.after_of_writes_sub hostOps0_1 _ hostOps0_1_writes (r := main_arg4) (by decide)).trans
      (StableHlo.after_of_writes_sub hostOps0 _ hostOps0_writes (r := main_arg4) (by decide))
  have e_arg5 : W2 m c (Proc.devRef .tc main_arg5) = m ((c : Thread nD τ).loc main_arg5) :=
    (StableHlo.after_of_writes_sub hostOps0_1 _ hostOps0_1_writes (r := main_arg5) (by decide)).trans
      (StableHlo.after_of_writes_sub hostOps0 _ hostOps0_writes (r := main_arg5) (by decide))
  rw [e4, e_arg4, e_arg5]
  rfl

theorem W3_v20 : W3 m c (Proc.devRef .tc main_v20) = tpK (F := Ideal) (P0 m c) := by
  refine (h02_v20 (F := Ideal) (W2 m c)).trans ?_
  exact congrArg tpK ((h02_v19 (F := Ideal) (W2 m c)).symm.trans (W3_v19 m c))

/-- The first step's output array. -/
theorem W4_v21 : W4 m c (Proc.devRef .tc main_v21) = S1 m c := by
  refine (W4_arr m c 3).trans ?_
  refine (region0_value (VE3 m) c (fun k cc => ?_)).trans ?_
  · show W3 m c (Proc.devRef .tc main_v20) (ix2 cc k) = W3 m c (Proc.devRef .tc main_v19) (ix2 k cc)
    rw [W3_v20, W3_v19]
    exact transpose_ix2_apply _ _ cc k
  · show PropStep.step (W3 m c (Proc.devRef .tc main_arg0)) (W3 m c (Proc.devRef .tc main_v19)) = _
    rw [W3_v19, W3_of m c main_arg0 (by decide) (by decide) (by decide)]
    rfl

/-- The second step's entry: the first step's result, its transpose, its softmax. -/
theorem W5_v21 : W5 m c (Proc.devRef .tc main_v21) = S1 m c :=
  (StableHlo.after_of_writes_sub hostOps1 _ hostOps1_writes (r := main_v21) (by decide)).trans (W4_v21 m c)
theorem W5_v33 : W5 m c (Proc.devRef .tc main_v33) = tpK (F := Ideal) (S1 m c) :=
  (h1_v33 (F := Ideal) (W4 m c)).trans (congrArg tpK (W4_v21 m c))
theorem W5_v32 : W5 m c (Proc.devRef .tc main_v32) = smK (F := Ideal) (S1 m c) :=
  (h1_v32 (F := Ideal) (W4 m c)).trans (congrArg smK (W4_v21 m c))
theorem W5_arg0 : W5 m c (Proc.devRef .tc main_arg0) = m ((c : Thread nD τ).loc main_arg0) :=
  (StableHlo.after_of_writes_sub hostOps1 _ hostOps1_writes (r := main_arg0) (by decide)).trans <|
    (W4_keeps m c main_arg0 (by decide)).trans (W3_of m c main_arg0 (by decide) (by decide) (by decide))

/-- The second step's output array. -/
theorem W6_v34 : W6 m c (Proc.devRef .tc main_v34) = S2 m c := by
  refine (W6_arr m c 3).trans ?_
  refine (region1_value (VE5 m) c (fun k cc => ?_)).trans ?_
  · show W5 m c (Proc.devRef .tc main_v33) (ix2 cc k) = W5 m c (Proc.devRef .tc main_v21) (ix2 k cc)
    rw [W5_v33, W5_v21]
    exact transpose_ix2_apply _ _ cc k
  · show PropStep.step (W5 m c (Proc.devRef .tc main_arg0)) (W5 m c (Proc.devRef .tc main_v21)) = _
    rw [W5_v21, W5_arg0]
    rfl

theorem W7_v34 : W7 m c (Proc.devRef .tc main_v34) = S2 m c :=
  (StableHlo.after_of_writes_sub hostOps2 _ hostOps2_writes (r := main_v34) (by decide)).trans (W6_v34 m c)
theorem W7_v46 : W7 m c (Proc.devRef .tc main_v46) = tpK (F := Ideal) (S2 m c) :=
  (h2_v46 (F := Ideal) (W6 m c)).trans (congrArg tpK (W6_v34 m c))
theorem W7_v45 : W7 m c (Proc.devRef .tc main_v45) = smK (F := Ideal) (S2 m c) :=
  (h2_v45 (F := Ideal) (W6 m c)).trans (congrArg smK (W6_v34 m c))
theorem W7_v32 : W7 m c (Proc.devRef .tc main_v32) = smK (F := Ideal) (S1 m c) :=
  (StableHlo.after_of_writes_sub hostOps2 _ hostOps2_writes (r := main_v32) (by decide)).trans <|
    (W6_keeps m c main_v32 (by decide)).trans (W5_v32 m c)
theorem W7_arg0 : W7 m c (Proc.devRef .tc main_arg0) = m ((c : Thread nD τ).loc main_arg0) :=
  (StableHlo.after_of_writes_sub hostOps2 _ hostOps2_writes (r := main_arg0) (by decide)).trans <|
    (W6_keeps m c main_arg0 (by decide)).trans (W5_arg0 m c)

/-- The third step's output array. -/
theorem W8_v47 : W8 m c (Proc.devRef .tc main_v47) = S3 m c := by
  refine (W8_arr m c 3).trans ?_
  refine (region2_value (VE7 m) c (fun k cc => ?_)).trans ?_
  · show W7 m c (Proc.devRef .tc main_v46) (ix2 cc k) = W7 m c (Proc.devRef .tc main_v34) (ix2 k cc)
    rw [W7_v46, W7_v34]
    exact transpose_ix2_apply _ _ cc k
  · show PropStep.step (W7 m c (Proc.devRef .tc main_arg0)) (W7 m c (Proc.devRef .tc main_v34)) = _
    rw [W7_v34, W7_arg0]
    rfl

/-- The program's result. -/
theorem result_value : W9 m c (Proc.devRef .tc main_v62)
    = stackK (F := Ideal) (smK (F := Ideal) (S1 m c)) (smK (F := Ideal) (S2 m c)) (smK (F := Ideal) (S3 m c)) := by
  refine (h3_v62 (F := Ideal) (W8 m c)).trans ?_
  rw [W8_v47, W8_keeps m c main_v32 (by decide), W8_keeps m c main_v45 (by decide), W7_v32, W7_v45]

end Cert.KernelIdeal.Final

end
-- ==== Proof.RefValueA.lean ====
import proofs.«124206_j79594333929560_1_alg».proof.Proof.Gen.ReferenceIdeal
import Idealize.ShloMosaic.PureOps.Ideal
import Idealize.ShloMosaic.Lib.ValueIdx

/-!
# The reference's host chains around the propagation steps, as functions of arrays

The reference computes class labels for N = 2048 nodes and C = 8 classes in three stretches:

* `P0R`: a two-layer perceptron (a 2048 × 256 feature array times a 256 × 32 weight array plus a bias row, the
  maximum with 0, times a 32 × 8 weight array plus a bias row) followed by the row softmax `smR`;
* three propagation steps, each a function of the adjacency array and the labels before it (they are read entry by
  entry in the sibling modules and are not mentioned here);
* `stackR`: the row softmax of each of the three iterates, each given a leading axis of size one and the three
  joined along it into a 3 × 2048 × 8 array.

The row softmax of `X` is exp (X − m) / Σ exp (X − m) along each row, where m is the maximum of −∞ and the row's
maximum (a fold from −∞) and the sum is the extended reals' sum from 0. Nothing here opens these chains: they are
named so that both programs' results can be stated with the same terms.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- The row maximum of `X`, joined with −∞, as a column that is then spread over the 8 classes. -/
def rowMaxR (X : FVec Ideal S2048x8 .f32) : FVec Ideal S2048x8 .f32 :=
  broadcastInDim S2048x8 ![0, 1] bcast_S2048x1_S2048x8_0_1 (broadcastInDim S2048x1 ![0] bcast_S2048_S2048x1_0
    (maximumf (broadcastInDim S2048 ![] bcast_S_S2048 (constant (F := Ideal) S_ .f32 0xFF800000#32))
      (Host.reduce FloatOps.maximumf X (constant (F := Ideal) S_ .f32 0xFF800000#32) reducesTo_S2048x8_S2048_d1 h_S_)))

/-- exp (X − row maximum). -/
def expShiftR (X : FVec Ideal S2048x8 .f32) : FVec Ideal S2048x8 .f32 :=
  Host.exp (F := Ideal) (subf X (rowMaxR X))

/-- The row softmax: exp (X − row maximum) divided by its row sum, the sum spread over the 8 classes. -/
def smR (X : FVec Ideal S2048x8 .f32) : FVec Ideal S2048x8 .f32 :=
  Host.divf (F := Ideal) (expShiftR X)
    (broadcastInDim S2048x8 ![0, 1] bcast_S2048x1_S2048x8_0_1 (broadcastInDim S2048x1 ![0] bcast_S2048_S2048x1_0
      (Host.reduceAdd (F := Ideal) (expShiftR X) (constant (F := Ideal) S_ .f32 0x00000000#32) reducesTo_S2048x8_S2048_d1 h_S_)))

/-- The perceptron's logits: (max (x · W1 + b1) 0) · W2 + b2, the biases spread over the 2048 rows. -/
def mlpR (a1 : FVec Ideal S2048x256 .f32) (a2 : FVec Ideal S256x32 .f32) (a3 : FVec Ideal S32 .f32)
    (a4 : FVec Ideal S32x8 .f32) (a5 : FVec Ideal S8 .f32) : FVec Ideal S2048x8 .f32 :=
  addf (Host.dotGeneral (F := Ideal) dot_S2048x32_S32x8_S2048x8_1_0_0_1_n_n none
      (maximumf (addf (Host.dotGeneral (F := Ideal) dot_S2048x256_S256x32_S2048x32_1_0_0_1_n_n none a1 a2)
          (broadcastInDim S2048x32 ![0, 1] bcast_S1x32_S2048x32_0_1 (broadcastInDim S1x32 ![1] bcast_S32_S1x32_1 a3)))
        (broadcastInDim S2048x32 ![] bcast_S_S2048x32 (constant (F := Ideal) S_ .f32 0x00000000#32))) a4)
    (broadcastInDim S2048x8 ![0, 1] bcast_S1x8_S2048x8_0_1 (broadcastInDim S1x8 ![1] bcast_S8_S1x8_1 a5))

/-- The initial labels: the row softmax of the perceptron's logits. -/
def P0R (a1 : FVec Ideal S2048x256 .f32) (a2 : FVec Ideal S256x32 .f32) (a3 : FVec Ideal S32 .f32)
    (a4 : FVec Ideal S32x8 .f32) (a5 : FVec Ideal S8 .f32) : FVec Ideal S2048x8 .f32 :=
  smR (mlpR a1 a2 a3 a4 a5)

/-- Three 2048 × 8 arrays, each given a leading axis of size one, joined along it. -/
def stackR (Y1 Y2 Y3 : FVec Ideal S2048x8 .f32) : FVec Ideal S3x2048x8 .f32 :=
  concatenate S3x2048x8 0
    [⟨S1x2048x8, broadcastInDim S1x2048x8 ![1, 2] bcast_S2048x8_S1x2048x8_1_2 Y1⟩,
     ⟨S1x2048x8, broadcastInDim S1x2048x8 ![1, 2] bcast_S2048x8_S1x2048x8_1_2 Y2⟩,
     ⟨S1x2048x8, broadcastInDim S1x2048x8 ![1, 2] bcast_S2048x8_S1x2048x8_1_2 Y3⟩]
    concatenates_S1x2048x8_S1x2048x8_S1x2048x8_S3x2048x8_d0

/-! ### The same chains written out operation by operation -/

/-- The row softmax as the eleven host operations it is. -/
theorem smR_eq (X : FVec Ideal S2048x8 .f32) :
    smR X =
      Host.divf (F := Ideal)
        (Host.exp (F := Ideal) (subf X
          (broadcastInDim S2048x8 ![0, 1] bcast_S2048x1_S2048x8_0_1 (broadcastInDim S2048x1 ![0] bcast_S2048_S2048x1_0
            (maximumf (broadcastInDim S2048 ![] bcast_S_S2048 (constant (F := Ideal) S_ .f32 0xFF800000#32))
              (Host.reduce FloatOps.maximumf X (constant (F := Ideal) S_ .f32 0xFF800000#32) reducesTo_S2048x8_S2048_d1 h_S_))))))
        (broadcastInDim S2048x8 ![0, 1] bcast_S2048x1_S2048x8_0_1 (broadcastInDim S2048x1 ![0] bcast_S2048_S2048x1_0
          (Host.reduceAdd (F := Ideal)
            (Host.exp (F := Ideal) (subf X
              (broadcastInDim S2048x8 ![0, 1] bcast_S2048x1_S2048x8_0_1 (broadcastInDim S2048x1 ![0] bcast_S2048_S2048x1_0
                (maximumf (broadcastInDim S2048 ![] bcast_S_S2048 (constant (F := Ideal) S_ .f32 0xFF800000#32))
                  (Host.reduce FloatOps.maximumf X (constant (F := Ideal) S_ .f32 0xFF800000#32) reducesTo_S2048x8_S2048_d1 h_S_))))))
            (constant (F := Ideal) S_ .f32 0x00000000#32) reducesTo_S2048x8_S2048_d1 h_S_))) := rfl

/-- The initial labels as the row softmax of the perceptron's eight host operations. -/
theorem P0R_eq (a1 : FVec Ideal S2048x256 .f32) (a2 : FVec Ideal S256x32 .f32) (a3 : FVec Ideal S32 .f32)
    (a4 : FVec Ideal S32x8 .f32) (a5 : FVec Ideal S8 .f32) :
    P0R a1 a2 a3 a4 a5 =
      smR (addf (Host.dotGeneral (F := Ideal) dot_S2048x32_S32x8_S2048x8_1_0_0_1_n_n none
          (maximumf (addf (Host.dotGeneral (F := Ideal) dot_S2048x256_S256x32_S2048x32_1_0_0_1_n_n none a1 a2)
              (broadcastInDim S2048x32 ![0, 1] bcast_S1x32_S2048x32_0_1 (broadcastInDim S1x32 ![1] bcast_S32_S1x32_1 a3)))
            (broadcastInDim S2048x32 ![] bcast_S_S2048x32 (constant (F := Ideal) S_ .f32 0x00000000#32))) a4)
        (broadcastInDim S2048x8 ![0, 1] bcast_S1x8_S2048x8_0_1 (broadcastInDim S1x8 ![1] bcast_S8_S1x8_1 a5))) := rfl

/-- The stack as its four host operations. -/
theorem stackR_eq (Y1 Y2 Y3 : FVec Ideal S2048x8 .f32) :
    stackR Y1 Y2 Y3 =
      concatenate S3x2048x8 0
        [⟨S1x2048x8, broadcastInDim S1x2048x8 ![1, 2] bcast_S2048x8_S1x2048x8_1_2 Y1⟩,
         ⟨S1x2048x8, broadcastInDim S1x2048x8 ![1, 2] bcast_S2048x8_S1x2048x8_1_2 Y2⟩,
         ⟨S1x2048x8, broadcastInDim S1x2048x8 ![1, 2] bcast_S2048x8_S1x2048x8_1_2 Y3⟩]
        concatenates_S1x2048x8_S1x2048x8_S1x2048x8_S3x2048x8_d0 := rfl

end Cert.ReferenceIdeal.RefValue

end
-- ==== Proof.RefValueB.lean ====
import proofs.«124206_j79594333929560_1_alg».proof.Proof.RefRead
import proofs.«124206_j79594333929560_1_alg».proof.Proof.Spec

/-!
# The reference's first propagation step, entry by entry

The reference computes a step with full 2048 × 2048 × 8 arrays: the adjacency array spread along the class axis, the
labels spread along the node axis, their product clipped to [0, 1 − 10⁻⁶], negated, passed through log1p, summed over
the neighbour axis from 0, then exp, 1 − ·, the weight 0.9, and the labels' own 0.1 share added. Read at node `r` and
class `c`, the summand at neighbour `k` touches only the adjacency entry (r, k) and the label entry (k, c), so the
whole stretch is the specification's `PropStep.step`. The initial 0 of the sum is the f32 word of zero, the only
literal evaluated; every other literal is the same word on both sides.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.ReadP

/-! ### The first propagation step -/

/-- The broadcast adjacency array, at node `r`, neighbour `k`, class `c`, is the adjacency entry `(r, k)`. -/
theorem adj_at1 (a0 : FVec Ideal S2048x2048 .f32) (r : Fin 2048) (c : Fin 8) (k : Fin 2048) :
    val_main_v22 (F := Ideal) a0 (idx_main_v28 (ix2 r c) k) = a0 (ix2 r k) := by
  rw [val_main_v22_apply, val_main_v20_apply]
  exact congrArg a0 (funext fun a => Fin.ext (by match a with | ⟨0, _⟩ => rfl | ⟨1, _⟩ => rfl))

/-- The broadcast label array, at node `r`, neighbour `k`, class `c`, is the label entry `(k, c)`. -/
theorem lab_at1 (a1 : FVec Ideal S2048x256 .f32) (a2 : FVec Ideal S256x32 .f32)
    (a3 : FVec Ideal S32 .f32) (a4 : FVec Ideal S32x8 .f32) (a5 : FVec Ideal S8 .f32) (r : Fin 2048) (c : Fin 8) (k : Fin 2048) :
    val_main_v23 (F := Ideal) a1 a2 a3 a4 a5 (idx_main_v28 (ix2 r c) k) = val_main_v19 (F := Ideal) a1 a2 a3 a4 a5 (ix2 k c) := by
  rw [val_main_v23_apply, val_main_v21_apply]
  exact congrArg _ (funext fun a => Fin.ext (by match a with | ⟨0, _⟩ => rfl | ⟨1, _⟩ => rfl))

/-- One summand of the reduction: log1p of minus the clipped product of the edge weight and the neighbour's label. -/
theorem term_at1 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) (r : Fin 2048) (c : Fin 8) (k : Fin 2048) :
    val_main_v27 (F := Ideal) a0 a1 a2 a3 a4 a5 (idx_main_v28 (ix2 r c) k)
      = PropStep.term (a0 (ix2 r k)) (val_main_v19 (F := Ideal) a1 a2 a3 a4 a5 (ix2 k c)) := by
  rw [val_main_v27_apply, val_main_v26_apply, val_main_v25_apply, val_main_call1_v4_apply, val_main_call1_v3_apply, val_main_cst_3_apply,
    val_main_call1_v2_apply, val_main_call1_v1_apply, val_main_call1_v0_apply, val_main_cst_2_apply, val_main_v24_apply, adj_at1, lab_at1]
  rfl

/-- The first step of the reference is the specification's step of the adjacency array and the labels before it. -/
theorem step1 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v36 (F := Ideal) a0 a1 a2 a3 a4 a5 = PropStep.step a0 (val_main_v19 (F := Ideal) a1 a2 a3 a4 a5) := by
  funext j
  obtain ⟨r, c, rfl⟩ : ∃ (r : Fin 2048) (c : Fin 8), j = ix2 r c := ⟨j 0, j 1, eq_ix2 j⟩
  rw [PropStep.step_apply, val_main_v36_apply, val_main_v33_apply, val_main_v32_apply, val_main_cst_6_apply, val_main_v31_apply,
    val_main_v30_apply, val_main_cst_5_apply, val_main_v29_apply, val_main_v28_apply, val_main_cst_4_apply, val_main_v35_apply,
    val_main_v34_apply, val_main_cst_7_apply]
  simp only [term_at1]
  rw [show FloatOps.ofBits (F := Ideal) .f32 0x00000000#32 = (0 : EReal) from Ideal.ofBits_zero_f32, zero_add]
  rfl

end Cert.ReferenceIdeal.RefValue

end
-- ==== Proof.RefValueC.lean ====
import proofs.«124206_j79594333929560_1_alg».proof.Proof.RefRead
import proofs.«124206_j79594333929560_1_alg».proof.Proof.Spec

/-!
# The reference's second propagation step, entry by entry

The reference computes a step with full 2048 × 2048 × 8 arrays: the adjacency array spread along the class axis, the
labels spread along the node axis, their product clipped to [0, 1 − 10⁻⁶], negated, passed through log1p, summed over
the neighbour axis from 0, then exp, 1 − ·, the weight 0.9, and the labels' own 0.1 share added. Read at node `r` and
class `c`, the summand at neighbour `k` touches only the adjacency entry (r, k) and the label entry (k, c), so the
whole stretch is the specification's `PropStep.step`. The initial 0 of the sum is the f32 word of zero, the only
literal evaluated; every other literal is the same word on both sides.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.ReadP

/-! ### The second propagation step -/

/-- The broadcast adjacency array, at node `r`, neighbour `k`, class `c`, is the adjacency entry `(r, k)`. -/
theorem adj_at2 (a0 : FVec Ideal S2048x2048 .f32) (r : Fin 2048) (c : Fin 8) (k : Fin 2048) :
    val_main_v50 (F := Ideal) a0 (idx_main_v56 (ix2 r c) k) = a0 (ix2 r k) := by
  rw [val_main_v50_apply, val_main_v48_apply]
  exact congrArg a0 (funext fun a => Fin.ext (by match a with | ⟨0, _⟩ => rfl | ⟨1, _⟩ => rfl))

/-- The broadcast label array, at node `r`, neighbour `k`, class `c`, is the label entry `(k, c)`. -/
theorem lab_at2 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) (r : Fin 2048) (c : Fin 8) (k : Fin 2048) :
    val_main_v51 (F := Ideal) a0 a1 a2 a3 a4 a5 (idx_main_v56 (ix2 r c) k) = val_main_v36 (F := Ideal) a0 a1 a2 a3 a4 a5 (ix2 k c) := by
  rw [val_main_v51_apply, val_main_v49_apply]
  exact congrArg _ (funext fun a => Fin.ext (by match a with | ⟨0, _⟩ => rfl | ⟨1, _⟩ => rfl))

/-- One summand of the reduction: log1p of minus the clipped product of the edge weight and the neighbour's label. -/
theorem term_at2 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) (r : Fin 2048) (c : Fin 8) (k : Fin 2048) :
    val_main_v55 (F := Ideal) a0 a1 a2 a3 a4 a5 (idx_main_v56 (ix2 r c) k)
      = PropStep.term (a0 (ix2 r k)) (val_main_v36 (F := Ideal) a0 a1 a2 a3 a4 a5 (ix2 k c)) := by
  rw [val_main_v55_apply, val_main_v54_apply, val_main_v53_apply, val_main_call2_v4_apply, val_main_call2_v3_apply, val_main_cst_12_apply,
    val_main_call2_v2_apply, val_main_call2_v1_apply, val_main_call2_v0_apply, val_main_cst_11_apply, val_main_v52_apply, adj_at2, lab_at2]
  rfl

/-- The second step of the reference is the specification's step of the adjacency array and the labels before it. -/
theorem step2 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v64 (F := Ideal) a0 a1 a2 a3 a4 a5 = PropStep.step a0 (val_main_v36 (F := Ideal) a0 a1 a2 a3 a4 a5) := by
  funext j
  obtain ⟨r, c, rfl⟩ : ∃ (r : Fin 2048) (c : Fin 8), j = ix2 r c := ⟨j 0, j 1, eq_ix2 j⟩
  rw [PropStep.step_apply, val_main_v64_apply, val_main_v61_apply, val_main_v60_apply, val_main_cst_15_apply, val_main_v59_apply,
    val_main_v58_apply, val_main_cst_14_apply, val_main_v57_apply, val_main_v56_apply, val_main_cst_13_apply, val_main_v63_apply,
    val_main_v62_apply, val_main_cst_16_apply]
  simp only [term_at2]
  rw [show FloatOps.ofBits (F := Ideal) .f32 0x00000000#32 = (0 : EReal) from Ideal.ofBits_zero_f32, zero_add]
  rfl

end Cert.ReferenceIdeal.RefValue

end
-- ==== Proof.RefValueD.lean ====
import proofs.«124206_j79594333929560_1_alg».proof.Proof.RefRead
import proofs.«124206_j79594333929560_1_alg».proof.Proof.Spec

/-!
# The reference's third propagation step, entry by entry

The reference computes a step with full 2048 × 2048 × 8 arrays: the adjacency array spread along the class axis, the
labels spread along the node axis, their product clipped to [0, 1 − 10⁻⁶], negated, passed through log1p, summed over
the neighbour axis from 0, then exp, 1 − ·, the weight 0.9, and the labels' own 0.1 share added. Read at node `r` and
class `c`, the summand at neighbour `k` touches only the adjacency entry (r, k) and the label entry (k, c), so the
whole stretch is the specification's `PropStep.step`. The initial 0 of the sum is the f32 word of zero, the only
literal evaluated; every other literal is the same word on both sides.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.ReadP

/-! ### The third propagation step -/

/-- The broadcast adjacency array, at node `r`, neighbour `k`, class `c`, is the adjacency entry `(r, k)`. -/
theorem adj_at3 (a0 : FVec Ideal S2048x2048 .f32) (r : Fin 2048) (c : Fin 8) (k : Fin 2048) :
    val_main_v78 (F := Ideal) a0 (idx_main_v84 (ix2 r c) k) = a0 (ix2 r k) := by
  rw [val_main_v78_apply, val_main_v76_apply]
  exact congrArg a0 (funext fun a => Fin.ext (by match a with | ⟨0, _⟩ => rfl | ⟨1, _⟩ => rfl))

/-- The broadcast label array, at node `r`, neighbour `k`, class `c`, is the label entry `(k, c)`. -/
theorem lab_at3 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) (r : Fin 2048) (c : Fin 8) (k : Fin 2048) :
    val_main_v79 (F := Ideal) a0 a1 a2 a3 a4 a5 (idx_main_v84 (ix2 r c) k) = val_main_v64 (F := Ideal) a0 a1 a2 a3 a4 a5 (ix2 k c) := by
  rw [val_main_v79_apply, val_main_v77_apply]
  exact congrArg _ (funext fun a => Fin.ext (by match a with | ⟨0, _⟩ => rfl | ⟨1, _⟩ => rfl))

/-- One summand of the reduction: log1p of minus the clipped product of the edge weight and the neighbour's label. -/
theorem term_at3 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) (r : Fin 2048) (c : Fin 8) (k : Fin 2048) :
    val_main_v83 (F := Ideal) a0 a1 a2 a3 a4 a5 (idx_main_v84 (ix2 r c) k)
      = PropStep.term (a0 (ix2 r k)) (val_main_v64 (F := Ideal) a0 a1 a2 a3 a4 a5 (ix2 k c)) := by
  rw [val_main_v83_apply, val_main_v82_apply, val_main_v81_apply, val_main_call3_v4_apply, val_main_call3_v3_apply, val_main_cst_21_apply,
    val_main_call3_v2_apply, val_main_call3_v1_apply, val_main_call3_v0_apply, val_main_cst_20_apply, val_main_v80_apply, adj_at3, lab_at3]
  rfl

/-- The third step of the reference is the specification's step of the adjacency array and the labels before it. -/
theorem step3 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v92 (F := Ideal) a0 a1 a2 a3 a4 a5 = PropStep.step a0 (val_main_v64 (F := Ideal) a0 a1 a2 a3 a4 a5) := by
  funext j
  obtain ⟨r, c, rfl⟩ : ∃ (r : Fin 2048) (c : Fin 8), j = ix2 r c := ⟨j 0, j 1, eq_ix2 j⟩
  rw [PropStep.step_apply, val_main_v92_apply, val_main_v89_apply, val_main_v88_apply, val_main_cst_24_apply, val_main_v87_apply,
    val_main_v86_apply, val_main_cst_23_apply, val_main_v85_apply, val_main_v84_apply, val_main_cst_22_apply, val_main_v91_apply,
    val_main_v90_apply, val_main_cst_25_apply]
  simp only [term_at3]
  rw [show FloatOps.ofBits (F := Ideal) .f32 0x00000000#32 = (0 : EReal) from Ideal.ofBits_zero_f32, zero_add]
  rfl

end Cert.ReferenceIdeal.RefValue

end
-- ==== Proof.RefValue.lean ====
import proofs.«124206_j79594333929560_1_alg».proof.Proof.RefValueA
import proofs.«124206_j79594333929560_1_alg».proof.Proof.RefValueB
import proofs.«124206_j79594333929560_1_alg».proof.Proof.RefValueC
import proofs.«124206_j79594333929560_1_alg».proof.Proof.RefValueD

/-!
# The reference's result as the specification's three steps between named host chains

The reference's result is the stack of the row softmax of the three iterates P₁ = step adj P₀, P₂ = step adj P₁,
P₃ = step adj P₂, where P₀ is the row softmax of the perceptron's logits. The stages around the steps are the named
chains `P0R`, `smR`, `stackR` by unfolding the stages' definitions (the three softmax stretches are the same eleven
operations over different buffers); the steps are the sibling modules' entry-by-entry readings.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.ReadP

/-- The stages up to the first softmax are the initial labels. -/
theorem p0_stage (a1 : FVec Ideal S2048x256 .f32) (a2 : FVec Ideal S256x32 .f32) (a3 : FVec Ideal S32 .f32)
    (a4 : FVec Ideal S32x8 .f32) (a5 : FVec Ideal S8 .f32) :
    val_main_v19 (F := Ideal) a1 a2 a3 a4 a5 = P0R a1 a2 a3 a4 a5 := rfl

/-- The softmax stretch after the first step is the row softmax of the first iterate. -/
theorem sm_stage1 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v47 (F := Ideal) a0 a1 a2 a3 a4 a5 = smR (val_main_v36 (F := Ideal) a0 a1 a2 a3 a4 a5) := rfl

/-- The softmax stretch after the second step is the row softmax of the second iterate. -/
theorem sm_stage2 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v75 (F := Ideal) a0 a1 a2 a3 a4 a5 = smR (val_main_v64 (F := Ideal) a0 a1 a2 a3 a4 a5) := rfl

/-- The softmax stretch after the third step is the row softmax of the third iterate. -/
theorem sm_stage3 (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v103 (F := Ideal) a0 a1 a2 a3 a4 a5 = smR (val_main_v92 (F := Ideal) a0 a1 a2 a3 a4 a5) := rfl

/-- The last four stages are the stack of the three softmax results. -/
theorem stack_stage (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v107 (F := Ideal) a0 a1 a2 a3 a4 a5
      = stackR (val_main_v47 (F := Ideal) a0 a1 a2 a3 a4 a5) (val_main_v75 (F := Ideal) a0 a1 a2 a3 a4 a5)
          (val_main_v103 (F := Ideal) a0 a1 a2 a3 a4 a5) := rfl

/-- The reference's result: the stack of the row softmax of the three iterates of the specification's step from the
    initial labels. -/
theorem ref_value (a0 : FVec Ideal S2048x2048 .f32) (a1 : FVec Ideal S2048x256 .f32) (a2 : FVec Ideal S256x32 .f32)
    (a3 : FVec Ideal S32 .f32) (a4 : FVec Ideal S32x8 .f32) (a5 : FVec Ideal S8 .f32) :
    val_main_v107 (F := Ideal) a0 a1 a2 a3 a4 a5 =
      stackR (smR (PropStep.step a0 (P0R a1 a2 a3 a4 a5)))
        (smR (PropStep.step a0 (PropStep.step a0 (P0R a1 a2 a3 a4 a5))))
        (smR (PropStep.step a0 (PropStep.step a0 (PropStep.step a0 (P0R a1 a2 a3 a4 a5))))) := by
  rw [stack_stage, sm_stage1, sm_stage2, sm_stage3, step3, step2, step1, p0_stage]

end Cert.ReferenceIdeal.RefValue

end
-- ==== Proof.lean ====
/-
  The kernel is three soft-logic propagation steps, each one pallas_call over eight blocks of 256 rows, among
  host operations: a two-layer perceptron and a row softmax before the first step; after each step a row softmax of
  its result (kept for the output) and a transpose of the result (for the next step); at the end the three softmaxes
  stacked. The reference computes each step with [2048, 2048, 8] arrays and the same host operations around it.

  On the extended reals both programs return the stack of softmax (step P0), softmax (step² P0), softmax (step³ P0),
  where P0 is the softmax of the perceptron's output and, at node r and class c,
    step P (r, c) = a · (1 − exp (∑ₖ log1p (−clip (adj (r, k) · P (k, c))))) + b · P (r, c):
  the kernel multiplies a block of adjacency rows by one row of the transposed label matrix and sums along the
  lanes, the reference multiplies two broadcast rank-3 arrays and reduces the middle axis; entry by entry these are
  the same finite sum of the same terms, and a finite sum of extended reals does not depend on its order. No law that
  fails at an infinity is used, so the inputs' finiteness is never opened. The perceptron, the softmax and the
  stacking are the same operations in both programs and are compared as whole functions, never opened.

  The frames: each step's body is run once at a symbolic grid point (it loads its three input blocks, loads and
  discards each output column, and stores the eight columns, which tile the output block); the program is the
  sequence of host stretches and steps, every buffer's contents at each boundary a fold from the launch memory; no
  stretch and no step writes an argument array. The ideal pass rewrote nothing, so the idealization is the program's
  own text and its claim is trivial.
-/
import proofs.«124206_j79594333929560_1_alg».proof.Defs
import proofs.«124206_j79594333929560_1_alg».proof.Proof.Gen.Kernel
import proofs.«124206_j79594333929560_1_alg».proof.Proof.Gen.KernelIdeal
import proofs.«124206_j79594333929560_1_alg».proof.Proof.Gen.ReferenceIdeal
import proofs.«124206_j79594333929560_1_alg».proof.Proof.Gen.Pre_finite_inputs
import proofs.«124206_j79594333929560_1_alg».proof.Proof.K_Run
import proofs.«124206_j79594333929560_1_alg».proof.Proof.KI_Run
import proofs.«124206_j79594333929560_1_alg».proof.Proof.KI_Final
import proofs.«124206_j79594333929560_1_alg».proof.Proof.RefValue
import Idealize.ShloMosaic.Adequacy
import Idealize.ShloMosaic.Init

noncomputable section

namespace Cert.Proof

open Idealize.ShloMosaic Idealize.ShloMosaic.TcCoe Idealize.SL.Sem

/-! ## The shared host chains are the same functions in both programs -/

theorem sm_eq (X : FVec Ideal Cert.KernelIdeal.S2048x8 .f32) :
    Cert.ReferenceIdeal.RefValue.smR X = Cert.KernelIdeal.HostValue.smK (F := Ideal) X := rfl

theorem P0_eq (a1 : FVec Ideal Cert.KernelIdeal.S2048x256 .f32) (a2 : FVec Ideal Cert.KernelIdeal.S256x32 .f32)
    (a3 : FVec Ideal Cert.KernelIdeal.S32 .f32) (a4 : FVec Ideal Cert.KernelIdeal.S32x8 .f32) (a5 : FVec Ideal Cert.KernelIdeal.S8 .f32) :
    Cert.ReferenceIdeal.RefValue.P0R a1 a2 a3 a4 a5 = Cert.KernelIdeal.HostValue.P0K (F := Ideal) a1 a2 a3 a4 a5 := rfl

theorem stack_eq (Y1 Y2 Y3 : FVec Ideal Cert.KernelIdeal.S2048x8 .f32) :
    Cert.ReferenceIdeal.RefValue.stackR Y1 Y2 Y3 = Cert.KernelIdeal.HostValue.stackK (F := Ideal) Y1 Y2 Y3 := rfl

/-! ## The claims -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the stack of the three softmaxes of the iterated
    step of the same first label matrix. -/
theorem algebraic : Cert.algebraic_KernelIdeal_ReferenceIdeal := by
  intro m ρ m' ρ' _ hagree
  refine ⟨fun c => Cert.KernelIdeal.HostValue.stackK (F := Ideal)
      (Cert.KernelIdeal.HostValue.smK (F := Ideal) (Cert.KernelIdeal.Final.S1 m c))
      (Cert.KernelIdeal.HostValue.smK (F := Ideal) (Cert.KernelIdeal.Final.S2 m c))
      (Cert.KernelIdeal.HostValue.smK (F := Ideal) (Cert.KernelIdeal.Final.S3 m c)), ?_, ?_⟩
  · exact (θ_run Cert.KernelIdeal.defs _ _).mono (fun r h c =>
      ⟨(h c _ (Cert.KernelIdeal.Hand.mem_ucH Cert.KernelIdeal.main_v62 (by decide))).trans (Cert.KernelIdeal.Final.result_value m c),
       (h c _ (Cert.KernelIdeal.Hand.mem_ucH Cert.KernelIdeal.main_arg0 (by decide))).trans (Cert.KernelIdeal.Hand.W9_main_arg0 m c),
       (h c _ (Cert.KernelIdeal.Hand.mem_ucH Cert.KernelIdeal.main_arg1 (by decide))).trans (Cert.KernelIdeal.Hand.W9_main_arg1 m c),
       (h c _ (Cert.KernelIdeal.Hand.mem_ucH Cert.KernelIdeal.main_arg2 (by decide))).trans (Cert.KernelIdeal.Hand.W9_main_arg2 m c),
       (h c _ (Cert.KernelIdeal.Hand.mem_ucH Cert.KernelIdeal.main_arg3 (by decide))).trans (Cert.KernelIdeal.Hand.W9_main_arg3 m c),
       (h c _ (Cert.KernelIdeal.Hand.mem_ucH Cert.KernelIdeal.main_arg4 (by decide))).trans (Cert.KernelIdeal.Hand.W9_main_arg4 m c),
       (h c _ (Cert.KernelIdeal.Hand.mem_ucH Cert.KernelIdeal.main_arg5 (by decide))).trans (Cert.KernelIdeal.Hand.W9_main_arg5 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v107_eq, Cert.ReferenceIdeal.RefValue.ref_value,
      (hagree c).1, (hagree c).2.1, (hagree c).2.2.1, (hagree c).2.2.2.1, (hagree c).2.2.2.2.1, (hagree c).2.2.2.2.2,
      stack_eq, sm_eq, sm_eq, sm_eq, P0_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
